-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S64x512 : Shape := ⟨2, ![64, 512]⟩
abbrev S64 : Shape := ⟨1, ![64]⟩
abbrev S512x512x64 : Shape := ⟨3, ![512, 512, 64]⟩
abbrev S512x512 : Shape := ⟨2, ![512, 512]⟩
abbrev S1x512x512x64 : Shape := ⟨4, ![1, 512, 512, 64]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_
  bcast_S_S512x512x64 : S_.BroadcastsInDim S512x512x64 (![] : Fin 0 → Fin S512x512x64.rank)
  reducesTo_S512x512x64_S_d0_1_2 : S512x512x64.ReducesTo [0, 1, 2] S_
  bcast_S_S512x512 : S_.BroadcastsInDim S512x512 (![] : Fin 0 → Fin S512x512.rank)
  reducesTo_S512x512_S_d0_1 : S512x512.ReducesTo [0, 1] S_
  bcast_S_S1x512x512x64 : S_.BroadcastsInDim S1x512x512x64 (![] : Fin 0 → Fin S1x512x512x64.rank)
  reducesTo_S1x512x512x64_S_d0_1_2_3 : S1x512x512x64.ReducesTo [0, 1, 2, 3] S_

variable [Facts]

def fn_part1 {F : FTy → Type} [FloatOps F] (main_arg4 : FVec F S512x512x64 .f32) (main_arg5 : FVec F S512x512 .f32) (main_arg6 : FVec F S1x512x512x64 .f32) (main_v13 : IVec S_ 1) (main_v16 : IVec S512x512x64 1) : IVec S_ 1 :=
  let main_c_5 : IVec S_ 1 := constantI S_ 1 1#1
  let main_v17 : IVec S_ 1 := (fun x v => Host.reduce IntOp.andi x v reducesTo_S512x512x64_S_d0_1_2 h_S_) main_v16 main_c_5
  let main_v18 : IVec S_ 1 := andi main_v13 main_v17
  let main_v19 : FVec F S512x512x64 .f32 := Host.absf main_arg4
  let main_cst_6 : FVec F S_ .f32 := constant S_ .f32 0x7F800000#32
  let main_v20 : FVec F S512x512x64 .f32 := broadcastInDim S512x512x64 ![] bcast_S_S512x512x64 main_cst_6
  let main_v21 : IVec S512x512x64 1 := cmpf .olt main_v19 main_v20
  let main_c_7 : IVec S_ 1 := constantI S_ 1 1#1
  let main_v22 : IVec S_ 1 := (fun x v => Host.reduce IntOp.andi x v reducesTo_S512x512x64_S_d0_1_2 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S1x512x512x64 .f32 := Host.absf main_arg6
  let main_cst_10 : FVec F S_ .f32 := constant S_ .f32 0x7F800000#32
  let main_v30 : FVec F S1x512x512x64 .f32 := broadcastInDim S1x512x512x64 ![] bcast_S_S1x512x512x64 main_cst_10
  let main_v31 : IVec S1x512x512x64 1 := cmpf .olt main_v29 main_v30
  let main_c_11 : IVec S_ 1 := constantI S_ 1 1#1
  let main_v32 : IVec S_ 1 := (fun x v => Host.reduce IntOp.andi x v reducesTo_S1x512x512x64_S_d0_1_2_3 h_S_) main_v31 main_c_11
  let main_v33 : IVec S_ 1 := andi main_v28 main_v32
  main_v33

def fn {F : FTy → Type} [FloatOps F] (main_arg0 : FVec F S4096x512 .f32) (main_arg1 : FVec F S64x512 .f32) (main_arg2 : FVec F S64 .f32) (main_arg3 : FVec F S512x512x64 .f32) (main_arg4 : FVec F S512x512x64 .f32) (main_arg5 : FVec F S512x512 .f32) (main_arg6 : FVec F S1x512x512x64 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S512x512x64 .f32 := Host.absf main_arg3
  let main_cst_4 : FVec F S_ .f32 := constant S_ .f32 0x7F800000#32
  let main_v15 : FVec F S512x512x64 .f32 := broadcastInDim S512x512x64 ![] bcast_S_S512x512x64 main_cst_4
  let main_v16 : IVec S512x512x64 1 := cmpf .olt main_v14 main_v15
  fn_part1 (F := F) main_arg4 main_arg5 main_arg6 main_v13 main_v16
-- ==== Kernel.lean ====
abbrev S4096x512 : Shape := ⟨2, ![4096, 512]⟩
abbrev S64x512 : Shape := ⟨2, ![64, 512]⟩
abbrev S64 : Shape := ⟨1, ![64]⟩
abbrev S512x512x64 : Shape := ⟨3, ![512, 512, 64]⟩
abbrev S512x512 : Shape := ⟨2, ![512, 512]⟩
abbrev S1x512x512x64 : Shape := ⟨4, ![1, 512, 512, 64]⟩
abbrev S512x64 : Shape := ⟨2, ![512, 64]⟩
abbrev S1x512 : Shape := ⟨2, ![1, 512]⟩
abbrev S64x128x64 : Shape := ⟨3, ![64, 128, 64]⟩
abbrev S128x64 : Shape := ⟨2, ![128, 64]⟩
abbrev S1x128 : Shape := ⟨2, ![1, 128]⟩
abbrev S64x128 : Shape := ⟨2, ![64, 128]⟩
abbrev S128 : Shape := ⟨1, ![128]⟩
abbrev S_ : Shape := ⟨0, ![]⟩
abbrev S1x64 : Shape := ⟨2, ![1, 64]⟩
abbrev S1024x512 : Shape := ⟨2, ![1024, 512]⟩
abbrev S1024 : Shape := ⟨1, ![1024]⟩
abbrev S1024x1 : Shape := ⟨2, ![1024, 1]⟩
abbrev S1024x64 : Shape := ⟨2, ![1024, 64]⟩

abbrev nBuf : Space → Nat
  | .hbm => 23
  | .vmem => 21
  | .smem => 0
  | _ => 0

abbrev bufTy : (tb : Table) → Fin (tcTables nBuf tb) → BufTy
  | .hbm, ⟨0, _⟩ => ⟨S4096x512, .f32⟩
  | .hbm, ⟨1, _⟩ => ⟨S64x512, .f32⟩
  | .hbm, ⟨2, _⟩ => ⟨S64, .f32⟩
  | .hbm, ⟨3, _⟩ => ⟨S512x512x64, .f32⟩
  | .hbm, ⟨4, _⟩ => ⟨S512x512x64, .f32⟩
  | .hbm, ⟨5, _⟩ => ⟨S512x512, .f32⟩
  | .hbm, ⟨6, _⟩ => ⟨S1x512x512x64, .f32⟩
  | .hbm, ⟨7, _⟩ => ⟨S512x512x64, .f32⟩
  | .hbm, ⟨8, _⟩ => ⟨S512x64, .f32⟩
  | .hbm, ⟨9, _⟩ => ⟨S1x512, .f32⟩
  | .hbm, ⟨10, _⟩ => ⟨S_, .f32⟩
  | .hbm, ⟨11, _⟩ => ⟨S512x64, .f32⟩
  | .hbm, ⟨12, _⟩ => ⟨S512x64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x64, .f32⟩
  | .hbm, ⟨18, _⟩ => ⟨S64x512, .f32⟩
  | .hbm, ⟨19, _⟩ => ⟨S_, .f32⟩
  | .hbm, ⟨20, _⟩ => ⟨S64, .f32⟩
  | .hbm, ⟨21, _⟩ => ⟨S1x64, .f32⟩
  | .hbm, ⟨22, _⟩ => ⟨S4096x512, .f32⟩
  | .local _ .vmem, ⟨0, _⟩ => ⟨S64x128x64, .f32⟩
  | .local _ .vmem, ⟨1, _⟩ => ⟨S64x128x64, .f32⟩
  | .local _ .vmem, ⟨2, _⟩ => ⟨S64x128x64, .f32⟩
  | .local _ .vmem, ⟨3, _⟩ => ⟨S64x128x64, .f32⟩
  | .local _ .vmem, ⟨4, _⟩ => ⟨S64x128x64, .f32⟩
  | .local _ .vmem, ⟨5, _⟩ => ⟨S64x128x64, .f32⟩
  | .local _ .vmem, ⟨6, _⟩ => ⟨S128x64, .f32⟩
  | .local _ .vmem, ⟨7, _⟩ => ⟨S128x64, .f32⟩
  | .local _ .vmem, ⟨8, _⟩ => ⟨S1x128, .f32⟩
  | .local _ .vmem, ⟨9, _⟩ => ⟨S1x128, .f32⟩
  | .local _ .vmem, ⟨10, _⟩ => ⟨S128x64, .f32⟩
  | .local _ .vmem, ⟨11, _⟩ => ⟨S1x128, .f32⟩
  | .local _ .vmem, ⟨12, _⟩ => ⟨S1024x512, .f32⟩
  | .local _ .vmem, ⟨13, _⟩ => ⟨S1024x512, .f32⟩
  | .local _ .vmem, ⟨14, _⟩ => ⟨S64x512, .f32⟩
  | .local _ .vmem, ⟨15, _⟩ => ⟨S1x64, .f32⟩
  | .local _ .vmem, ⟨16, _⟩ => ⟨S1x64, .f32⟩
  | .local _ .vmem, ⟨17, _⟩ => ⟨S512x64, .f32⟩
  | .local _ .vmem, ⟨18, _⟩ => ⟨S512x512, .f32⟩
  | .local _ .vmem, ⟨19, _⟩ => ⟨S1024x512, .f32⟩
  | .local _ .vmem, ⟨20, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v32 : BitVec 1 := Scalar.cmpi .eq arg1 c7_i32
  let v33 : BitVec 32 := Scalar.extui v32
  let c0_i32_21 : BitVec 32 := 0#32
  let v34 : BitVec 1 := Scalar.cmpi .ne v33 c0_i32_21
  v34

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1024x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S1x512x512x64_S512x512x64 : S1x512x512x64.ShapeCasts S512x512x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S64x128x64_S64x128x64_0_0_0 : ∀ a, (![0, 0, 0] : Fin 3 → Nat) a + S64x128x64.size a ≤ S64x128x64.size a
  h_S64x128x64 : 0 < S64x128x64.numel
  shapeCasts_S64x128x64_S64x128x64 : S64x128x64.ShapeCasts S64x128x64
  reduces_S64x128x64_S128x64 : S64x128x64.Reduces [0] S128x64
  reduces_S64x128x64_S64x128 : S64x128x64.Reduces [2] S64x128
  reduces_S64x128_S128 : S64x128.Reduces [0] S128
  shapeCasts_S128_S1x128 : S128.ShapeCasts S1x128
  bcast_S_S512x64 : S_.BroadcastsInDim S512x64 (![] : Fin 0 → Fin S512x64.rank)
  reducesTo_S1x512_S_d0_1 : S1x512.ReducesTo [0, 1] S_
  h_S_ : 0 < S_.numel
  shapeCasts_S64_S1x64 : S64.ShapeCasts S1x64
  reducesTo_S64x512_S64_d1 : S64x512.ReducesTo [1] S64
  bcast_S64_S1x64_1 : S64.BroadcastsInDim S1x64 (![1] : Fin 1 → Fin S1x64.rank)
  inb_S1024x512_S1024x512_0_0 : ∀ a, (![0, 0] : Fin 2 → Nat) a + S1024x512.size a ≤ S1024x512.size a
  h_S1024x512 : 0 < S1024x512.numel
  inb_S64x512_S64x512_0_0 : ∀ a, (![0, 0] : Fin 2 → Nat) a + S64x512.size a ≤ S64x512.size a
  h_S64x512 : 0 < S64x512.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x512_S512x512_0_0 : ∀ a, (![0, 0] : Fin 2 → Nat) a + S512x512.size a ≤ S512x512.size a
  h_S512x512 : 0 < S512x512.numel
  reduces_S1024x512_S1024 : S1024x512.Reduces [1] S1024
  shapeCasts_S1024_S1024x1 : S1024.ShapeCasts S1024x1
  bitsLt_bf16_f32 : FTy.bits .bf16 < FTy.bits .f32
  broadcasts_S1024x1_S1024x64 : S1024x1.Broadcasts S1024x64
  broadcasts_S1x64_S1024x64 : S1x64.Broadcasts S1024x64
  dot_S1024x512_S64x512_S1024x64_1_1_0_0_n_n_wf : DotDims.WF S1024x512 S64x512 S1024x64 [1] [1] [0] [0] [] []
  dot_S1024x64_S512x64_S1024x512_1_1_0_0_n_n_wf : DotDims.WF S1024x64 S512x64 S1024x512 [1] [1] [0] [0] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x64.size a ≤ S512x512x64.size a
  hwx0_0 : ∀ i : grid0.Coords, EltTy.bits .f32 = 32 ∨ (Rect.block (s := S512x512x64) S64x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128x64.size a ≤ S512x512x64.size a
  hwx0_1 : ∀ i : grid0.Coords, EltTy.bits .f32 = 32 ∨ (Rect.block (s := S512x512x64) S64x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128x64.size a ≤ S512x512x64.size a
  hwx0_2 : ∀ i : grid0.Coords, EltTy.bits .f32 = 32 ∨ (Rect.block (s := S512x512x64) S64x128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S512x64.size a
  hwx0_3 : ∀ i : grid0.Coords, EltTy.bits .f32 = 32 ∨ (Rect.block (s := S512x64) S128x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x512.size a
  hwx0_4 : ∀ i : grid0.Coords, EltTy.bits .f32 = 32 ∨ (Rect.block (s := S1x512) S1x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x512.size a
  hwx1_0 : ∀ i : grid1.Coords, EltTy.bits .f32 = 32 ∨ (Rect.block (s := S4096x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x512.size a ≤ S64x512.size a
  hwx1_1 : ∀ i : grid1.Coords, EltTy.bits .f32 = 32 ∨ (Rect.block (s := S64x512) S64x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x64.size a ≤ S512x64.size a
  hwx1_4 : ∀ i : grid1.Coords, EltTy.bits .f32 = 32 ∨ (Rect.block (s := S512x64) S512x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .f32 = 32 ∨ (Rect.block (s := S512x512) S512x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x512.size a ≤ S4096x512.size a
  hwx1_6 : ∀ i : grid1.Coords, EltTy.bits .f32 = 32 ∨ (Rect.block (s := S4096x512) S1024x512.size (cc1_transform_6 i) (hinb1_6 i)).WholeWords (EltTy.packing .f32)

variable [Facts₀]

def dot_S1024x512_S64x512_S1024x64_1_1_0_0_n_n : DotDims S1024x512 S64x512 S1024x64 where
  lhsContracting := [1]
  rhsContracting := [1]
  lhsNonContracting := [0]
  rhsNonContracting := [0]
  lhsBatch := []
  rhsBatch := []
  wf := dot_S1024x512_S64x512_S1024x64_1_1_0_0_n_n_wf
def dot_S1024x64_S512x64_S1024x512_1_1_0_0_n_n : DotDims S1024x64 S512x64 S1024x512 where
  lhsContracting := [1]
  rhsContracting := [1]
  lhsNonContracting := [0]
  rhsNonContracting := [0]
  lhsBatch := []
  rhsBatch := []
  wf := dot_S1024x64_S512x64_S1024x512_1_1_0_0_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg3) S64x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x128x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S128x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S64x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S512x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1024x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4096x512 : Shape := ⟨2, ![4096, 512]⟩
abbrev S64x512 : Shape := ⟨2, ![64, 512]⟩
abbrev S64 : Shape := ⟨1, ![64]⟩
abbrev S512x512x64 : Shape := ⟨3, ![512, 512, 64]⟩
abbrev S512x512 : Shape := ⟨2, ![512, 512]⟩
abbrev S1x512x512x64 : Shape := ⟨4, ![1, 512, 512, 64]⟩
abbrev S4096x1x512 : Shape := ⟨3, ![4096, 1, 512]⟩
abbrev S1x64x512 : Shape := ⟨3, ![1, 64, 512]⟩
abbrev S4096x64x512 : Shape := ⟨3, ![4096, 64, 512]⟩
abbrev S_ : Shape := ⟨0, ![]⟩
abbrev S4096x64 : Shape := ⟨2, ![4096, 64]⟩
abbrev S1x64 : Shape := ⟨2, ![1, 64]⟩
abbrev S1x512x64 : Shape := ⟨3, ![1, 512, 64]⟩
abbrev S512x64 : Shape := ⟨2, ![512, 64]⟩

abbrev nBuf : Space → Nat
  | .hbm => 57
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S64x512, .f32⟩
  | .hbm, ⟨2, _⟩ => ⟨S64, .f32⟩
  | .hbm, ⟨3, _⟩ => ⟨S512x512x64, .f32⟩
  | .hbm, ⟨4, _⟩ => ⟨S512x512x64, .f32⟩
  | .hbm, ⟨5, _⟩ => ⟨S512x512, .f32⟩
  | .hbm, ⟨6, _⟩ => ⟨S1x512x512x64, .f32⟩
  | .hbm, ⟨7, _⟩ => ⟨S4096x1x512, .f32⟩
  | .hbm, ⟨8, _⟩ => ⟨S1x64x512, .f32⟩
  | .hbm, ⟨9, _⟩ => ⟨S4096x64x512, .f32⟩
  | .hbm, ⟨10, _⟩ => ⟨S4096x64x512, .f32⟩
  | .hbm, ⟨11, _⟩ => ⟨S4096x64x512, .f32⟩
  | .hbm, ⟨12, _⟩ => ⟨S4096x64x512, .f32⟩
  | .hbm, ⟨13, _⟩ => ⟨S_, .f32⟩
  | .hbm, ⟨14, _⟩ => ⟨S4096x64, .f32⟩
  | .hbm, ⟨15, _⟩ => ⟨S64, .f32⟩
  | .hbm, ⟨16, _⟩ => ⟨S4096x64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S1x64, .f32⟩
  | .hbm, ⟨25, _⟩ => ⟨S4096x64, .f32⟩
  | .hbm, ⟨26, _⟩ => ⟨S4096x64, .f32⟩
  | .hbm, ⟨27, _⟩ => ⟨S4096x64, .f32⟩
  | .hbm, ⟨28, _⟩ => ⟨S_, .f32⟩
  | .hbm, ⟨29, _⟩ => ⟨S512x512x64, .f32⟩
  | .hbm, ⟨30, _⟩ => ⟨S512x512x64, .f32⟩
  | .hbm, ⟨31, _⟩ => ⟨S512x512x64, .f32⟩
  | .hbm, ⟨32, _⟩ => ⟨S1x512x512x64, .f32⟩
  | .hbm, ⟨33, _⟩ => ⟨S1x512x512x64, .f32⟩
  | .hbm, ⟨34, _⟩ => ⟨S1x512x512x64, .f32⟩
  | .hbm, ⟨35, _⟩ => ⟨S1x512x512x64, .f32⟩
  | .hbm, ⟨36, _⟩ => ⟨S_, .f32⟩
  | .hbm, ⟨37, _⟩ => ⟨S1x512x64, .f32⟩
  | .hbm, ⟨38, _⟩ => ⟨S_, .f32⟩
  | .hbm, ⟨39, _⟩ => ⟨S512x64, .f32⟩
  | .hbm, ⟨40, _⟩ => ⟨S4096x512, .f32⟩
  | .hbm, ⟨41, _⟩ => ⟨S_, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S512x512x64, .f32⟩
  | .hbm, ⟨47, _⟩ => ⟨S512x512x64, .f32⟩
  | .hbm, ⟨48, _⟩ => ⟨S512x512x64, .f32⟩
  | .hbm, ⟨49, _⟩ => ⟨S_, .f32⟩
  | .hbm, ⟨50, _⟩ => ⟨S512x512x64, .f32⟩
  | .hbm, ⟨51, _⟩ => ⟨S512x512x64, .f32⟩
  | .hbm, ⟨52, _⟩ => ⟨S512x512x64, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩

abbrev nD : Nat := 1
abbrev τ : Topo := Topo.v7x

variable {F : FTy → Type} [FloatOps F]

class Facts₀ : Prop where
  bcast_S4096x512_S4096x1x512_0_2 : S4096x512.BroadcastsInDim S4096x1x512 (![0, 2] : Fin 2 → Fin S4096x1x512.rank)
  bcast_S64x512_S1x64x512_1_2 : S64x512.BroadcastsInDim S1x64x512 (![1, 2] : Fin 2 → Fin S1x64x512.rank)
  bcast_S4096x1x512_S4096x64x512_0_1_2 : S4096x1x512.BroadcastsInDim S4096x64x512 (![0, 1, 2] : Fin 3 → Fin S4096x64x512.rank)
  bcast_S1x64x512_S4096x64x512_0_1_2 : S1x64x512.BroadcastsInDim S4096x64x512 (![0, 1, 2] : Fin 3 → Fin S4096x64x512.rank)
  reducesTo_S4096x64x512_S4096x64_d2 : S4096x64x512.ReducesTo [2] S4096x64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S512x512x64 : S_.BroadcastsInDim S512x512x64 (![] : Fin 0 → Fin S512x512x64.rank)
  bcast_S512x512x64_S1x512x512x64_1_2_3 : S512x512x64.BroadcastsInDim S1x512x512x64 (![1, 2, 3] : Fin 3 → Fin S1x512x512x64.rank)
  reducesTo_S1x512x512x64_S1x512x64_d1 : S1x512x512x64.ReducesTo [1] S1x512x64
  reducesTo_S1x512x64_S512x64_d0 : S1x512x64.ReducesTo [0] S512x64
  bcast_S_S4096x512 : S_.BroadcastsInDim S4096x512 (![] : Fin 0 → Fin S4096x512.rank)
  reducesTo_S512x512x64_S_d0_1_2 : S512x512x64.ReducesTo [0, 1, 2] S_
  dot_S4096x64_S512x64_S4096x512_1_1_0_0_n_n_wf : DotDims.WF S4096x64 S512x64 S4096x512 [1] [1] [0] [0] [] []
  dot_S4096x512_S512x512_S4096x512_1_0_0_1_n_n_wf : DotDims.WF S4096x512 S512x512 S4096x512 [1] [0] [0] [1] [] []

variable [Facts₀]

def dot_S4096x64_S512x64_S4096x512_1_1_0_0_n_n : DotDims S4096x64 S512x64 S4096x512 where
  lhsContracting := [1]
  rhsContracting := [1]
  lhsNonContracting := [0]
  rhsNonContracting := [0]
  lhsBatch := []
  rhsBatch := []
  wf := dot_S4096x64_S512x64_S4096x512_1_1_0_0_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

class Facts : Prop extends Facts₀ where

variable [Facts]
-- ==== Proof.K.Reg0.lean ====
/-
  The first kernel region of the program (the coefficient pass), at the contents `V` the region finds in the core's
  buffers when it is entered.

  The grid has 4 × 8 points, point t = 8·a + j. Block (j, a) of each of the three [512,512,64] inputs — 64 input
  features by 128 output features by all 64 centres — is staged at point t. Two accumulators live in scratch across the
  8 points of a run (fixed a): the [128,64] sum over the features of mean + noise · exp(½ · log-variance), and the
  [1,128] sum over features and centres of the divergence term. At j = 0 both are cleared before the point's block is
  added; at j = 7, after the block is added, both are copied to the two outputs' blocks (row block a of the [512,64]
  output, column block a of the [1,512] one), which are written back only there. So a point is in one of three cases:
  first of a run (clear, add), middle (add), last (add, copy out).

  Below: each window's block as a function of `V`; the two conditions in closed form over the grid; the body's run in
  each case, on any staging memrefs; what the outputs and the two accumulators hold after every point, by recursion on the
  point; the region's proof data — its invariant holds the two accumulators at what the point before left — and the
  body obligation.
-/
import proofs.«122315_j80719615361567_2_alg».proof.Proof.Gen.Kernel.Launch
import proofs.«122315_j80719615361567_2_alg».proof.Proof.Gen.Kernel.Skeleton
import proofs.«122315_j80719615361567_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    `V`'s and whose body leaves the block in place: each of the three inputs is fetched at every point. -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The two conditions of the body, in closed form over the grid -/

/-- "This is the first point of its run" as the body computes it from the second grid coordinate. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- "This is the last point of its run". -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live_in0 : ∀ t : Fin cfg0.N, cfg0.idle 0 (grid0.coords t) = false := by decide +kernel
theorem live_in1 : ∀ t : Fin cfg0.N, cfg0.idle 1 (grid0.coords t) = false := by decide +kernel
theorem live_in2 : ∀ t : Fin cfg0.N, cfg0.idle 2 (grid0.coords t) = false := by decide +kernel
/-- Away from a run's last point the two outputs are idle: the body stores nothing into them and the pipeline does not
    write them back. -/
theorem idle_out3 : ∀ t : Fin cfg0.N, ¬isLast (grid0.coords t) → cfg0.idle 3 (grid0.coords t) = true := by decide +kernel
theorem idle_out4 : ∀ t : Fin cfg0.N, ¬isLast (grid0.coords t) → cfg0.idle 4 (grid0.coords t) = true := by decide +kernel
theorem noflush_out3 : ∀ t : Fin cfg0.N, ¬isLast (grid0.coords t) → (cfg0.win 3).flush t = false := by decide +kernel
theorem noflush_out4 : ∀ t : Fin cfg0.N, ¬isLast (grid0.coords t) → (cfg0.win 4).flush t = false := by decide +kernel
/-- At a run's last point they are live. -/
theorem live_out3 : ∀ t : Fin cfg0.N, isLast (grid0.coords t) → cfg0.idle 3 (grid0.coords t) = false := by decide +kernel
theorem live_out4 : ∀ t : Fin cfg0.N, isLast (grid0.coords t) → cfg0.idle 4 (grid0.coords t) = false := by decide +kernel

/-! ## Names for the memrefs the body is called with -/

/-- One staging buffer of each output window, through which its contents are stated. -/
abbrev VO3 : View sig .tc .vmem S128x64 .f32 := (Memref.whole cc0_stg3_0 : Memref sig .tc .vmem S128x64 .f32).view
abbrev VO4 : View sig .tc .vmem S1x128 .f32 := (Memref.whole cc0_stg4_0 : Memref sig .tc .vmem S1x128 .f32).view
abbrev ms0 (t : Fin cfg0.N) : Memref sig .tc .vmem S64x128x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x128x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x128x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
/-- The two accumulators: whole scoped buffers of the kernel's own. -/
abbrev accM : Memref sig .tc .vmem S128x64 .f32 := Memref.whole cc0_scratch0
abbrev klM : Memref sig .tc .vmem S1x128 .f32 := Memref.whole cc0_scratch1
abbrev VA : View sig .tc .vmem S128x64 .f32 := (accM).view
abbrev VK : View sig .tc .vmem S1x128 .f32 := (klM).view

/-! ## The body's run, case by case -/

set_option maxHeartbeats 1000000 in
/-- FIRST point of a run (cleared, then the block added; nothing copied out). On whole memrefs — the inputs' at their
    contents, the outputs' at contents handed back untouched, the accumulators at anything — the body runs to the
    continuation with the inputs and outputs as they were and each accumulator with the pieces its stores wrote, which the
    run finds. -/
noncomputable def runFirst (c : Dev nD) (i : grid0.Coords)
    (a2 : Memref sig .tc .vmem S64x128x64 .f32) (h2 : a2.IsWhole) (a3 : Memref sig .tc .vmem S64x128x64 .f32) (h3 : a3.IsWhole)
    (a4 : Memref sig .tc .vmem S64x128x64 .f32) (h4 : a4.IsWhole) (a5 : Memref sig .tc .vmem S128x64 .f32) (h5 : a5.IsWhole)
    (a6 : Memref sig .tc .vmem S1x128 .f32) (h6 : a6.IsWhole) (a7 : Memref sig .tc .vmem S128x64 .f32) (h7 : a7.IsWhole)
    (a8 : Memref sig .tc .vmem S1x128 .f32) (h8 : a8.IsWhole) (hc0 : isFirst i) (hc1 : ¬isLast i)
    (x0 x1 x2 : Vec F S64x128x64 .f32) :
    Σ' (LA : List (View.Piece (Elt F) S128x64 .f32)), { LK : List (View.Piece (Elt F) S1x128 .f32) //
      ∀ (xi3 : Vec F S128x64 .f32) (xi4 : Vec F S1x128 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare xi3 ∗ owns (c : Thread nD τ) a6 fullShare xi4
            ∗ (∃ d, owns (c : Thread nD τ) a7 fullShare d) ∗ (∃ d, owns (c : Thread nD τ) a8 fullShare d)
            ∗ (iprop(owns (c : Thread nD τ) a2 fullShare x0 ∗ owns (c : Thread nD τ) a3 fullShare x1 ∗ owns (c : Thread nD τ) a4 fullShare x2
                ∗ owns (c : Thread nD τ) a5 fullShare xi3 ∗ owns (c : Thread nD τ) a6 fullShare xi4
                ∗ (∃ f, a7.view.loc (c : Thread nD τ) ↦[a7.view.set]{fullShare} a7.view.writes (Elt F) f LA)
                ∗ (∃ f, a8.view.loc (c : Thread nD τ) ↦[a8.view.set]{fullShare} a8.view.writes (Elt F) f LK)) -∗ K ⟨⟩))
          ⊢ wp frame (wpE (defs₀ (F := F)) Variants.none c none) E (cc0__coeff_kernel i a2 h2 a3 h3 a4 h4 a5 h5 a6 h6 a7 h7 a8 h8) K } := by
  refine ⟨?_, ?_, fun xi3 xi4 E K => ?run⟩
  case run =>
    simp only [cc0__coeff_kernel_eq_skeleton]; unfold cc0__coeff_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := h2.eq_unread hf0; obtain rfl := h3.eq_unread hf1; obtain rfl := h4.eq_unread hf2
    obtain rfl := h5.eq_unread hf3; obtain rfl := h6.eq_unread hf4
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [HS0]
    · iexists _; iexact HS0
    iexists _; iexact HS1

set_option maxHeartbeats 1000000 in
/-- MIDDLE point of a run (the block added to what the point before left; nothing copied out): the accumulators enter
    at the contents `sA`, `sK` the point before left. -/
noncomputable def runMid (c : Dev nD) (i : grid0.Coords)
    (a2 : Memref sig .tc .vmem S64x128x64 .f32) (h2 : a2.IsWhole) (a3 : Memref sig .tc .vmem S64x128x64 .f32) (h3 : a3.IsWhole)
    (a4 : Memref sig .tc .vmem S64x128x64 .f32) (h4 : a4.IsWhole) (a5 : Memref sig .tc .vmem S128x64 .f32) (h5 : a5.IsWhole)
    (a6 : Memref sig .tc .vmem S1x128 .f32) (h6 : a6.IsWhole) (a7 : Memref sig .tc .vmem S128x64 .f32) (h7 : a7.IsWhole)
    (a8 : Memref sig .tc .vmem S1x128 .f32) (h8 : a8.IsWhole) (hc0 : ¬isFirst i) (hc1 : ¬isLast i)
    (x0 x1 x2 : Vec F S64x128x64 .f32) (sA : Vec F S128x64 .f32) (sK : Vec F S1x128 .f32) :
    Σ' (LA : List (View.Piece (Elt F) S128x64 .f32)), { LK : List (View.Piece (Elt F) S1x128 .f32) //
      ∀ (xi3 : Vec F S128x64 .f32) (xi4 : Vec F S1x128 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare xi3 ∗ owns (c : Thread nD τ) a6 fullShare xi4
            ∗ owns (c : Thread nD τ) a7 fullShare sA ∗ owns (c : Thread nD τ) a8 fullShare sK
            ∗ (iprop(owns (c : Thread nD τ) a2 fullShare x0 ∗ owns (c : Thread nD τ) a3 fullShare x1 ∗ owns (c : Thread nD τ) a4 fullShare x2
                ∗ owns (c : Thread nD τ) a5 fullShare xi3 ∗ owns (c : Thread nD τ) a6 fullShare xi4
                ∗ (∃ f, a7.view.loc (c : Thread nD τ) ↦[a7.view.set]{fullShare} a7.view.writes (Elt F) f LA)
                ∗ (∃ f, a8.view.loc (c : Thread nD τ) ↦[a8.view.set]{fullShare} a8.view.writes (Elt F) f LK)) -∗ K ⟨⟩))
          ⊢ wp frame (wpE (defs₀ (F := F)) Variants.none c none) E (cc0__coeff_kernel i a2 h2 a3 h3 a4 h4 a5 h5 a6 h6 a7 h7 a8 h8) K } := by
  refine ⟨?_, ?_, fun xi3 xi4 E K => ?run⟩
  case run =>
    simp only [cc0__coeff_kernel_eq_skeleton]; unfold cc0__coeff_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := h2.eq_unread hf0; obtain rfl := h3.eq_unread hf1; obtain rfl := h4.eq_unread hf2
    obtain rfl := h5.eq_unread hf3; obtain rfl := h6.eq_unread hf4
    obtain rfl := h7.eq_unread hfs0; obtain rfl := h8.eq_unread hfs1
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [HS0]
    · iexists _; iexact HS0
    iexists _; iexact HS1

set_option maxHeartbeats 1000000 in
/-- LAST point of a run (the block added, then both accumulators copied to the outputs' blocks): the outputs enter at
    anything and leave with the pieces the copies wrote. -/
noncomputable def runLast (c : Dev nD) (i : grid0.Coords)
    (a2 : Memref sig .tc .vmem S64x128x64 .f32) (h2 : a2.IsWhole) (a3 : Memref sig .tc .vmem S64x128x64 .f32) (h3 : a3.IsWhole)
    (a4 : Memref sig .tc .vmem S64x128x64 .f32) (h4 : a4.IsWhole) (a5 : Memref sig .tc .vmem S128x64 .f32) (h5 : a5.IsWhole)
    (a6 : Memref sig .tc .vmem S1x128 .f32) (h6 : a6.IsWhole) (a7 : Memref sig .tc .vmem S128x64 .f32) (h7 : a7.IsWhole)
    (a8 : Memref sig .tc .vmem S1x128 .f32) (h8 : a8.IsWhole) (hc0 : ¬isFirst i) (hc1 : isLast i)
    (x0 x1 x2 : Vec F S64x128x64 .f32) (sA : Vec F S128x64 .f32) (sK : Vec F S1x128 .f32) :
    Σ' (L3 : List (View.Piece (Elt F) S128x64 .f32)) (L4 : List (View.Piece (Elt F) S1x128 .f32))
       (LA : List (View.Piece (Elt F) S128x64 .f32)), { LK : List (View.Piece (Elt F) S1x128 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ (∃ d, owns (c : Thread nD τ) a5 fullShare d) ∗ (∃ d, owns (c : Thread nD τ) a6 fullShare d)
            ∗ owns (c : Thread nD τ) a7 fullShare sA ∗ owns (c : Thread nD τ) a8 fullShare sK
            ∗ (iprop(owns (c : Thread nD τ) a2 fullShare x0 ∗ owns (c : Thread nD τ) a3 fullShare x1 ∗ owns (c : Thread nD τ) a4 fullShare x2
                ∗ (∃ f, a5.view.loc (c : Thread nD τ) ↦[a5.view.set]{fullShare} a5.view.writes (Elt F) f L3)
                ∗ (∃ f, a6.view.loc (c : Thread nD τ) ↦[a6.view.set]{fullShare} a6.view.writes (Elt F) f L4)
                ∗ (∃ f, a7.view.loc (c : Thread nD τ) ↦[a7.view.set]{fullShare} a7.view.writes (Elt F) f LA)
                ∗ (∃ f, a8.view.loc (c : Thread nD τ) ↦[a8.view.set]{fullShare} a8.view.writes (Elt F) f LK)) -∗ K ⟨⟩))
          ⊢ wp frame (wpE (defs₀ (F := F)) Variants.none c none) E (cc0__coeff_kernel i a2 h2 a3 h3 a4 h4 a5 h5 a6 h6 a7 h7 a8 h8) K } := by
  refine ⟨?_, ?_, ?_, ?_, fun E K => ?run⟩
  case run =>
    simp only [cc0__coeff_kernel_eq_skeleton]; unfold cc0__coeff_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := h2.eq_unread hf0; obtain rfl := h3.eq_unread hf1; obtain rfl := h4.eq_unread hf2
    obtain rfl := h7.eq_unread hfs0; obtain rfl := h8.eq_unread hfs1
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; iexact H3
    isplitl [H4]
    · iexists _; iexact H4
    isplitl [HS0]
    · iexists _; iexact HS0
    iexists _; iexact HS1

/-! ## What each case leaves, at a point of the grid -/

/-- The three runs at point `t`: on the point's staging memrefs and the two accumulators, from the point's input blocks. -/
abbrev RF (c : Dev nD) (t : Fin cfg0.N) (hc0 : isFirst (grid0.coords t)) (hc1 : ¬isLast (grid0.coords t)) :=
  runFirst (F := F) c (grid0.coords t) (ms0 t) (hs0 t) (ms1 t) (hs1 t) (ms2 t) (hs2 t) (ms3 t) (hs3 t) (ms4 t) (hs4 t) accM (Memref.isWhole_whole _) klM (Memref.isWhole_whole _) hc0 hc1 (iblk V c 0 t) (iblk V c 1 t) (iblk V c 2 t)
abbrev RM (c : Dev nD) (t : Fin cfg0.N) (hc0 : ¬isFirst (grid0.coords t)) (hc1 : ¬isLast (grid0.coords t)) (sA : Vec F S128x64 .f32) (sK : Vec F S1x128 .f32) :=
  runMid (F := F) c (grid0.coords t) (ms0 t) (hs0 t) (ms1 t) (hs1 t) (ms2 t) (hs2 t) (ms3 t) (hs3 t) (ms4 t) (hs4 t) accM (Memref.isWhole_whole _) klM (Memref.isWhole_whole _) hc0 hc1 (iblk V c 0 t) (iblk V c 1 t) (iblk V c 2 t) sA sK
abbrev RL (c : Dev nD) (t : Fin cfg0.N) (hc0 : ¬isFirst (grid0.coords t)) (hc1 : isLast (grid0.coords t)) (sA : Vec F S128x64 .f32) (sK : Vec F S1x128 .f32) :=
  runLast (F := F) c (grid0.coords t) (ms0 t) (hs0 t) (ms1 t) (hs1 t) (ms2 t) (hs2 t) (ms3 t) (hs3 t) (ms4 t) (hs4 t) accM (Memref.isWhole_whole _) klM (Memref.isWhole_whole _) hc0 hc1 (iblk V c 0 t) (iblk V c 1 t) (iblk V c 2 t) sA sK

/-- A list of pieces read back through an accumulator's (an output's) view, over contents nothing consults. -/
abbrev rdA (L : List (View.Piece (Elt F) S128x64 .f32)) : Vec F S128x64 .f32 := VA.read (Elt F) (VA.writes (Elt F) VA.junk L)
abbrev rdK (L : List (View.Piece (Elt F) S1x128 .f32)) : Vec F S1x128 .f32 := VK.read (Elt F) (VK.writes (Elt F) VK.junk L)
abbrev rd3 (L : List (View.Piece (Elt F) S128x64 .f32)) : Vec F S128x64 .f32 := VO3.read (Elt F) (VO3.writes (Elt F) VO3.junk L)
abbrev rd4 (L : List (View.Piece (Elt F) S1x128 .f32)) : Vec F S1x128 .f32 := VO4.read (Elt F) (VO4.writes (Elt F) VO4.junk L)

/-- Each case's pieces tile the buffer they are written to, so they cover it. -/
theorem coverA_first (c : Dev nD) (t : Fin cfg0.N) (hc0) (hc1) (y : S128x64.Idx) : ∃ pc ∈ (RF V c t hc0 hc1).1, y ∈ pc.1.set :=
  View.cover_of_tiledL (RF V c t hc0 hc1).1 S128x64.size (by sl_kernel_rfl) y
theorem coverK_first (c : Dev nD) (t : Fin cfg0.N) (hc0) (hc1) (y : S1x128.Idx) : ∃ pc ∈ (RF V c t hc0 hc1).2.1, y ∈ pc.1.set :=
  View.cover_of_tiledL (RF V c t hc0 hc1).2.1 S1x128.size (by sl_kernel_rfl) y
theorem coverA_mid (c : Dev nD) (t : Fin cfg0.N) (hc0) (hc1) (sA) (sK) (y : S128x64.Idx) : ∃ pc ∈ (RM V c t hc0 hc1 sA sK).1, y ∈ pc.1.set :=
  View.cover_of_tiledL (RM V c t hc0 hc1 sA sK).1 S128x64.size (by sl_kernel_rfl) y
theorem coverK_mid (c : Dev nD) (t : Fin cfg0.N) (hc0) (hc1) (sA) (sK) (y : S1x128.Idx) : ∃ pc ∈ (RM V c t hc0 hc1 sA sK).2.1, y ∈ pc.1.set :=
  View.cover_of_tiledL (RM V c t hc0 hc1 sA sK).2.1 S1x128.size (by sl_kernel_rfl) y
theorem cover3_last (c : Dev nD) (t : Fin cfg0.N) (hc0) (hc1) (sA) (sK) (y : S128x64.Idx) : ∃ pc ∈ (RL V c t hc0 hc1 sA sK).1, y ∈ pc.1.set :=
  View.cover_of_tiledL (RL V c t hc0 hc1 sA sK).1 S128x64.size (by sl_kernel_rfl) y
theorem cover4_last (c : Dev nD) (t : Fin cfg0.N) (hc0) (hc1) (sA) (sK) (y : S1x128.Idx) : ∃ pc ∈ (RL V c t hc0 hc1 sA sK).2.1, y ∈ pc.1.set :=
  View.cover_of_tiledL (RL V c t hc0 hc1 sA sK).2.1 S1x128.size (by sl_kernel_rfl) y
theorem coverA_last (c : Dev nD) (t : Fin cfg0.N) (hc0) (hc1) (sA) (sK) (y : S128x64.Idx) : ∃ pc ∈ (RL V c t hc0 hc1 sA sK).2.2.1, y ∈ pc.1.set :=
  View.cover_of_tiledL (RL V c t hc0 hc1 sA sK).2.2.1 S128x64.size (by sl_kernel_rfl) y
theorem coverK_last (c : Dev nD) (t : Fin cfg0.N) (hc0) (hc1) (sA) (sK) (y : S1x128.Idx) : ∃ pc ∈ (RL V c t hc0 hc1 sA sK).2.2.2.1, y ∈ pc.1.set :=
  View.cover_of_tiledL (RL V c t hc0 hc1 sA sK).2.2.2.1 S1x128.size (by sl_kernel_rfl) y

/-! ## What the outputs and the accumulators hold after each point -/

/-- The four buffers after a point: the two outputs' staging buffers, then the two accumulators. -/
abbrev Four : Type := Vec F S128x64 .f32 × Vec F S1x128 .f32 × Vec F S128x64 .f32 × Vec F S1x128 .f32

/-- What a first point leaves: the outputs untouched (a placeholder nothing consults: they are neither written back there
    nor read at the next point), the accumulators at the case's pieces. -/
def fourFirst (c : Dev nD) (t : Fin cfg0.N) (hc0 : isFirst (grid0.coords t)) (hc1 : ¬isLast (grid0.coords t)) : Four (F := F) :=
  (rd3 [], rd4 [], rdA (RF V c t hc0 hc1).1, rdK (RF V c t hc0 hc1).2.1)
/-- What a middle point leaves, over what the point before left in the accumulators. -/
def fourMid (c : Dev nD) (t : Fin cfg0.N) (hc0 : ¬isFirst (grid0.coords t)) (hc1 : ¬isLast (grid0.coords t)) (sA : Vec F S128x64 .f32) (sK : Vec F S1x128 .f32) : Four (F := F) :=
  (rd3 [], rd4 [], rdA (RM V c t hc0 hc1 sA sK).1, rdK (RM V c t hc0 hc1 sA sK).2.1)
/-- What a last point leaves: the outputs at the copies. -/
def fourLast (c : Dev nD) (t : Fin cfg0.N) (hc0 : ¬isFirst (grid0.coords t)) (hc1 : isLast (grid0.coords t)) (sA : Vec F S128x64 .f32) (sK : Vec F S1x128 .f32) : Four (F := F) :=
  (rd3 (RL V c t hc0 hc1 sA sK).1, rd4 (RL V c t hc0 hc1 sA sK).2.1, rdA (RL V c t hc0 hc1 sA sK).2.2.1, rdK (RL V c t hc0 hc1 sA sK).2.2.2.1)

/-- THE ACCUMULATION, by recursion on the point: the case the closed forms select, an accumulator the case reads
    taken at what the point before left. -/
def outsAt (c : Dev nD) : (n : ℕ) → n < cfg0.N → Four (F := F)
  | 0, hn => fourFirst V c ⟨0, hn⟩ ((isFirst_iff ⟨0, hn⟩).mpr (Nat.zero_mod _)) (fun h => (fun h => by (try dsimp only at h); omega) ((isLast_iff ⟨0, hn⟩).mp h))
  | n + 1, hn =>
    if h0 : (n + 1) % 8 = 0 then
      if h1 : (n + 1) % 8 = 7 then False.elim (by omega)
      else fourFirst V c ⟨n + 1, hn⟩ ((isFirst_iff ⟨n + 1, hn⟩).mpr h0) (fun h => h1 ((isLast_iff ⟨n + 1, hn⟩).mp h))
    else
      if h1 : (n + 1) % 8 = 7 then
        fourLast V c ⟨n + 1, hn⟩ (fun h => h0 ((isFirst_iff ⟨n + 1, hn⟩).mp h)) ((isLast_iff ⟨n + 1, hn⟩).mpr h1)
          (outsAt c n (Nat.lt_of_succ_lt hn)).2.2.1 (outsAt c n (Nat.lt_of_succ_lt hn)).2.2.2
      else
        fourMid V c ⟨n + 1, hn⟩ (fun h => h0 ((isFirst_iff ⟨n + 1, hn⟩).mp h)) (fun h => h1 ((isLast_iff ⟨n + 1, hn⟩).mp h))
          (outsAt c n (Nat.lt_of_succ_lt hn)).2.2.1 (outsAt c n (Nat.lt_of_succ_lt hn)).2.2.2

theorem outsAt_first (c : Dev nD) (t : Fin cfg0.N) (h0 : t.val % 8 = 0) (h1 : ¬t.val % 8 = 7) :
    outsAt V c t.val t.isLt = fourFirst V c t ((isFirst_iff t).mpr h0) (fun h => h1 ((isLast_iff t).mp h)) := by
  obtain ⟨n, hn⟩ := t
  cases n with
  | zero => exact rfl
  | succ n => exact (dif_pos h0).trans ((dif_neg h1).trans rfl)

theorem outsAt_mid (c : Dev nD) (t : Fin cfg0.N) (h0 : ¬t.val % 8 = 0) (h1 : ¬t.val % 8 = 7) :
    outsAt V c t.val t.isLt = fourMid V c t (fun h => h0 ((isFirst_iff t).mp h)) (fun h => h1 ((isLast_iff t).mp h))
      (outsAt V c (t.val - 1) (Nat.lt_of_le_of_lt (Nat.sub_le _ _) t.isLt)).2.2.1 (outsAt V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 8 = 0) (h1 : t.val % 8 = 7) :
    outsAt V c t.val t.isLt = fourLast V c t (fun h => h0 ((isFirst_iff t).mp h)) ((isLast_iff t).mpr h1)
      (outsAt V c (t.val - 1) (Nat.lt_of_le_of_lt (Nat.sub_le _ _) t.isLt)).2.2.1 (outsAt V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The scoped buffers the kernel does not name (the second region's staging buffers), each whole at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- What the launch hands the region, with the two accumulators as memrefs owned at some contents. -/
theorem PhiA_eq (c : Dev nD) :
    (Pipeline.ΦA spec0 c : sProp 𝕄)
      = iprop(iprop((∃ d, owns (c : Thread nD τ) accM fullShare d) ∗ (∃ d, owns (c : Thread nD τ) klM fullShare d) ∗ others (F := F) c) ∗ (∃ r, prngReg c r)) := by
  unfold Pipeline.ΦA; rw [scopedRest0_eq]; simp only [accM, klM, owns_whole, others]; try rfl

/-- The invariant before position `n`: before the first point what the launch hands over (the accumulators at anything);
    afterwards the accumulators at what the point before left, the other scoped buffers and the generator register at some
    state. -/
def Inv (c : Dev nD) : (n : ℕ) → n ≤ cfg0.N → sProp 𝕄
  | 0, _ => Pipeline.ΦA spec0 c
  | n + 1, hn => iprop(iprop(owns (c : Thread nD τ) accM fullShare ((outsAt V c n hn).2.2.1) ∗ owns (c : Thread nD τ) klM fullShare ((outsAt V c n hn).2.2.2) ∗ others (F := F) c) ∗ (∃ r, prngReg c r))

theorem Inv_zero (c : Dev nD) (n : ℕ) (h : n ≤ cfg0.N) (hz : n = 0) : Inv V c n h = Pipeline.ΦA spec0 c := by
  subst hz; rfl
theorem Inv_succ (c : Dev nD) (n : ℕ) (hn : n < cfg0.N) :
    Inv V c (n + 1) hn = iprop(iprop(owns (c : Thread nD τ) accM fullShare ((outsAt V c n hn).2.2.1) ∗ owns (c : Thread nD τ) klM fullShare ((outsAt V c n hn).2.2.2) ∗ others (F := F) c) ∗ (∃ r, prngReg c r)) := rfl
theorem Inv_pos (c : Dev nD) (n : ℕ) (h : n ≤ cfg0.N) (hz : n ≠ 0) :
    Inv V c n h = iprop(iprop(owns (c : Thread nD τ) accM fullShare ((outsAt V c (n - 1) (by omega)).2.2.1) ∗ owns (c : Thread nD τ) klM fullShare ((outsAt V c (n - 1) (by omega)).2.2.2) ∗ others (F := F) c) ∗ (∃ r, prngReg c r)) := by
  cases n with
  | zero => exact absurd rfl hz
  | succ n => rfl

/-! ## The region's proof data -/

/-- The arrays as the region finds them; after the body at point `t` each input's buffer at its block and the outputs'
    at `outsAt`; the invariant `Inv`; nothing owed; full shares. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt V c t.val t.isLt).1
    | ⟨4, _⟩ => (outsAt V c t.val t.isLt).2.1
  Φ t := Inv V c t.val (Nat.le_of_lt_succ t.isLt)
  q _ := fullShare
  owed _ := 0

theorem A_eq (c : Dev nD) (w : Fin cfg0.W) : (dat0 V c).A w = V c (Pipeline.arrRef spec0 w) := by
  dsimp only [dat0]
theorem Inv_castSucc (c : Dev nD) (t : Fin cfg0.N) :
    (dat0 V c).Φ t.castSucc = Inv V c t.val (Nat.le_of_lt t.isLt) := by
  dsimp only [dat0]; simp only [Fin.coe_castSucc]
theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = (outsAt V c t.val t.isLt).1 := by dsimp only [dat0]
theorem after_4 (c : Dev nD) (t : Fin cfg0.N) : (dat0 V c).after 4 t = (outsAt V c t.val t.isLt).2.1 := by dsimp only [dat0]
theorem before_0 (c : Dev nD) (t : Fin cfg0.N) (d) : (dat0 V c).before 0 t d = iblk V c 0 t :=
  before_in0_of V (dat0 V c) (A_eq V c 0) (after_0 V c) t d
theorem before_1 (c : Dev nD) (t : Fin cfg0.N) (d) : (dat0 V c).before 1 t d = iblk V c 1 t :=
  before_in1_of V (dat0 V c) (A_eq V c 1) (after_1 V c) t d
theorem before_2 (c : Dev nD) (t : Fin cfg0.N) (d) : (dat0 V c).before 2 t d = iblk V c 2 t :=
  before_in2_of V (dat0 V c) (A_eq V c 2) (after_2 V c) t d

/-! ## The body obligation -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves_in0 (c : Dev nD) (t : Fin cfg0.N) : (dat0 V c).leavesExact 0 t = owns (c : Thread nD τ) (ms0 t) fullShare (iblk V c 0 t) := by
  unfold Dat.leavesExact; rw [live_in0 t, after_0]
theorem leaves_in1 (c : Dev nD) (t : Fin cfg0.N) : (dat0 V c).leavesExact 1 t = owns (c : Thread nD τ) (ms1 t) fullShare (iblk V c 1 t) := by
  unfold Dat.leavesExact; rw [live_in1 t, after_1]
theorem leaves_in2 (c : Dev nD) (t : Fin cfg0.N) : (dat0 V c).leavesExact 2 t = owns (c : Thread nD τ) (ms2 t) fullShare (iblk V c 2 t) := by
  unfold Dat.leavesExact; rw [live_in2 t, after_2]

set_option maxHeartbeats 4800000 in
/-- The body at any point. The inputs' memrefs hold their blocks; the closed forms say which case the point is in; the
    invariant hands the body the accumulators at what the point before left (at anything before the very first point) and
    takes them back at this point's contents, which the case's pieces cover; away from a run's last point the outputs'
    buffers pass through untouched, at it they end at the copies; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat0 V c).owesAt () t.succ = (dat0 V c).owesAt () t.castSucc from rfl]
  rw [show (dat0 V c).Φ t.succ = Inv V c (t.val + 1) t.isLt from rfl, Inv_succ]
  rw [leaves_in0, leaves_in1, leaves_in2]
  have hN : t.val < 32 := lt_of_lt_of_eq t.isLt (show cfg0.N = 32 from N_0)
  by_cases h0 : t.val % 8 = 0
  · have h1 : ¬t.val % 8 = 7 := by omega
    have hc0 : isFirst (grid0.coords t) := (isFirst_iff t).mpr h0
    have hc1 : ¬isLast (grid0.coords t) := fun h => h1 ((isLast_iff t).mp h)
    rw [Dat.leavesExact_idle (dat0 V c) 3 t (idle_out3 t hc1) (noflush_out3 t hc1),
      Dat.leavesExact_idle (dat0 V c) 4 t (idle_out4 t hc1) (noflush_out4 t hc1)]
    rw [outsAt_first V c t h0 h1]
    unfold fourFirst; (try dsimp only)
    by_cases hz : t.val = 0
    · rw [Inv_castSucc V c t, Inv_zero V c _ _ hz, PhiA_eq]
      iintro ⟨⟨⟨HA, HK, Hoth⟩, Hg⟩, Ho, ⟨%d0, H0⟩, ⟨%d1, H1⟩, ⟨%d2, H2⟩, ⟨%d3, H3⟩, ⟨%d4, H4⟩⟩
      iapply ((RF V c t hc0 hc1).2.2 _ _ Set.univ _)
      isplitl [H0]; · iexact H0
      isplitl [H1]; · iexact H1
      isplitl [H2]; · iexact H2
      isplitl [H3]; · iexact H3
      isplitl [H4]; · iexact H4
      isplitl [HA]; · iexact HA
      isplitl [HK]; · iexact HK
      iintro ⟨H0, H1, H2, H3, H4, ⟨%eA, HA⟩, ⟨%eK, HK⟩⟩
      isplitl [HA HK Hoth Hg]
      · isplitl [HA HK Hoth]
        · isplitl [HA]
          · unfold owns; iexists _; isplitr
            swap; · iexact HA
            ipureintro; exact View.read_writes_of_cover _ _ _ _ _ (coverA_first V c t hc0 hc1)
          isplitl [HK]
          · unfold owns; iexists _; isplitr
            swap; · iexact HK
            ipureintro; exact View.read_writes_of_cover _ _ _ _ _ (coverK_first V c t hc0 hc1)
          iexact Hoth
        iexact Hg
      isplitl [Ho]; · iexact Ho
      isplitl [H0]; · iexact H0
      isplitl [H1]; · iexact H1
      isplitl [H2]; · iexact H2
      isplitl [H3]; · iexists _; iexact H3
      iexists _; iexact H4
    · rw [Inv_castSucc V c t, Inv_pos V c _ _ hz]
      iintro ⟨⟨⟨HA, HK, Hoth⟩, Hg⟩, Ho, ⟨%d0, H0⟩, ⟨%d1, H1⟩, ⟨%d2, H2⟩, ⟨%d3, H3⟩, ⟨%d4, H4⟩⟩
      iapply ((RF V c t hc0 hc1).2.2 _ _ Set.univ _)
      isplitl [H0]; · iexact H0
      isplitl [H1]; · iexact H1
      isplitl [H2]; · iexact H2
      isplitl [H3]; · iexact H3
      isplitl [H4]; · iexact H4
      isplitl [HA]; · iexists _; iexact HA
      isplitl [HK]; · iexists _; iexact HK
      iintro ⟨H0, H1, H2, H3, H4, ⟨%eA, HA⟩, ⟨%eK, HK⟩⟩
      isplitl [HA HK Hoth Hg]
      · isplitl [HA HK Hoth]
        · isplitl [HA]
          · unfold owns; iexists _; isplitr
            swap; · iexact HA
            ipureintro; exact View.read_writes_of_cover _ _ _ _ _ (coverA_first V c t hc0 hc1)
          isplitl [HK]
          · unfold owns; iexists _; isplitr
            swap; · iexact HK
            ipureintro; exact View.read_writes_of_cover _ _ _ _ _ (coverK_first V c t hc0 hc1)
          iexact Hoth
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    have hc0 : ¬isFirst (grid0.coords t) := fun h => h0 ((isFirst_iff t).mp h)
    by_cases h1 : t.val % 8 = 7
    · have hc1 : isLast (grid0.coords t) := (isLast_iff t).mpr h1
      rw [show (dat0 V c).leavesExact 3 t = owns (c : Thread nD τ) (ms3 t) fullShare ((dat0 V c).after 3 t) from by
        unfold Dat.leavesExact; rw [live_out3 t hc1], after_3]
      rw [show (dat0 V c).leavesExact 4 t = owns (c : Thread nD τ) (ms4 t) fullShare ((dat0 V c).after 4 t) from by
        unfold Dat.leavesExact; rw [live_out4 t hc1], after_4]
      rw [outsAt_last V c t h0 h1]
      unfold fourLast; (try dsimp only)
      rw [Inv_castSucc V c t, Inv_pos V c _ _ hz]
      iintro ⟨⟨⟨HA, HK, Hoth⟩, Hg⟩, Ho, ⟨%d0, H0⟩, ⟨%d1, H1⟩, ⟨%d2, H2⟩, ⟨%d3, H3⟩, ⟨%d4, H4⟩⟩
      iapply ((RL V c t hc0 hc1 _ _).2.2.2.2 Set.univ _)
      isplitl [H0]; · iexact H0
      isplitl [H1]; · iexact H1
      isplitl [H2]; · iexact H2
      isplitl [H3]; · iexists _; iexact H3
      isplitl [H4]; · iexists _; iexact H4
      isplitl [HA]; · iexact HA
      isplitl [HK]; · iexact HK
      iintro ⟨H0, H1, H2, ⟨%e3, H3⟩, ⟨%e4, H4⟩, ⟨%eA, HA⟩, ⟨%eK, HK⟩⟩
      isplitl [HA HK Hoth Hg]
      · isplitl [HA HK Hoth]
        · isplitl [HA]
          · unfold owns; iexists _; isplitr
            swap; · iexact HA
            ipureintro; exact View.read_writes_of_cover _ _ _ _ _ (coverA_last V c t hc0 hc1 _ _)
          isplitl [HK]
          · unfold owns; iexists _; isplitr
            swap; · iexact HK
            ipureintro; exact View.read_writes_of_cover _ _ _ _ _ (coverK_last V c t hc0 hc1 _ _)
          iexact Hoth
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover3_last V c t hc0 hc1 _ _)
      unfold owns; iexists _; isplitr
      swap; · iexact H4
      ipureintro; exact View.read_writes_of_cover _ _ _ _ _ (cover4_last V c t hc0 hc1 _ _)
    · have hc1 : ¬isLast (grid0.coords t) := fun h => h1 ((isLast_iff t).mp h)
      rw [Dat.leavesExact_idle (dat0 V c) 3 t (idle_out3 t hc1) (noflush_out3 t hc1),
        Dat.leavesExact_idle (dat0 V c) 4 t (idle_out4 t hc1) (noflush_out4 t hc1)]
      rw [outsAt_mid V c t h0 h1]
      unfold fourMid; (try dsimp only)
      rw [Inv_castSucc V c t, Inv_pos V c _ _ hz]
      iintro ⟨⟨⟨HA, HK, Hoth⟩, Hg⟩, Ho, ⟨%d0, H0⟩, ⟨%d1, H1⟩, ⟨%d2, H2⟩, ⟨%d3, H3⟩, ⟨%d4, H4⟩⟩
      iapply ((RM V c t hc0 hc1 _ _).2.2 _ _ Set.univ _)
      isplitl [H0]; · iexact H0
      isplitl [H1]; · iexact H1
      isplitl [H2]; · iexact H2
      isplitl [H3]; · iexact H3
      isplitl [H4]; · iexact H4
      isplitl [HA]; · iexact HA
      isplitl [HK]; · iexact HK
      iintro ⟨H0, H1, H2, H3, H4, ⟨%eA, HA⟩, ⟨%eK, HK⟩⟩
      isplitl [HA HK Hoth Hg]
      · isplitl [HA HK Hoth]
        · isplitl [HA]
          · unfold owns; iexists _; isplitr
            swap; · iexact HA
            ipureintro; exact View.read_writes_of_cover _ _ _ _ _ (coverA_mid V c t hc0 hc1 _ _)
          isplitl [HK]
          · unfold owns; iexists _; isplitr
            swap; · iexact HK
            ipureintro; exact View.read_writes_of_cover _ _ _ _ _ (coverK_mid V c t hc0 hc1 _ _)
          iexact Hoth
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation (c : Dev nD) : BodyObligation (dat0 (F := F) V c) (defs₀ (F := F)) Variants.none () Set.univ := fun t => by
  rw [bigSep_W0, bigSep_W0]
  exact sound_body V c t

/-- What the launch hands the region is the invariant before the first point. -/
theorem inv_in (c : Dev nD) : Pipeline.ΦA spec0 c ⊢ (dat0 V c).Φ 0 := by
  rw [show (dat0 V c).Φ 0 = Inv V c 0 (Nat.zero_le _) from rfl, Inv_zero V c 0 _ rfl]
  try exact Idealize.SL.BI.Entails.refl _

/-- After the last point the invariant gives it back: the accumulators' named contents are forgotten. -/
theorem inv_out (c : Dev nD) : (dat0 V c).Φ (Fin.last cfg0.N) ⊢ Pipeline.ΦA spec0 c := by
  rw [show (dat0 V c).Φ (Fin.last cfg0.N) = Inv V c (Fin.last cfg0.N).val (Nat.le_of_lt_succ (Fin.last cfg0.N).isLt) from rfl,
    Inv_pos V c _ _ (by rw [Fin.val_last]; have : cfg0.N = 32 := N_0; omega), PhiA_eq]
  iintro ⟨⟨HA, HK, Hoth⟩, Hg⟩
  isplitl [HA HK Hoth]
  · isplitl [HA]; · iexists _; iexact HA
    isplitl [HK]; · iexists _; iexact HK
    iexact Hoth
  iexact Hg

end Cert.Kernel.R0

end
-- ==== Proof.K.Reg1.lean ====
/-
  The second kernel of the program (the grid of four row blocks of x), taken on its own at ANY contents V of the
  core's buffers on entry.

  For each of its seven windows, the block a grid point works on is read off the window's array as V has it.  The six
  inputs are found in their staging buffers at exactly those blocks at every point, whether or not the point copies
  them in: a window that is not copied at a point has the block index it had one point earlier, and the five
  whole-array windows have the same index at every point.  The body loads the six input blocks whole, computes, and
  writes the output block whole by one store; what the output's buffer then holds is that store's value, as a function
  of the six input blocks.  From this the proof data of the pipeline and its body obligation follow.
-/
import proofs.«122315_j80719615361567_2_alg».proof.Proof.Gen.Kernel.Launch
import proofs.«122315_j80719615361567_2_alg».proof.Proof.Gen.Kernel.Skeleton
import proofs.«122315_j80719615361567_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the kernel is entered
variable (V : (c : Dev nD) → (b : Ref sig .tc) → Buf (Elt F) ((c : Thread nD τ).loc b))

/-! ## The windows' blocks -/

/-- The block of window `w` at grid point `t`: the part of the window's array, as `V` has it, that the window's index
    map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, copied in there or not, for any proof data whose
    array is `V`'s and whose body leaves the block in place: where the point does not copy, the block index is the one
    of the point before; the window is whole and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, copied in there or not, for any proof data whose
    array is `V`'s and whose body leaves the block in place: where the point does not copy, the block index is the one
    of the point before (this window's index is the same at every point); the window is whole and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, copied in there or not, for any proof data whose
    array is `V`'s and whose body leaves the block in place: where the point does not copy, the block index is the one
    of the point before (this window's index is the same at every point); the window is whole and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, copied in there or not, for any proof data whose
    array is `V`'s and whose body leaves the block in place: where the point does not copy, the block index is the one
    of the point before (this window's index is the same at every point); the window is whole and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, copied in there or not, for any proof data whose
    array is `V`'s and whose body leaves the block in place: where the point does not copy, the block index is the one
    of the point before (this window's index is the same at every point); the window is whole and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, copied in there or not, for any proof data whose
    array is `V`'s and whose body leaves the block in place: where the point does not copy, the block index is the one
    of the point before (this window's index is the same at every point); the window is whole and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read, and the output written, whole -/

abbrev rX : Rect S1024x512 := Rect.unit (s := S1024x512) ![0, 0] S1024x512.size inb_S1024x512_S1024x512_0_0
abbrev rC : Rect S64x512 := Rect.unit (s := S64x512) ![0, 0] S64x512.size inb_S64x512_S64x512_0_0
abbrev rL : Rect S1x64 := Rect.unit (s := S1x64) ![0, 0] S1x64.size inb_S1x64_S1x64_0_0
abbrev rM : Rect S512x64 := Rect.unit (s := S512x64) ![0, 0] S512x64.size inb_S512x64_S512x64_0_0
abbrev rB : Rect S512x512 := Rect.unit (s := S512x512) ![0, 0] S512x512.size inb_S512x512_S512x512_0_0

/-! ## What the body leaves in the output window's buffer -/

/-- The output window's staging buffer after the body, as a function of the six input blocks: the body's one store
    writes the whole buffer, and its value is the skeleton's last payload over the values the loads returned. -/
def out1_6 (x0 : Vec F S1024x512 .f32) (x1 : Vec F S64x512 .f32) (x2 : Vec F S1x64 .f32) (x3 : Vec F S1x64 .f32)
    (x4 : Vec F S512x64 .f32) (x5 : Vec F S512x512 .f32) : Vec F S1024x512 .f32 :=
  View.canon [⟨rX, k1_pay1 (k1_pay2 (View.ld x0 rX))
      (k1_pay3 (View.ld x0 rX) (View.ld x1 rC) (View.ld x2 rL) (View.ld x3 rL) (View.ld x4 rM))
      (k1_pay4 (View.ld x5 rB)) (constant S1024x512 .f32 0x00000000#32)⟩]

/-- The one store is the whole buffer, so it covers it. -/
theorem cover1_6 (p0 : Vec F S1024x512 .f32) (y : S1024x512.Idx) :
    ∃ pc ∈ ([⟨rX, p0⟩] : List (View.Piece (Elt F) S1024x512 .f32)), y ∈ pc.1.set :=
  View.cover_of_tiled [⟨rX, p0⟩] S1024x512.size (by rfl) y

/-! ## The body's triple -/

set_option maxHeartbeats 1000000 in
/-- The kernel body on whole staging buffers — the six inputs' at contents `x0 … x5`, the output's at anything — runs to
    the continuation with the inputs' buffers as they were and the output's at `out1_6` of the inputs: the printed
    function is its skeleton of loads and one store, run operation by operation through the call of its first part;
    the load of the output buffer that precedes the store returns a value nothing uses. -/
theorem sound_kernel1 (c : Dev nD) (E : Set ℕ) (i : grid1.Coords)
    (arg0 : Memref sig .tc .vmem S1024x512 .f32) (harg0 : arg0.IsWhole) (arg1 : Memref sig .tc .vmem S64x512 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S512x64 .f32) (harg4 : arg4.IsWhole) (arg5 : Memref sig .tc .vmem S512x512 .f32) (harg5 : arg5.IsWhole)
    (arg6 : Memref sig .tc .vmem S1024x512 .f32) (harg6 : arg6.IsWhole)
    (x0 : Vec F S1024x512 .f32) (x1 : Vec F S64x512 .f32) (x2 : Vec F S1x64 .f32) (x3 : Vec F S1x64 .f32)
    (x4 : Vec F S512x64 .f32) (x5 : Vec F S512x512 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (out1_6 x0 x1 x2 x3 x4 x5)) -∗ K ⟨⟩))
      ⊢ wp frame (wpE (defs₀ (F := F)) Variants.none c none) E
          (cc1__main_kernel i arg0 harg0 arg1 harg1 arg2 harg2 arg3 harg3 arg4 harg4 arg5 harg5 arg6 harg6) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of this pipeline on core `c`: the arrays as the kernel finds them (`V`); after the body at point
    `t` each input's buffer still at its block and the output's at `out1_6` of the six input blocks; the invariant is
    the scoped rest of the core's memory and the register of the random-bit unit, which the body does not touch; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the entry contents (the definition projected, nothing of `V` opened). -/
theorem A_eq1 (c : Dev nD) (w : Fin cfg1.W) : (dat1 V c).A w = V c (Pipeline.arrRef spec1 w) := by
  dsimp only [dat1]

/-- What the body leaves, window by window (the definition's case split reduced at each literal window). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's staging buffer holds its block at every point, copied in there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`: the invariant, the core's dues, and the seven windows' current staging
    buffers, one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks (`before1_W`), so the body's triple applies at those
    blocks; the invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.R1

end
-- ==== Proof.K.Run.lean ====
/-
  The whole run of the program: the contents of the core's buffers at each of the five boundaries of @main — the launch,
  after the first host stretch (the noise reshaped), after the coefficient pass (its two output arrays at what its
  write-backs leave, every other buffer as entered), after the second host stretch (the mixing coefficients divided by the
  sample count, the divergence halved and summed, the centres' squared norms, the log-widths as a row), after the main pass
  — as a fold from the launch memory; the two regions as segments over "every unscoped buffer at the boundary's
  contents, the generator register at some state, nothing owed"; and the launch: every weakly fair execution terminates
  and every final memory holds every unscoped buffer at the last boundary's contents. The seven arguments are written by
  no host line and by no region, so the fold at an argument walks back to the launch memory.
-/
import proofs.«122315_j80719615361567_2_alg».proof.Proof.Gen.Kernel.Regions
import proofs.«122315_j80719615361567_2_alg».proof.Proof.K.Reg0
import proofs.«122315_j80719615361567_2_alg».proof.Proof.K.Reg1

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (R0.dat0 (V1 m ρ) c).arrAt w cfg0.N
theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (R0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (R1.dat1 (V3 m ρ) c).arrAt w cfg1.N
theorem W4_arr (c : Dev nD) (w : Fin cfg1.W) :
    W4 m ρ c (Proc.devRef .tc (Pipeline.arrRef spec1 w)) = (R1.dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (R1.dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((R1.dat1 (V3 m ρ) c).arrAt_in 0 rfl _).trans (R1.A_eq1 (V3 m ρ) c 0))
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 1).trans (((R1.dat1 (V3 m ρ) c).arrAt_in 1 rfl _).trans (R1.A_eq1 (V3 m ρ) c 1))
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 0).trans (((R0.dat0 (V1 m ρ) c).arrAt_in 0 rfl _).trans (R0.A_eq (V1 m ρ) c 0))
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := (W2_arr m ρ c 1).trans (((R0.dat0 (V1 m ρ) c).arrAt_in 1 rfl _).trans (R0.A_eq (V1 m ρ) c 1))
    _ = W0 m ρ c (Proc.devRef .tc main_arg4) := StableHlo.after_of_writes_sub hostOps0 _ hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 5).trans (((R1.dat1 (V3 m ρ) c).arrAt_in 5 rfl _).trans (R1.A_eq1 (V3 m ρ) c 5))
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (V1 m ρ) c
  | ⟨1, _⟩ => fun c => R1.dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R0.inv_in (V1 m ρ) c)
    unfold Pipeline.ΦA
    iintro ⟨Hp, -, Hr⟩
    isplitl [Hr]; · iexact Hr
    iexact Hp
  hout c := by
    rw [Pipeline.ownSems0_none]
    refine (R0.inv_out (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    every final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.Kernel.Whole

end
-- ==== Proof.KI.Reg0.lean ====
/-
  The first kernel region of the program (the coefficient pass), at the contents `V` the region finds in the core's
  buffers when it is entered.

  The grid has 4 × 8 points, point t = 8·a + j. Block (j, a) of each of the three [512,512,64] inputs — 64 input
  features by 128 output features by all 64 centres — is staged at point t. Two accumulators live in scratch across the
  8 points of a run (fixed a): the [128,64] sum over the features of mean + noise · exp(½ · log-variance), and the
  [1,128] sum over features and centres of the divergence term. At j = 0 both are cleared before the point's block is
  added; at j = 7, after the block is added, both are copied to the two outputs' blocks (row block a of the [512,64]
  output, column block a of the [1,512] one), which are written back only there. So a point is in one of three cases:
  first of a run (clear, add), middle (add), last (add, copy out).

  Below: each window's block as a function of `V`; the two conditions in closed form over the grid; the body's run in
  each case, on any staging memrefs; what the outputs and the two accumulators hold after every point, by recursion on the
  point; the region's proof data — its invariant holds the two accumulators at what the point before left — and the
  body obligation.
-/
import proofs.«122315_j80719615361567_2_alg».proof.Proof.Gen.KernelIdeal.Launch
import proofs.«122315_j80719615361567_2_alg».proof.Proof.Gen.KernelIdeal.Skeleton
import proofs.«122315_j80719615361567_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    `V`'s and whose body leaves the block in place: each of the three inputs is fetched at every point. -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The two conditions of the body, in closed form over the grid -/

/-- "This is the first point of its run" as the body computes it from the second grid coordinate. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- "This is the last point of its run". -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live_in0 : ∀ t : Fin cfg0.N, cfg0.idle 0 (grid0.coords t) = false := by decide +kernel
theorem live_in1 : ∀ t : Fin cfg0.N, cfg0.idle 1 (grid0.coords t) = false := by decide +kernel
theorem live_in2 : ∀ t : Fin cfg0.N, cfg0.idle 2 (grid0.coords t) = false := by decide +kernel
/-- Away from a run's last point the two outputs are idle: the body stores nothing into them and the pipeline does not
    write them back. -/
theorem idle_out3 : ∀ t : Fin cfg0.N, ¬isLast (grid0.coords t) → cfg0.idle 3 (grid0.coords t) = true := by decide +kernel
theorem idle_out4 : ∀ t : Fin cfg0.N, ¬isLast (grid0.coords t) → cfg0.idle 4 (grid0.coords t) = true := by decide +kernel
theorem noflush_out3 : ∀ t : Fin cfg0.N, ¬isLast (grid0.coords t) → (cfg0.win 3).flush t = false := by decide +kernel
theorem noflush_out4 : ∀ t : Fin cfg0.N, ¬isLast (grid0.coords t) → (cfg0.win 4).flush t = false := by decide +kernel
/-- At a run's last point they are live. -/
theorem live_out3 : ∀ t : Fin cfg0.N, isLast (grid0.coords t) → cfg0.idle 3 (grid0.coords t) = false := by decide +kernel
theorem live_out4 : ∀ t : Fin cfg0.N, isLast (grid0.coords t) → cfg0.idle 4 (grid0.coords t) = false := by decide +kernel

/-! ## Names for the memrefs the body is called with -/

/-- One staging buffer of each output window, through which its contents are stated. -/
abbrev VO3 : View sig .tc .vmem S128x64 .f32 := (Memref.whole cc0_stg3_0 : Memref sig .tc .vmem S128x64 .f32).view
abbrev VO4 : View sig .tc .vmem S1x128 .f32 := (Memref.whole cc0_stg4_0 : Memref sig .tc .vmem S1x128 .f32).view
abbrev ms0 (t : Fin cfg0.N) : Memref sig .tc .vmem S64x128x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x128x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x128x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
/-- The two accumulators: whole scoped buffers of the kernel's own. -/
abbrev accM : Memref sig .tc .vmem S128x64 .f32 := Memref.whole cc0_scratch0
abbrev klM : Memref sig .tc .vmem S1x128 .f32 := Memref.whole cc0_scratch1
abbrev VA : View sig .tc .vmem S128x64 .f32 := (accM).view
abbrev VK : View sig .tc .vmem S1x128 .f32 := (klM).view

/-! ## The body's run, case by case -/

set_option maxHeartbeats 1000000 in
/-- FIRST point of a run (cleared, then the block added; nothing copied out). On whole memrefs — the inputs' at their
    contents, the outputs' at contents handed back untouched, the accumulators at anything — the body runs to the
    continuation with the inputs and outputs as they were and each accumulator with the pieces its stores wrote, which the
    run finds. -/
noncomputable def runFirst (c : Dev nD) (i : grid0.Coords)
    (a2 : Memref sig .tc .vmem S64x128x64 .f32) (h2 : a2.IsWhole) (a3 : Memref sig .tc .vmem S64x128x64 .f32) (h3 : a3.IsWhole)
    (a4 : Memref sig .tc .vmem S64x128x64 .f32) (h4 : a4.IsWhole) (a5 : Memref sig .tc .vmem S128x64 .f32) (h5 : a5.IsWhole)
    (a6 : Memref sig .tc .vmem S1x128 .f32) (h6 : a6.IsWhole) (a7 : Memref sig .tc .vmem S128x64 .f32) (h7 : a7.IsWhole)
    (a8 : Memref sig .tc .vmem S1x128 .f32) (h8 : a8.IsWhole) (hc0 : isFirst i) (hc1 : ¬isLast i)
    (x0 x1 x2 : Vec F S64x128x64 .f32) :
    Σ' (LA : List (View.Piece (Elt F) S128x64 .f32)), { LK : List (View.Piece (Elt F) S1x128 .f32) //
      ∀ (xi3 : Vec F S128x64 .f32) (xi4 : Vec F S1x128 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare xi3 ∗ owns (c : Thread nD τ) a6 fullShare xi4
            ∗ (∃ d, owns (c : Thread nD τ) a7 fullShare d) ∗ (∃ d, owns (c : Thread nD τ) a8 fullShare d)
            ∗ (iprop(owns (c : Thread nD τ) a2 fullShare x0 ∗ owns (c : Thread nD τ) a3 fullShare x1 ∗ owns (c : Thread nD τ) a4 fullShare x2
                ∗ owns (c : Thread nD τ) a5 fullShare xi3 ∗ owns (c : Thread nD τ) a6 fullShare xi4
                ∗ (∃ f, a7.view.loc (c : Thread nD τ) ↦[a7.view.set]{fullShare} a7.view.writes (Elt F) f LA)
                ∗ (∃ f, a8.view.loc (c : Thread nD τ) ↦[a8.view.set]{fullShare} a8.view.writes (Elt F) f LK)) -∗ K ⟨⟩))
          ⊢ wp frame (wpE (defs₀ (F := F)) Variants.none c none) E (cc0__coeff_kernel i a2 h2 a3 h3 a4 h4 a5 h5 a6 h6 a7 h7 a8 h8) K } := by
  refine ⟨?_, ?_, fun xi3 xi4 E K => ?run⟩
  case run =>
    simp only [cc0__coeff_kernel_eq_skeleton]; unfold cc0__coeff_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := h2.eq_unread hf0; obtain rfl := h3.eq_unread hf1; obtain rfl := h4.eq_unread hf2
    obtain rfl := h5.eq_unread hf3; obtain rfl := h6.eq_unread hf4
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [HS0]
    · iexists _; iexact HS0
    iexists _; iexact HS1

set_option maxHeartbeats 1000000 in
/-- MIDDLE point of a run (the block added to what the point before left; nothing copied out): the accumulators enter
    at the contents `sA`, `sK` the point before left. -/
noncomputable def runMid (c : Dev nD) (i : grid0.Coords)
    (a2 : Memref sig .tc .vmem S64x128x64 .f32) (h2 : a2.IsWhole) (a3 : Memref sig .tc .vmem S64x128x64 .f32) (h3 : a3.IsWhole)
    (a4 : Memref sig .tc .vmem S64x128x64 .f32) (h4 : a4.IsWhole) (a5 : Memref sig .tc .vmem S128x64 .f32) (h5 : a5.IsWhole)
    (a6 : Memref sig .tc .vmem S1x128 .f32) (h6 : a6.IsWhole) (a7 : Memref sig .tc .vmem S128x64 .f32) (h7 : a7.IsWhole)
    (a8 : Memref sig .tc .vmem S1x128 .f32) (h8 : a8.IsWhole) (hc0 : ¬isFirst i) (hc1 : ¬isLast i)
    (x0 x1 x2 : Vec F S64x128x64 .f32) (sA : Vec F S128x64 .f32) (sK : Vec F S1x128 .f32) :
    Σ' (LA : List (View.Piece (Elt F) S128x64 .f32)), { LK : List (View.Piece (Elt F) S1x128 .f32) //
      ∀ (xi3 : Vec F S128x64 .f32) (xi4 : Vec F S1x128 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare xi3 ∗ owns (c : Thread nD τ) a6 fullShare xi4
            ∗ owns (c : Thread nD τ) a7 fullShare sA ∗ owns (c : Thread nD τ) a8 fullShare sK
            ∗ (iprop(owns (c : Thread nD τ) a2 fullShare x0 ∗ owns (c : Thread nD τ) a3 fullShare x1 ∗ owns (c : Thread nD τ) a4 fullShare x2
                ∗ owns (c : Thread nD τ) a5 fullShare xi3 ∗ owns (c : Thread nD τ) a6 fullShare xi4
                ∗ (∃ f, a7.view.loc (c : Thread nD τ) ↦[a7.view.set]{fullShare} a7.view.writes (Elt F) f LA)
                ∗ (∃ f, a8.view.loc (c : Thread nD τ) ↦[a8.view.set]{fullShare} a8.view.writes (Elt F) f LK)) -∗ K ⟨⟩))
          ⊢ wp frame (wpE (defs₀ (F := F)) Variants.none c none) E (cc0__coeff_kernel i a2 h2 a3 h3 a4 h4 a5 h5 a6 h6 a7 h7 a8 h8) K } := by
  refine ⟨?_, ?_, fun xi3 xi4 E K => ?run⟩
  case run =>
    simp only [cc0__coeff_kernel_eq_skeleton]; unfold cc0__coeff_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := h2.eq_unread hf0; obtain rfl := h3.eq_unread hf1; obtain rfl := h4.eq_unread hf2
    obtain rfl := h5.eq_unread hf3; obtain rfl := h6.eq_unread hf4
    obtain rfl := h7.eq_unread hfs0; obtain rfl := h8.eq_unread hfs1
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [HS0]
    · iexists _; iexact HS0
    iexists _; iexact HS1

set_option maxHeartbeats 1000000 in
/-- LAST point of a run (the block added, then both accumulators copied to the outputs' blocks): the outputs enter at
    anything and leave with the pieces the copies wrote. -/
noncomputable def runLast (c : Dev nD) (i : grid0.Coords)
    (a2 : Memref sig .tc .vmem S64x128x64 .f32) (h2 : a2.IsWhole) (a3 : Memref sig .tc .vmem S64x128x64 .f32) (h3 : a3.IsWhole)
    (a4 : Memref sig .tc .vmem S64x128x64 .f32) (h4 : a4.IsWhole) (a5 : Memref sig .tc .vmem S128x64 .f32) (h5 : a5.IsWhole)
    (a6 : Memref sig .tc .vmem S1x128 .f32) (h6 : a6.IsWhole) (a7 : Memref sig .tc .vmem S128x64 .f32) (h7 : a7.IsWhole)
    (a8 : Memref sig .tc .vmem S1x128 .f32) (h8 : a8.IsWhole) (hc0 : ¬isFirst i) (hc1 : isLast i)
    (x0 x1 x2 : Vec F S64x128x64 .f32) (sA : Vec F S128x64 .f32) (sK : Vec F S1x128 .f32) :
    Σ' (L3 : List (View.Piece (Elt F) S128x64 .f32)) (L4 : List (View.Piece (Elt F) S1x128 .f32))
       (LA : List (View.Piece (Elt F) S128x64 .f32)), { LK : List (View.Piece (Elt F) S1x128 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ (∃ d, owns (c : Thread nD τ) a5 fullShare d) ∗ (∃ d, owns (c : Thread nD τ) a6 fullShare d)
            ∗ owns (c : Thread nD τ) a7 fullShare sA ∗ owns (c : Thread nD τ) a8 fullShare sK
            ∗ (iprop(owns (c : Thread nD τ) a2 fullShare x0 ∗ owns (c : Thread nD τ) a3 fullShare x1 ∗ owns (c : Thread nD τ) a4 fullShare x2
                ∗ (∃ f, a5.view.loc (c : Thread nD τ) ↦[a5.view.set]{fullShare} a5.view.writes (Elt F) f L3)
                ∗ (∃ f, a6.view.loc (c : Thread nD τ) ↦[a6.view.set]{fullShare} a6.view.writes (Elt F) f L4)
                ∗ (∃ f, a7.view.loc (c : Thread nD τ) ↦[a7.view.set]{fullShare} a7.view.writes (Elt F) f LA)
                ∗ (∃ f, a8.view.loc (c : Thread nD τ) ↦[a8.view.set]{fullShare} a8.view.writes (Elt F) f LK)) -∗ K ⟨⟩))
          ⊢ wp frame (wpE (defs₀ (F := F)) Variants.none c none) E (cc0__coeff_kernel i a2 h2 a3 h3 a4 h4 a5 h5 a6 h6 a7 h7 a8 h8) K } := by
  refine ⟨?_, ?_, ?_, ?_, fun E K => ?run⟩
  case run =>
    simp only [cc0__coeff_kernel_eq_skeleton]; unfold cc0__coeff_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := h2.eq_unread hf0; obtain rfl := h3.eq_unread hf1; obtain rfl := h4.eq_unread hf2
    obtain rfl := h7.eq_unread hfs0; obtain rfl := h8.eq_unread hfs1
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; iexact H3
    isplitl [H4]
    · iexists _; iexact H4
    isplitl [HS0]
    · iexists _; iexact HS0
    iexists _; iexact HS1

/-! ## What each case leaves, at a point of the grid -/

/-- The three runs at point `t`: on the point's staging memrefs and the two accumulators, from the point's input blocks. -/
abbrev RF (c : Dev nD) (t : Fin cfg0.N) (hc0 : isFirst (grid0.coords t)) (hc1 : ¬isLast (grid0.coords t)) :=
  runFirst (F := F) c (grid0.coords t) (ms0 t) (hs0 t) (ms1 t) (hs1 t) (ms2 t) (hs2 t) (ms3 t) (hs3 t) (ms4 t) (hs4 t) accM (Memref.isWhole_whole _) klM (Memref.isWhole_whole _) hc0 hc1 (iblk V c 0 t) (iblk V c 1 t) (iblk V c 2 t)
abbrev RM (c : Dev nD) (t : Fin cfg0.N) (hc0 : ¬isFirst (grid0.coords t)) (hc1 : ¬isLast (grid0.coords t)) (sA : Vec F S128x64 .f32) (sK : Vec F S1x128 .f32) :=
  runMid (F := F) c (grid0.coords t) (ms0 t) (hs0 t) (ms1 t) (hs1 t) (ms2 t) (hs2 t) (ms3 t) (hs3 t) (ms4 t) (hs4 t) accM (Memref.isWhole_whole _) klM (Memref.isWhole_whole _) hc0 hc1 (iblk V c 0 t) (iblk V c 1 t) (iblk V c 2 t) sA sK
abbrev RL (c : Dev nD) (t : Fin cfg0.N) (hc0 : ¬isFirst (grid0.coords t)) (hc1 : isLast (grid0.coords t)) (sA : Vec F S128x64 .f32) (sK : Vec F S1x128 .f32) :=
  runLast (F := F) c (grid0.coords t) (ms0 t) (hs0 t) (ms1 t) (hs1 t) (ms2 t) (hs2 t) (ms3 t) (hs3 t) (ms4 t) (hs4 t) accM (Memref.isWhole_whole _) klM (Memref.isWhole_whole _) hc0 hc1 (iblk V c 0 t) (iblk V c 1 t) (iblk V c 2 t) sA sK

/-- A list of pieces read back through an accumulator's (an output's) view, over contents nothing consults. -/
abbrev rdA (L : List (View.Piece (Elt F) S128x64 .f32)) : Vec F S128x64 .f32 := VA.read (Elt F) (VA.writes (Elt F) VA.junk L)
abbrev rdK (L : List (View.Piece (Elt F) S1x128 .f32)) : Vec F S1x128 .f32 := VK.read (Elt F) (VK.writes (Elt F) VK.junk L)
abbrev rd3 (L : List (View.Piece (Elt F) S128x64 .f32)) : Vec F S128x64 .f32 := VO3.read (Elt F) (VO3.writes (Elt F) VO3.junk L)
abbrev rd4 (L : List (View.Piece (Elt F) S1x128 .f32)) : Vec F S1x128 .f32 := VO4.read (Elt F) (VO4.writes (Elt F) VO4.junk L)

/-- Each case's pieces tile the buffer they are written to, so they cover it. -/
theorem coverA_first (c : Dev nD) (t : Fin cfg0.N) (hc0) (hc1) (y : S128x64.Idx) : ∃ pc ∈ (RF V c t hc0 hc1).1, y ∈ pc.1.set :=
  View.cover_of_tiledL (RF V c t hc0 hc1).1 S128x64.size (by sl_kernel_rfl) y
theorem coverK_first (c : Dev nD) (t : Fin cfg0.N) (hc0) (hc1) (y : S1x128.Idx) : ∃ pc ∈ (RF V c t hc0 hc1).2.1, y ∈ pc.1.set :=
  View.cover_of_tiledL (RF V c t hc0 hc1).2.1 S1x128.size (by sl_kernel_rfl) y
theorem coverA_mid (c : Dev nD) (t : Fin cfg0.N) (hc0) (hc1) (sA) (sK) (y : S128x64.Idx) : ∃ pc ∈ (RM V c t hc0 hc1 sA sK).1, y ∈ pc.1.set :=
  View.cover_of_tiledL (RM V c t hc0 hc1 sA sK).1 S128x64.size (by sl_kernel_rfl) y
theorem coverK_mid (c : Dev nD) (t : Fin cfg0.N) (hc0) (hc1) (sA) (sK) (y : S1x128.Idx) : ∃ pc ∈ (RM V c t hc0 hc1 sA sK).2.1, y ∈ pc.1.set :=
  View.cover_of_tiledL (RM V c t hc0 hc1 sA sK).2.1 S1x128.size (by sl_kernel_rfl) y
theorem cover3_last (c : Dev nD) (t : Fin cfg0.N) (hc0) (hc1) (sA) (sK) (y : S128x64.Idx) : ∃ pc ∈ (RL V c t hc0 hc1 sA sK).1, y ∈ pc.1.set :=
  View.cover_of_tiledL (RL V c t hc0 hc1 sA sK).1 S128x64.size (by sl_kernel_rfl) y
theorem cover4_last (c : Dev nD) (t : Fin cfg0.N) (hc0) (hc1) (sA) (sK) (y : S1x128.Idx) : ∃ pc ∈ (RL V c t hc0 hc1 sA sK).2.1, y ∈ pc.1.set :=
  View.cover_of_tiledL (RL V c t hc0 hc1 sA sK).2.1 S1x128.size (by sl_kernel_rfl) y
theorem coverA_last (c : Dev nD) (t : Fin cfg0.N) (hc0) (hc1) (sA) (sK) (y : S128x64.Idx) : ∃ pc ∈ (RL V c t hc0 hc1 sA sK).2.2.1, y ∈ pc.1.set :=
  View.cover_of_tiledL (RL V c t hc0 hc1 sA sK).2.2.1 S128x64.size (by sl_kernel_rfl) y
theorem coverK_last (c : Dev nD) (t : Fin cfg0.N) (hc0) (hc1) (sA) (sK) (y : S1x128.Idx) : ∃ pc ∈ (RL V c t hc0 hc1 sA sK).2.2.2.1, y ∈ pc.1.set :=
  View.cover_of_tiledL (RL V c t hc0 hc1 sA sK).2.2.2.1 S1x128.size (by sl_kernel_rfl) y

/-! ## What the outputs and the accumulators hold after each point -/

/-- The four buffers after a point: the two outputs' staging buffers, then the two accumulators. -/
abbrev Four : Type := Vec F S128x64 .f32 × Vec F S1x128 .f32 × Vec F S128x64 .f32 × Vec F S1x128 .f32

/-- What a first point leaves: the outputs untouched (a placeholder nothing consults: they are neither written back there
    nor read at the next point), the accumulators at the case's pieces. -/
def fourFirst (c : Dev nD) (t : Fin cfg0.N) (hc0 : isFirst (grid0.coords t)) (hc1 : ¬isLast (grid0.coords t)) : Four (F := F) :=
  (rd3 [], rd4 [], rdA (RF V c t hc0 hc1).1, rdK (RF V c t hc0 hc1).2.1)
/-- What a middle point leaves, over what the point before left in the accumulators. -/
def fourMid (c : Dev nD) (t : Fin cfg0.N) (hc0 : ¬isFirst (grid0.coords t)) (hc1 : ¬isLast (grid0.coords t)) (sA : Vec F S128x64 .f32) (sK : Vec F S1x128 .f32) : Four (F := F) :=
  (rd3 [], rd4 [], rdA (RM V c t hc0 hc1 sA sK).1, rdK (RM V c t hc0 hc1 sA sK).2.1)
/-- What a last point leaves: the outputs at the copies. -/
def fourLast (c : Dev nD) (t : Fin cfg0.N) (hc0 : ¬isFirst (grid0.coords t)) (hc1 : isLast (grid0.coords t)) (sA : Vec F S128x64 .f32) (sK : Vec F S1x128 .f32) : Four (F := F) :=
  (rd3 (RL V c t hc0 hc1 sA sK).1, rd4 (RL V c t hc0 hc1 sA sK).2.1, rdA (RL V c t hc0 hc1 sA sK).2.2.1, rdK (RL V c t hc0 hc1 sA sK).2.2.2.1)

/-- THE ACCUMULATION, by recursion on the point: the case the closed forms select, an accumulator the case reads
    taken at what the point before left. -/
def outsAt (c : Dev nD) : (n : ℕ) → n < cfg0.N → Four (F := F)
  | 0, hn => fourFirst V c ⟨0, hn⟩ ((isFirst_iff ⟨0, hn⟩).mpr (Nat.zero_mod _)) (fun h => (fun h => by (try dsimp only at h); omega) ((isLast_iff ⟨0, hn⟩).mp h))
  | n + 1, hn =>
    if h0 : (n + 1) % 8 = 0 then
      if h1 : (n + 1) % 8 = 7 then False.elim (by omega)
      else fourFirst V c ⟨n + 1, hn⟩ ((isFirst_iff ⟨n + 1, hn⟩).mpr h0) (fun h => h1 ((isLast_iff ⟨n + 1, hn⟩).mp h))
    else
      if h1 : (n + 1) % 8 = 7 then
        fourLast V c ⟨n + 1, hn⟩ (fun h => h0 ((isFirst_iff ⟨n + 1, hn⟩).mp h)) ((isLast_iff ⟨n + 1, hn⟩).mpr h1)
          (outsAt c n (Nat.lt_of_succ_lt hn)).2.2.1 (outsAt c n (Nat.lt_of_succ_lt hn)).2.2.2
      else
        fourMid V c ⟨n + 1, hn⟩ (fun h => h0 ((isFirst_iff ⟨n + 1, hn⟩).mp h)) (fun h => h1 ((isLast_iff ⟨n + 1, hn⟩).mp h))
          (outsAt c n (Nat.lt_of_succ_lt hn)).2.2.1 (outsAt c n (Nat.lt_of_succ_lt hn)).2.2.2

theorem outsAt_first (c : Dev nD) (t : Fin cfg0.N) (h0 : t.val % 8 = 0) (h1 : ¬t.val % 8 = 7) :
    outsAt V c t.val t.isLt = fourFirst V c t ((isFirst_iff t).mpr h0) (fun h => h1 ((isLast_iff t).mp h)) := by
  obtain ⟨n, hn⟩ := t
  cases n with
  | zero => exact rfl
  | succ n => exact (dif_pos h0).trans ((dif_neg h1).trans rfl)

theorem outsAt_mid (c : Dev nD) (t : Fin cfg0.N) (h0 : ¬t.val % 8 = 0) (h1 : ¬t.val % 8 = 7) :
    outsAt V c t.val t.isLt = fourMid V c t (fun h => h0 ((isFirst_iff t).mp h)) (fun h => h1 ((isLast_iff t).mp h))
      (outsAt V c (t.val - 1) (Nat.lt_of_le_of_lt (Nat.sub_le _ _) t.isLt)).2.2.1 (outsAt V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 8 = 0) (h1 : t.val % 8 = 7) :
    outsAt V c t.val t.isLt = fourLast V c t (fun h => h0 ((isFirst_iff t).mp h)) ((isLast_iff t).mpr h1)
      (outsAt V c (t.val - 1) (Nat.lt_of_le_of_lt (Nat.sub_le _ _) t.isLt)).2.2.1 (outsAt V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The scoped buffers the kernel does not name (the second region's staging buffers), each whole at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- What the launch hands the region, with the two accumulators as memrefs owned at some contents. -/
theorem PhiA_eq (c : Dev nD) :
    (Pipeline.ΦA spec0 c : sProp 𝕄)
      = iprop(iprop((∃ d, owns (c : Thread nD τ) accM fullShare d) ∗ (∃ d, owns (c : Thread nD τ) klM fullShare d) ∗ others (F := F) c) ∗ (∃ r, prngReg c r)) := by
  unfold Pipeline.ΦA; rw [scopedRest0_eq]; simp only [accM, klM, owns_whole, others]; try rfl

/-- The invariant before position `n`: before the first point what the launch hands over (the accumulators at anything);
    afterwards the accumulators at what the point before left, the other scoped buffers and the generator register at some
    state. -/
def Inv (c : Dev nD) : (n : ℕ) → n ≤ cfg0.N → sProp 𝕄
  | 0, _ => Pipeline.ΦA spec0 c
  | n + 1, hn => iprop(iprop(owns (c : Thread nD τ) accM fullShare ((outsAt V c n hn).2.2.1) ∗ owns (c : Thread nD τ) klM fullShare ((outsAt V c n hn).2.2.2) ∗ others (F := F) c) ∗ (∃ r, prngReg c r))

theorem Inv_zero (c : Dev nD) (n : ℕ) (h : n ≤ cfg0.N) (hz : n = 0) : Inv V c n h = Pipeline.ΦA spec0 c := by
  subst hz; rfl
theorem Inv_succ (c : Dev nD) (n : ℕ) (hn : n < cfg0.N) :
    Inv V c (n + 1) hn = iprop(iprop(owns (c : Thread nD τ) accM fullShare ((outsAt V c n hn).2.2.1) ∗ owns (c : Thread nD τ) klM fullShare ((outsAt V c n hn).2.2.2) ∗ others (F := F) c) ∗ (∃ r, prngReg c r)) := rfl
theorem Inv_pos (c : Dev nD) (n : ℕ) (h : n ≤ cfg0.N) (hz : n ≠ 0) :
    Inv V c n h = iprop(iprop(owns (c : Thread nD τ) accM fullShare ((outsAt V c (n - 1) (by omega)).2.2.1) ∗ owns (c : Thread nD τ) klM fullShare ((outsAt V c (n - 1) (by omega)).2.2.2) ∗ others (F := F) c) ∗ (∃ r, prngReg c r)) := by
  cases n with
  | zero => exact absurd rfl hz
  | succ n => rfl

/-! ## The region's proof data -/

/-- The arrays as the region finds them; after the body at point `t` each input's buffer at its block and the outputs'
    at `outsAt`; the invariant `Inv`; nothing owed; full shares. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt V c t.val t.isLt).1
    | ⟨4, _⟩ => (outsAt V c t.val t.isLt).2.1
  Φ t := Inv V c t.val (Nat.le_of_lt_succ t.isLt)
  q _ := fullShare
  owed _ := 0

theorem A_eq (c : Dev nD) (w : Fin cfg0.W) : (dat0 V c).A w = V c (Pipeline.arrRef spec0 w) := by
  dsimp only [dat0]
theorem Inv_castSucc (c : Dev nD) (t : Fin cfg0.N) :
    (dat0 V c).Φ t.castSucc = Inv V c t.val (Nat.le_of_lt t.isLt) := by
  dsimp only [dat0]; simp only [Fin.coe_castSucc]
theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = (outsAt V c t.val t.isLt).1 := by dsimp only [dat0]
theorem after_4 (c : Dev nD) (t : Fin cfg0.N) : (dat0 V c).after 4 t = (outsAt V c t.val t.isLt).2.1 := by dsimp only [dat0]
theorem before_0 (c : Dev nD) (t : Fin cfg0.N) (d) : (dat0 V c).before 0 t d = iblk V c 0 t :=
  before_in0_of V (dat0 V c) (A_eq V c 0) (after_0 V c) t d
theorem before_1 (c : Dev nD) (t : Fin cfg0.N) (d) : (dat0 V c).before 1 t d = iblk V c 1 t :=
  before_in1_of V (dat0 V c) (A_eq V c 1) (after_1 V c) t d
theorem before_2 (c : Dev nD) (t : Fin cfg0.N) (d) : (dat0 V c).before 2 t d = iblk V c 2 t :=
  before_in2_of V (dat0 V c) (A_eq V c 2) (after_2 V c) t d

/-! ## The body obligation -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves_in0 (c : Dev nD) (t : Fin cfg0.N) : (dat0 V c).leavesExact 0 t = owns (c : Thread nD τ) (ms0 t) fullShare (iblk V c 0 t) := by
  unfold Dat.leavesExact; rw [live_in0 t, after_0]
theorem leaves_in1 (c : Dev nD) (t : Fin cfg0.N) : (dat0 V c).leavesExact 1 t = owns (c : Thread nD τ) (ms1 t) fullShare (iblk V c 1 t) := by
  unfold Dat.leavesExact; rw [live_in1 t, after_1]
theorem leaves_in2 (c : Dev nD) (t : Fin cfg0.N) : (dat0 V c).leavesExact 2 t = owns (c : Thread nD τ) (ms2 t) fullShare (iblk V c 2 t) := by
  unfold Dat.leavesExact; rw [live_in2 t, after_2]

set_option maxHeartbeats 4800000 in
/-- The body at any point. The inputs' memrefs hold their blocks; the closed forms say which case the point is in; the
    invariant hands the body the accumulators at what the point before left (at anything before the very first point) and
    takes them back at this point's contents, which the case's pieces cover; away from a run's last point the outputs'
    buffers pass through untouched, at it they end at the copies; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat0 V c).owesAt () t.succ = (dat0 V c).owesAt () t.castSucc from rfl]
  rw [show (dat0 V c).Φ t.succ = Inv V c (t.val + 1) t.isLt from rfl, Inv_succ]
  rw [leaves_in0, leaves_in1, leaves_in2]
  have hN : t.val < 32 := lt_of_lt_of_eq t.isLt (show cfg0.N = 32 from N_0)
  by_cases h0 : t.val % 8 = 0
  · have h1 : ¬t.val % 8 = 7 := by omega
    have hc0 : isFirst (grid0.coords t) := (isFirst_iff t).mpr h0
    have hc1 : ¬isLast (grid0.coords t) := fun h => h1 ((isLast_iff t).mp h)
    rw [Dat.leavesExact_idle (dat0 V c) 3 t (idle_out3 t hc1) (noflush_out3 t hc1),
      Dat.leavesExact_idle (dat0 V c) 4 t (idle_out4 t hc1) (noflush_out4 t hc1)]
    rw [outsAt_first V c t h0 h1]
    unfold fourFirst; (try dsimp only)
    by_cases hz : t.val = 0
    · rw [Inv_castSucc V c t, Inv_zero V c _ _ hz, PhiA_eq]
      iintro ⟨⟨⟨HA, HK, Hoth⟩, Hg⟩, Ho, ⟨%d0, H0⟩, ⟨%d1, H1⟩, ⟨%d2, H2⟩, ⟨%d3, H3⟩, ⟨%d4, H4⟩⟩
      iapply ((RF V c t hc0 hc1).2.2 _ _ Set.univ _)
      isplitl [H0]; · iexact H0
      isplitl [H1]; · iexact H1
      isplitl [H2]; · iexact H2
      isplitl [H3]; · iexact H3
      isplitl [H4]; · iexact H4
      isplitl [HA]; · iexact HA
      isplitl [HK]; · iexact HK
      iintro ⟨H0, H1, H2, H3, H4, ⟨%eA, HA⟩, ⟨%eK, HK⟩⟩
      isplitl [HA HK Hoth Hg]
      · isplitl [HA HK Hoth]
        · isplitl [HA]
          · unfold owns; iexists _; isplitr
            swap; · iexact HA
            ipureintro; exact View.read_writes_of_cover _ _ _ _ _ (coverA_first V c t hc0 hc1)
          isplitl [HK]
          · unfold owns; iexists _; isplitr
            swap; · iexact HK
            ipureintro; exact View.read_writes_of_cover _ _ _ _ _ (coverK_first V c t hc0 hc1)
          iexact Hoth
        iexact Hg
      isplitl [Ho]; · iexact Ho
      isplitl [H0]; · iexact H0
      isplitl [H1]; · iexact H1
      isplitl [H2]; · iexact H2
      isplitl [H3]; · iexists _; iexact H3
      iexists _; iexact H4
    · rw [Inv_castSucc V c t, Inv_pos V c _ _ hz]
      iintro ⟨⟨⟨HA, HK, Hoth⟩, Hg⟩, Ho, ⟨%d0, H0⟩, ⟨%d1, H1⟩, ⟨%d2, H2⟩, ⟨%d3, H3⟩, ⟨%d4, H4⟩⟩
      iapply ((RF V c t hc0 hc1).2.2 _ _ Set.univ _)
      isplitl [H0]; · iexact H0
      isplitl [H1]; · iexact H1
      isplitl [H2]; · iexact H2
      isplitl [H3]; · iexact H3
      isplitl [H4]; · iexact H4
      isplitl [HA]; · iexists _; iexact HA
      isplitl [HK]; · iexists _; iexact HK
      iintro ⟨H0, H1, H2, H3, H4, ⟨%eA, HA⟩, ⟨%eK, HK⟩⟩
      isplitl [HA HK Hoth Hg]
      · isplitl [HA HK Hoth]
        · isplitl [HA]
          · unfold owns; iexists _; isplitr
            swap; · iexact HA
            ipureintro; exact View.read_writes_of_cover _ _ _ _ _ (coverA_first V c t hc0 hc1)
          isplitl [HK]
          · unfold owns; iexists _; isplitr
            swap; · iexact HK
            ipureintro; exact View.read_writes_of_cover _ _ _ _ _ (coverK_first V c t hc0 hc1)
          iexact Hoth
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    have hc0 : ¬isFirst (grid0.coords t) := fun h => h0 ((isFirst_iff t).mp h)
    by_cases h1 : t.val % 8 = 7
    · have hc1 : isLast (grid0.coords t) := (isLast_iff t).mpr h1
      rw [show (dat0 V c).leavesExact 3 t = owns (c : Thread nD τ) (ms3 t) fullShare ((dat0 V c).after 3 t) from by
        unfold Dat.leavesExact; rw [live_out3 t hc1], after_3]
      rw [show (dat0 V c).leavesExact 4 t = owns (c : Thread nD τ) (ms4 t) fullShare ((dat0 V c).after 4 t) from by
        unfold Dat.leavesExact; rw [live_out4 t hc1], after_4]
      rw [outsAt_last V c t h0 h1]
      unfold fourLast; (try dsimp only)
      rw [Inv_castSucc V c t, Inv_pos V c _ _ hz]
      iintro ⟨⟨⟨HA, HK, Hoth⟩, Hg⟩, Ho, ⟨%d0, H0⟩, ⟨%d1, H1⟩, ⟨%d2, H2⟩, ⟨%d3, H3⟩, ⟨%d4, H4⟩⟩
      iapply ((RL V c t hc0 hc1 _ _).2.2.2.2 Set.univ _)
      isplitl [H0]; · iexact H0
      isplitl [H1]; · iexact H1
      isplitl [H2]; · iexact H2
      isplitl [H3]; · iexists _; iexact H3
      isplitl [H4]; · iexists _; iexact H4
      isplitl [HA]; · iexact HA
      isplitl [HK]; · iexact HK
      iintro ⟨H0, H1, H2, ⟨%e3, H3⟩, ⟨%e4, H4⟩, ⟨%eA, HA⟩, ⟨%eK, HK⟩⟩
      isplitl [HA HK Hoth Hg]
      · isplitl [HA HK Hoth]
        · isplitl [HA]
          · unfold owns; iexists _; isplitr
            swap; · iexact HA
            ipureintro; exact View.read_writes_of_cover _ _ _ _ _ (coverA_last V c t hc0 hc1 _ _)
          isplitl [HK]
          · unfold owns; iexists _; isplitr
            swap; · iexact HK
            ipureintro; exact View.read_writes_of_cover _ _ _ _ _ (coverK_last V c t hc0 hc1 _ _)
          iexact Hoth
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover3_last V c t hc0 hc1 _ _)
      unfold owns; iexists _; isplitr
      swap; · iexact H4
      ipureintro; exact View.read_writes_of_cover _ _ _ _ _ (cover4_last V c t hc0 hc1 _ _)
    · have hc1 : ¬isLast (grid0.coords t) := fun h => h1 ((isLast_iff t).mp h)
      rw [Dat.leavesExact_idle (dat0 V c) 3 t (idle_out3 t hc1) (noflush_out3 t hc1),
        Dat.leavesExact_idle (dat0 V c) 4 t (idle_out4 t hc1) (noflush_out4 t hc1)]
      rw [outsAt_mid V c t h0 h1]
      unfold fourMid; (try dsimp only)
      rw [Inv_castSucc V c t, Inv_pos V c _ _ hz]
      iintro ⟨⟨⟨HA, HK, Hoth⟩, Hg⟩, Ho, ⟨%d0, H0⟩, ⟨%d1, H1⟩, ⟨%d2, H2⟩, ⟨%d3, H3⟩, ⟨%d4, H4⟩⟩
      iapply ((RM V c t hc0 hc1 _ _).2.2 _ _ Set.univ _)
      isplitl [H0]; · iexact H0
      isplitl [H1]; · iexact H1
      isplitl [H2]; · iexact H2
      isplitl [H3]; · iexact H3
      isplitl [H4]; · iexact H4
      isplitl [HA]; · iexact HA
      isplitl [HK]; · iexact HK
      iintro ⟨H0, H1, H2, H3, H4, ⟨%eA, HA⟩, ⟨%eK, HK⟩⟩
      isplitl [HA HK Hoth Hg]
      · isplitl [HA HK Hoth]
        · isplitl [HA]
          · unfold owns; iexists _; isplitr
            swap; · iexact HA
            ipureintro; exact View.read_writes_of_cover _ _ _ _ _ (coverA_mid V c t hc0 hc1 _ _)
          isplitl [HK]
          · unfold owns; iexists _; isplitr
            swap; · iexact HK
            ipureintro; exact View.read_writes_of_cover _ _ _ _ _ (coverK_mid V c t hc0 hc1 _ _)
          iexact Hoth
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation (c : Dev nD) : BodyObligation (dat0 (F := F) V c) (defs₀ (F := F)) Variants.none () Set.univ := fun t => by
  rw [bigSep_W0, bigSep_W0]
  exact sound_body V c t

/-- What the launch hands the region is the invariant before the first point. -/
theorem inv_in (c : Dev nD) : Pipeline.ΦA spec0 c ⊢ (dat0 V c).Φ 0 := by
  rw [show (dat0 V c).Φ 0 = Inv V c 0 (Nat.zero_le _) from rfl, Inv_zero V c 0 _ rfl]
  try exact Idealize.SL.BI.Entails.refl _

/-- After the last point the invariant gives it back: the accumulators' named contents are forgotten. -/
theorem inv_out (c : Dev nD) : (dat0 V c).Φ (Fin.last cfg0.N) ⊢ Pipeline.ΦA spec0 c := by
  rw [show (dat0 V c).Φ (Fin.last cfg0.N) = Inv V c (Fin.last cfg0.N).val (Nat.le_of_lt_succ (Fin.last cfg0.N).isLt) from rfl,
    Inv_pos V c _ _ (by rw [Fin.val_last]; have : cfg0.N = 32 := N_0; omega), PhiA_eq]
  iintro ⟨⟨HA, HK, Hoth⟩, Hg⟩
  isplitl [HA HK Hoth]
  · isplitl [HA]; · iexists _; iexact HA
    isplitl [HK]; · iexists _; iexact HK
    iexact Hoth
  iexact Hg

end Cert.KernelIdeal.R0

end
-- ==== Proof.KI.Reg1.lean ====
/-
  The second kernel of the program (the grid of four row blocks of x), taken on its own at ANY contents V of the
  core's buffers on entry.

  For each of its seven windows, the block a grid point works on is read off the window's array as V has it.  The six
  inputs are found in their staging buffers at exactly those blocks at every point, whether or not the point copies
  them in: a window that is not copied at a point has the block index it had one point earlier, and the five
  whole-array windows have the same index at every point.  The body loads the six input blocks whole, computes, and
  writes the output block whole by one store; what the output's buffer then holds is that store's value, as a function
  of the six input blocks.  From this the proof data of the pipeline and its body obligation follow.
-/
import proofs.«122315_j80719615361567_2_alg».proof.Proof.Gen.KernelIdeal.Launch
import proofs.«122315_j80719615361567_2_alg».proof.Proof.Gen.KernelIdeal.Skeleton
import proofs.«122315_j80719615361567_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the kernel is entered
variable (V : (c : Dev nD) → (b : Ref sig .tc) → Buf (Elt F) ((c : Thread nD τ).loc b))

/-! ## The windows' blocks -/

/-- The block of window `w` at grid point `t`: the part of the window's array, as `V` has it, that the window's index
    map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, copied in there or not, for any proof data whose
    array is `V`'s and whose body leaves the block in place: where the point does not copy, the block index is the one
    of the point before; the window is whole and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, copied in there or not, for any proof data whose
    array is `V`'s and whose body leaves the block in place: where the point does not copy, the block index is the one
    of the point before (this window's index is the same at every point); the window is whole and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, copied in there or not, for any proof data whose
    array is `V`'s and whose body leaves the block in place: where the point does not copy, the block index is the one
    of the point before (this window's index is the same at every point); the window is whole and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, copied in there or not, for any proof data whose
    array is `V`'s and whose body leaves the block in place: where the point does not copy, the block index is the one
    of the point before (this window's index is the same at every point); the window is whole and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, copied in there or not, for any proof data whose
    array is `V`'s and whose body leaves the block in place: where the point does not copy, the block index is the one
    of the point before (this window's index is the same at every point); the window is whole and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, copied in there or not, for any proof data whose
    array is `V`'s and whose body leaves the block in place: where the point does not copy, the block index is the one
    of the point before (this window's index is the same at every point); the window is whole and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read, and the output written, whole -/

abbrev rX : Rect S1024x512 := Rect.unit (s := S1024x512) ![0, 0] S1024x512.size inb_S1024x512_S1024x512_0_0
abbrev rC : Rect S64x512 := Rect.unit (s := S64x512) ![0, 0] S64x512.size inb_S64x512_S64x512_0_0
abbrev rL : Rect S1x64 := Rect.unit (s := S1x64) ![0, 0] S1x64.size inb_S1x64_S1x64_0_0
abbrev rM : Rect S512x64 := Rect.unit (s := S512x64) ![0, 0] S512x64.size inb_S512x64_S512x64_0_0
abbrev rB : Rect S512x512 := Rect.unit (s := S512x512) ![0, 0] S512x512.size inb_S512x512_S512x512_0_0

/-! ## What the body leaves in the output window's buffer -/

/-- The output window's staging buffer after the body, as a function of the six input blocks: the body's one store
    writes the whole buffer, and its value is the skeleton's last payload over the values the loads returned. -/
def out1_6 (x0 : Vec F S1024x512 .f32) (x1 : Vec F S64x512 .f32) (x2 : Vec F S1x64 .f32) (x3 : Vec F S1x64 .f32)
    (x4 : Vec F S512x64 .f32) (x5 : Vec F S512x512 .f32) : Vec F S1024x512 .f32 :=
  View.canon [⟨rX, k1_pay1 (k1_pay2 (View.ld x0 rX))
      (k1_pay3 (View.ld x0 rX) (View.ld x1 rC) (View.ld x2 rL) (View.ld x3 rL) (View.ld x4 rM))
      (k1_pay4 (View.ld x5 rB)) (constant S1024x512 .f32 0x00000000#32)⟩]

/-- The one store is the whole buffer, so it covers it. -/
theorem cover1_6 (p0 : Vec F S1024x512 .f32) (y : S1024x512.Idx) :
    ∃ pc ∈ ([⟨rX, p0⟩] : List (View.Piece (Elt F) S1024x512 .f32)), y ∈ pc.1.set :=
  View.cover_of_tiled [⟨rX, p0⟩] S1024x512.size (by rfl) y

/-! ## The body's triple -/

set_option maxHeartbeats 1000000 in
/-- The kernel body on whole staging buffers — the six inputs' at contents `x0 … x5`, the output's at anything — runs to
    the continuation with the inputs' buffers as they were and the output's at `out1_6` of the inputs: the printed
    function is its skeleton of loads and one store, run operation by operation through the call of its first part;
    the load of the output buffer that precedes the store returns a value nothing uses. -/
theorem sound_kernel1 (c : Dev nD) (E : Set ℕ) (i : grid1.Coords)
    (arg0 : Memref sig .tc .vmem S1024x512 .f32) (harg0 : arg0.IsWhole) (arg1 : Memref sig .tc .vmem S64x512 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S512x64 .f32) (harg4 : arg4.IsWhole) (arg5 : Memref sig .tc .vmem S512x512 .f32) (harg5 : arg5.IsWhole)
    (arg6 : Memref sig .tc .vmem S1024x512 .f32) (harg6 : arg6.IsWhole)
    (x0 : Vec F S1024x512 .f32) (x1 : Vec F S64x512 .f32) (x2 : Vec F S1x64 .f32) (x3 : Vec F S1x64 .f32)
    (x4 : Vec F S512x64 .f32) (x5 : Vec F S512x512 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (out1_6 x0 x1 x2 x3 x4 x5)) -∗ K ⟨⟩))
      ⊢ wp frame (wpE (defs₀ (F := F)) Variants.none c none) E
          (cc1__main_kernel i arg0 harg0 arg1 harg1 arg2 harg2 arg3 harg3 arg4 harg4 arg5 harg5 arg6 harg6) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of this pipeline on core `c`: the arrays as the kernel finds them (`V`); after the body at point
    `t` each input's buffer still at its block and the output's at `out1_6` of the six input blocks; the invariant is
    the scoped rest of the core's memory and the register of the random-bit unit, which the body does not touch; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the entry contents (the definition projected, nothing of `V` opened). -/
theorem A_eq1 (c : Dev nD) (w : Fin cfg1.W) : (dat1 V c).A w = V c (Pipeline.arrRef spec1 w) := by
  dsimp only [dat1]

/-- What the body leaves, window by window (the definition's case split reduced at each literal window). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's staging buffer holds its block at every point, copied in there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`: the invariant, the core's dues, and the seven windows' current staging
    buffers, one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks (`before1_W`), so the body's triple applies at those
    blocks; the invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.R1

end
-- ==== Proof.KI.Run.lean ====
/-
  The whole run of the program: the contents of the core's buffers at each of the five boundaries of @main — the launch,
  after the first host stretch (the noise reshaped), after the coefficient pass (its two output arrays at what its
  write-backs leave, every other buffer as entered), after the second host stretch (the mixing coefficients divided by the
  sample count, the divergence halved and summed, the centres' squared norms, the log-widths as a row), after the main pass
  — as a fold from the launch memory; the two regions as segments over "every unscoped buffer at the boundary's
  contents, the generator register at some state, nothing owed"; and the launch: every weakly fair execution terminates
  and every final memory holds every unscoped buffer at the last boundary's contents. The seven arguments are written by
  no host line and by no region, so the fold at an argument walks back to the launch memory.
-/
import proofs.«122315_j80719615361567_2_alg».proof.Proof.Gen.KernelIdeal.Regions
import proofs.«122315_j80719615361567_2_alg».proof.Proof.KI.Reg0
import proofs.«122315_j80719615361567_2_alg».proof.Proof.KI.Reg1

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (R0.dat0 (V1 m ρ) c).arrAt w cfg0.N
theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (R0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (R1.dat1 (V3 m ρ) c).arrAt w cfg1.N
theorem W4_arr (c : Dev nD) (w : Fin cfg1.W) :
    W4 m ρ c (Proc.devRef .tc (Pipeline.arrRef spec1 w)) = (R1.dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (R1.dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((R1.dat1 (V3 m ρ) c).arrAt_in 0 rfl _).trans (R1.A_eq1 (V3 m ρ) c 0))
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 1).trans (((R1.dat1 (V3 m ρ) c).arrAt_in 1 rfl _).trans (R1.A_eq1 (V3 m ρ) c 1))
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 0).trans (((R0.dat0 (V1 m ρ) c).arrAt_in 0 rfl _).trans (R0.A_eq (V1 m ρ) c 0))
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := (W2_arr m ρ c 1).trans (((R0.dat0 (V1 m ρ) c).arrAt_in 1 rfl _).trans (R0.A_eq (V1 m ρ) c 1))
    _ = W0 m ρ c (Proc.devRef .tc main_arg4) := StableHlo.after_of_writes_sub hostOps0 _ hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 5).trans (((R1.dat1 (V3 m ρ) c).arrAt_in 5 rfl _).trans (R1.A_eq1 (V3 m ρ) c 5))
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (V1 m ρ) c
  | ⟨1, _⟩ => fun c => R1.dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R0.inv_in (V1 m ρ) c)
    unfold Pipeline.ΦA
    iintro ⟨Hp, -, Hr⟩
    isplitl [Hr]; · iexact Hr
    iexact Hp
  hout c := by
    rw [Pipeline.ownSems0_none]
    refine (R0.inv_out (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    every final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.KernelIdeal.Whole

end
-- ==== Proof.Spec.lean ====
/-
  The two results as functions of the seven argument arrays, index by index, on the extended reals.

  With x : [4096,512], centers c : [64,512], log-widths ls : [64], coefficient means cm and log-variances
  clv : [512,512,64], base weights bw : [512,512] and noise ep : [1,512,512,64]:

    dist b n    = Σ_i (x b i − c n i)²                         the squared distance of row b of x to centre n
    width n     = 2 · (exp (ls n) · exp (ls n)) + 1e-8
    basis b n   = exp ( −dist b n / width n )                  the radial basis
    coef i o n  = cm i o n + ep 0 i o n · exp (½ · clv i o n)  the sampled coefficient
    mix o n     = Σ_i coef i o n
    out b o     = Σ_n basis b n · mix o n  +  Σ_k x b k · bw k o
    kl          = ½ · Σ_i Σ_o Σ_n ( exp (clv i o n) + cm i o n · cm i o n − 1 − clv i o n )

  The float literals are kept as the words the programs print; no law below evaluates one except the zero word.
-/
import Idealize.ShloMosaic.PureOps.Ideal
import Idealize.ShloMosaic.Lib.ValueIdx

noncomputable section

namespace Cert.Spec

open Idealize.ShloMosaic Idealize.ShloMosaic.ValueIdx

/-- An array of extended reals of two, one, three, four axes. -/
abbrev Arr2 (a b : Nat) : Type := (⟨2, ![a, b]⟩ : Shape).Idx → EReal
abbrev Arr1 (a : Nat) : Type := (⟨1, ![a]⟩ : Shape).Idx → EReal
abbrev Arr3 (a b c : Nat) : Type := (⟨3, ![a, b, c]⟩ : Shape).Idx → EReal
abbrev Arr4 (a b c d : Nat) : Type := (⟨4, ![a, b, c, d]⟩ : Shape).Idx → EReal
abbrev Arr0 : Type := (⟨0, ![]⟩ : Shape).Idx → EReal

/-- The literals 2, ½, 1 and 1e-8 (as an f32 word) of both programs. -/
def two : EReal := Ideal.ofBits .f32 0x40000000#32
def half : EReal := Ideal.ofBits .f32 0x3F000000#32
def one : EReal := Ideal.ofBits .f32 0x3F800000#32
def tiny : EReal := Ideal.ofBits .f32 0x322BCC77#32

variable (x : Arr2 4096 512) (c : Arr2 64 512) (ls : Arr1 64) (cm clv : Arr3 512 512 64) (bw : Arr2 512 512)
  (ep : Arr4 1 512 512 64)

/-- The squared distance of row `b` of `x` to centre `n`: the sum over the 512 features of the squared difference. -/
def dist (b : Fin 4096) (n : Fin 64) : EReal :=
  ∑ i : Fin 512, (x (ix2 b i) - c (ix2 n i)) * (x (ix2 b i) - c (ix2 n i))

/-- Twice the squared width of centre `n`, plus the literal 1e-8. -/
def width (n : Fin 64) : EReal := two * (Ideal.exp (ls (ix1 n)) * Ideal.exp (ls (ix1 n))) + tiny

/-- The radial basis of row `b` at centre `n`. -/
def basis (b : Fin 4096) (n : Fin 64) : EReal := Ideal.exp (Ideal.div (-(dist x c b n)) (width ls n))

/-- The sampled coefficient: mean plus noise times the standard deviation exp (½ · log-variance). -/
def coef (i o : Fin 512) (n : Fin 64) : EReal :=
  cm (ix3 i o n) + ep (ix4 (0 : Fin 1) i o n) * Ideal.exp (half * clv (ix3 i o n))

/-- The coefficients summed over the input features. -/
def mix (o : Fin 512) (n : Fin 64) : EReal := ∑ i : Fin 512, coef cm clv ep i o n

/-- The first result: the basis mixed by the summed coefficients, plus `x` times the base weights. -/
def out (j : (⟨2, ![4096, 512]⟩ : Shape).Idx) : EReal :=
  (∑ n : Fin 64, basis x c ls (j 0) n * mix cm clv ep (j 1) n) + ∑ k : Fin 512, x (ix2 (j 0) k) * bw (ix2 k (j 1))

/-- One term of the divergence from the unit normal prior. -/
def klTerm (i o : Fin 512) (n : Fin 64) : EReal :=
  Ideal.exp (clv (ix3 i o n)) + cm (ix3 i o n) * cm (ix3 i o n) - one - clv (ix3 i o n)

/-- The second result: half the sum of the terms over all three axes. -/
def kl (_ : (⟨0, ![]⟩ : Shape).Idx) : EReal :=
  half * ∑ i : Fin 512, ∑ o : Fin 512, ∑ n : Fin 64, klTerm cm clv i o n

end Cert.Spec

end
-- ==== Proof.KI.HostVal.lean ====
/-
  The kernel program's two host stretches, read at an index on the extended reals.

  The first stretch drops the leading unit axis of the noise array. The second divides the first launch's
  [512,64] result by the literal one, sums the first launch's [1,512] row from the zero word and halves it,
  gives the log-widths a leading unit axis, and sums the squared centres along their features into a [1,64] row.
-/
import proofs.«122315_j80719615361567_2_alg».proof.Proof.Gen.KernelIdeal.Launch
import proofs.«122315_j80719615361567_2_alg».proof.Proof.Gen.KernelIdeal.Regions
import proofs.«122315_j80719615361567_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HostVal

open Cert.KernelIdeal Cert.KernelIdeal.Gen Idealize.ShloMosaic Idealize.ShloMosaic.TcCoe Idealize.SL.Sem
  Idealize.ShloMosaic.StableHlo Idealize.ShloMosaic.ValueIdx
open scoped BigOperators

variable (W : Valuation τ sig (Elt Ideal))

/-! ## The stretches' results as the operations' composed terms -/

theorem v0_term :
    (StableHlo.after (hostOps0 (F := Ideal)) W (Proc.devRef .tc main_v0) : S512x512x64.Idx → EReal)
      = shapeCast S512x512x64 (W (Proc.devRef .tc main_arg6) : S1x512x512x64.Idx → EReal) shapeCasts_S1x512x512x64_S512x512x64 := by
  after_results
  rfl

theorem v3_term :
    (StableHlo.after (hostOps1 (F := Ideal)) W (Proc.devRef .tc main_v3) : S512x64.Idx → EReal)
      = Host.divf (F := Ideal) (W (Proc.devRef .tc main_v1_0) : FVec Ideal S512x64 .f32)
          (broadcastInDim S512x64 ![] bcast_S_S512x64 (constant (F := Ideal) S_ .f32 0x3F800000#32)) := by
  after_results

theorem v5_term :
    (StableHlo.after (hostOps1 (F := Ideal)) W (Proc.devRef .tc main_v5) : S_.Idx → EReal)
      = mulf (F := Ideal) (constant (F := Ideal) S_ .f32 0x3F000000#32)
          (Host.reduceAdd (F := Ideal) (W (Proc.devRef .tc main_v1_1) : FVec Ideal S1x512 .f32)
            (constant (F := Ideal) S_ .f32 0x00000000#32) reducesTo_S1x512_S_d0_1 h_S_) := by
  after_results

theorem v6_term :
    (StableHlo.after (hostOps1 (F := Ideal)) W (Proc.devRef .tc main_v6) : S1x64.Idx → EReal)
      = shapeCast S1x64 (W (Proc.devRef .tc main_arg2) : S64.Idx → EReal) shapeCasts_S64_S1x64 := by
  after_results
  rfl

theorem v9_term :
    (StableHlo.after (hostOps1 (F := Ideal)) W (Proc.devRef .tc main_v9) : S1x64.Idx → EReal)
      = broadcastInDim S1x64 ![1] bcast_S64_S1x64_1
          (Host.reduceAdd (F := Ideal)
            (mulf (F := Ideal) (W (Proc.devRef .tc main_arg1) : FVec Ideal S64x512 .f32) (W (Proc.devRef .tc main_arg1) : FVec Ideal S64x512 .f32))
            (constant (F := Ideal) S_ .f32 0x00000000#32) reducesTo_S64x512_S64_d1 h_S_) := by
  after_results

/-! ## Two sums of the second stretch, as functions of an array -/

/-- The sum of a [1,512] row. -/
def rowSum (y : Cert.Spec.Arr2 1 512) : EReal := ∑ o : Fin 512, y (ix2 (0 : Fin 1) o)

/-- The squared norm of row `n` of a [64,512] array: the sum over the 512 features of the squared entry. -/
def sqNorm (y : Cert.Spec.Arr2 64 512) (n : Fin 64) : EReal := ∑ i : Fin 512, y (ix2 n i) * y (ix2 n i)

/-- Half the host's sum over both axes of a [1,512] row from the zero word is half the row's sum: the zero word is
    zero, the all-axes sum is the sum over every index, and the unit axis has one entry. -/
theorem half_rowSum_read (y : FVec Ideal S1x512 .f32) :
    mulf (F := Ideal) (constant (F := Ideal) S_ .f32 0x3F000000#32)
        (Host.reduceAdd (F := Ideal) y (constant (F := Ideal) S_ .f32 0x00000000#32) reducesTo_S1x512_S_d0_1 h_S_) ix0
      = Cert.Spec.half * rowSum y := by
  simp only [mulf_apply, constant_apply, Host.reduceAdd, Ideal.hostReduceAdd_def]
  rw [Ideal.hostReduceAdd_total reducesTo_S1x512_S_d0_1 (fun b => b.elim0), Ideal.ofBits_zero_f32, zero_add, sum_idx2,
    Fin.sum_univ_one]
  rfl

/-- The host's sum along the features of the squared [64,512] array from the zero word, broadcast to a [1,64] row,
    is at (0, n) the squared norm of row n. -/
theorem sqNorm_read (y : FVec Ideal S64x512 .f32) (n : Fin 64) :
    broadcastInDim S1x64 ![1] bcast_S64_S1x64_1
        (Host.reduceAdd (F := Ideal) (mulf (F := Ideal) y y) (constant (F := Ideal) S_ .f32 0x00000000#32)
          reducesTo_S64x512_S64_d1 h_S_) (ix2 (0 : Fin 1) n)
      = sqNorm y n := by
  rw [broadcastInDim_apply _ bcast_S64_S1x64_1 _ (ix2 (0 : Fin 1) n) (ix1 n) (fun a => match a with
    | ⟨0, _⟩ => by show n.val = if (64 : Nat) = 1 then 0 else n.val; rw [if_neg (by decide)])]
  simp only [Host.reduceAdd, Ideal.hostReduceAdd_def]
  rw [Ideal.hostReduceAdd_single reducesTo_S64x512_S64_d1 (by decide), constant_apply, Ideal.ofBits_zero_f32, zero_add]
  refine Finset.sum_congr rfl fun k _ => ?_
  have e : (Shape.Reduces.lift (by decide : S64x512.Reduces [1] S64) (ix1 n) k) = ix2 n k :=
    funext fun a => Fin.ext (by match a with | ⟨0, _⟩ => rfl | ⟨1, _⟩ => rfl)
  rw [mulf_apply, e] <;> rfl

/-! ## The stretches' results at an index -/

/-- Dropping the leading unit axis of the noise array: entry (i, o, n) is the operand's entry (0, i, o, n). -/
theorem v0_apply (i o : Fin 512) (n : Fin 64) :
    (StableHlo.after (hostOps0 (F := Ideal)) W (Proc.devRef .tc main_v0) : S512x512x64.Idx → EReal) (ix3 i o n)
      = (W (Proc.devRef .tc main_arg6) : S1x512x512x64.Idx → EReal) (ix4 (0 : Fin 1) i o n) := by
  rw [v0_term]
  exact shapeCast_1abc_abc_apply _ _ i o n

/-- The first launch's [512,64] result divided by the literal one, entry by entry. -/
theorem v3_apply (o : Fin 512) (n : Fin 64) :
    (StableHlo.after (hostOps1 (F := Ideal)) W (Proc.devRef .tc main_v3) : S512x64.Idx → EReal) (ix2 o n)
      = Ideal.div ((W (Proc.devRef .tc main_v1_0) : S512x64.Idx → EReal) (ix2 o n)) Cert.Spec.one := by
  rw [v3_term]
  rfl

/-- Half the sum of the first launch's [1,512] row. -/
theorem v5_apply :
    (StableHlo.after (hostOps1 (F := Ideal)) W (Proc.devRef .tc main_v5) : S_.Idx → EReal) ix0
      = Cert.Spec.half * rowSum (W (Proc.devRef .tc main_v1_1)) := by
  rw [v5_term]
  exact half_rowSum_read _

/-- The log-widths given a leading unit axis: entry (0, n) is the operand's entry n. -/
theorem v6_apply (n : Fin 64) :
    (StableHlo.after (hostOps1 (F := Ideal)) W (Proc.devRef .tc main_v6) : S1x64.Idx → EReal) (ix2 (0 : Fin 1) n)
      = (W (Proc.devRef .tc main_arg2) : S64.Idx → EReal) (ix1 n) := by
  rw [v6_term]
  exact shapeCast_a_1a_apply _ _ 0 n

/-- The squared norm of centre n. -/
theorem v9_apply (n : Fin 64) :
    (StableHlo.after (hostOps1 (F := Ideal)) W (Proc.devRef .tc main_v9) : S1x64.Idx → EReal) (ix2 (0 : Fin 1) n)
      = sqNorm (W (Proc.devRef .tc main_arg1)) n := by
  rw [v9_term]
  exact sqNorm_read _ n
/-! ## What the stretches leave as it was -/

theorem keep1 (r : Ref sig .tc) (h : r ∉ hostOps1_W) :
    StableHlo.after (hostOps1 (F := Ideal)) W (Proc.devRef .tc r) = W (Proc.devRef .tc r) :=
  StableHlo.after_of_writes_sub hostOps1 W hostOps1_writes h

theorem keep0 (r : Ref sig .tc) (h : r ∉ hostOps0_W) :
    StableHlo.after (hostOps0 (F := Ideal)) W (Proc.devRef .tc r) = W (Proc.devRef .tc r) :=
  StableHlo.after_of_writes_sub hostOps0 W hostOps0_writes h

theorem keep1_arg0 : StableHlo.after (hostOps1 (F := Ideal)) W (Proc.devRef .tc main_arg0) = W (Proc.devRef .tc main_arg0) :=
  keep1 W main_arg0 (by decide)
theorem keep1_arg1 : StableHlo.after (hostOps1 (F := Ideal)) W (Proc.devRef .tc main_arg1) = W (Proc.devRef .tc main_arg1) :=
  keep1 W main_arg1 (by decide)
theorem keep1_arg5 : StableHlo.after (hostOps1 (F := Ideal)) W (Proc.devRef .tc main_arg5) = W (Proc.devRef .tc main_arg5) :=
  keep1 W main_arg5 (by decide)
theorem keep1_v1_0 : StableHlo.after (hostOps1 (F := Ideal)) W (Proc.devRef .tc main_v1_0) = W (Proc.devRef .tc main_v1_0) :=
  keep1 W main_v1_0 (by decide)
theorem keep1_v1_1 : StableHlo.after (hostOps1 (F := Ideal)) W (Proc.devRef .tc main_v1_1) = W (Proc.devRef .tc main_v1_1) :=
  keep1 W main_v1_1 (by decide)
theorem keep0_arg3 : StableHlo.after (hostOps0 (F := Ideal)) W (Proc.devRef .tc main_arg3) = W (Proc.devRef .tc main_arg3) :=
  keep0 W main_arg3 (by decide)
theorem keep0_arg4 : StableHlo.after (hostOps0 (F := Ideal)) W (Proc.devRef .tc main_arg4) = W (Proc.devRef .tc main_arg4) :=
  keep0 W main_arg4 (by decide)

end Cert.KernelIdeal.HostVal

end
-- ==== Proof.KI.Fold.lean ====
/-
  The contents of the core's buffers at the boundaries of the program, walked back to the launch memory and to the
  first launch's two output arrays.

  No host line and no launch writes an argument array, so at every boundary an argument holds what was launched. The
  first host stretch drops the noise array's leading unit axis. After the second stretch: the [1,64] row of squared
  centre norms is a sum over the launch memory's centres; the log-widths have a leading unit axis; the [512,64]
  array is the first launch's third output divided by the literal one; the scalar is half the sum of the first
  launch's [1,512] row. After the second launch its seventh window's array is what the pipeline leaves there.
-/
import proofs.«122315_j80719615361567_2_alg».proof.Proof.KI.Run
import proofs.«122315_j80719615361567_2_alg».proof.Proof.KI.HostVal

noncomputable section

namespace Cert.KernelIdeal.Fold

open Cert.KernelIdeal Cert.KernelIdeal.Gen Cert.KernelIdeal.Whole
open Idealize.ShloMosaic Idealize.ShloMosaic.TcCoe Idealize.SL.Sem Idealize.ShloMosaic.ValueIdx
open scoped BigOperators

variable (m : (ℓ : Loc nD τ sig) → Buf (Elt Ideal) ℓ) (ρ : Dev nD → PrngReg) (c : Dev nD)

/-! ## Two arrays named, so that their entries are extended reals to the elaborator -/

/-- The launch memory's centres, as a [64,512] array of extended reals. -/
abbrev centres : Cert.Spec.Arr2 64 512 := m ((c : Thread nD τ).loc main_arg1)
theorem centres_eq : centres m c = m ((c : Thread nD τ).loc main_arg1) := rfl

/-- The first launch's fifth window's array after its last grid point, as a [1,512] row of extended reals. -/
abbrev klRow : Cert.Spec.Arr2 1 512 := (R0.dat0 (V1 m ρ) c).arrAt 4 cfg0.N
theorem klRow_eq : klRow m ρ c = (R0.dat0 (V1 m ρ) c).arrAt 4 cfg0.N := rfl

/-! ## An argument after the first launch is what was launched -/

theorem w2_arg0 : W2 m ρ c (Proc.devRef .tc main_arg0) = m ((c : Thread nD τ).loc main_arg0) :=
  (W2_of_ne m ρ c main_arg0 (by decide)).trans ((HostVal.keep0 (W0 m ρ c) main_arg0 (by decide)).trans rfl)
theorem w2_arg1 : W2 m ρ c (Proc.devRef .tc main_arg1) = m ((c : Thread nD τ).loc main_arg1) :=
  (W2_of_ne m ρ c main_arg1 (by decide)).trans ((HostVal.keep0 (W0 m ρ c) main_arg1 (by decide)).trans rfl)
theorem w2_arg2 : W2 m ρ c (Proc.devRef .tc main_arg2) = m ((c : Thread nD τ).loc main_arg2) :=
  (W2_of_ne m ρ c main_arg2 (by decide)).trans ((HostVal.keep0 (W0 m ρ c) main_arg2 (by decide)).trans rfl)
theorem w2_arg5 : W2 m ρ c (Proc.devRef .tc main_arg5) = m ((c : Thread nD τ).loc main_arg5) :=
  (W2_of_ne m ρ c main_arg5 (by decide)).trans ((HostVal.keep0 (W0 m ρ c) main_arg5 (by decide)).trans rfl)

/-! ## The first launch's entry -/

theorem v1_arg3 : V1 m ρ c main_arg3 = m ((c : Thread nD τ).loc main_arg3) :=
  (HostVal.keep0_arg3 (W0 m ρ c)).trans rfl
theorem v1_arg4 : V1 m ρ c main_arg4 = m ((c : Thread nD τ).loc main_arg4) :=
  (HostVal.keep0_arg4 (W0 m ρ c)).trans rfl
theorem v1_v0 (i o : Fin 512) (n : Fin 64) :
    V1 m ρ c main_v0 (ix3 i o n) = m ((c : Thread nD τ).loc main_arg6) (ix4 (0 : Fin 1) i o n) :=
  (HostVal.v0_apply (W0 m ρ c) i o n).trans rfl

/-! ## The second launch's entry -/

theorem v3_arg0 : V3 m ρ c main_arg0 = m ((c : Thread nD τ).loc main_arg0) :=
  (HostVal.keep1_arg0 (W2 m ρ c)).trans (w2_arg0 m ρ c)
theorem v3_arg1 : V3 m ρ c main_arg1 = m ((c : Thread nD τ).loc main_arg1) :=
  (HostVal.keep1_arg1 (W2 m ρ c)).trans (w2_arg1 m ρ c)
theorem v3_arg5 : V3 m ρ c main_arg5 = m ((c : Thread nD τ).loc main_arg5) :=
  (HostVal.keep1_arg5 (W2 m ρ c)).trans (w2_arg5 m ρ c)

theorem v3_v9 (n : Fin 64) :
    V3 m ρ c main_v9 (ix2 (0 : Fin 1) n) = 0 + ∑ i : Fin 512, centres m c (ix2 n i) * centres m c (ix2 n i) := by
  refine (HostVal.v9_apply (W2 m ρ c) n).trans ?_
  rw [w2_arg1 m ρ c]
  exact (zero_add (∑ i : Fin 512, centres m c (ix2 n i) * centres m c (ix2 n i))).symm

theorem v3_v6 (n : Fin 64) : V3 m ρ c main_v6 (ix2 (0 : Fin 1) n) = m ((c : Thread nD τ).loc main_arg2) (ix1 n) := by
  refine (HostVal.v6_apply (W2 m ρ c) n).trans ?_
  rw [w2_arg2 m ρ c]

theorem v3_v3 (o : Fin 512) (n : Fin 64) :
    V3 m ρ c main_v3 (ix2 o n) = Ideal.div ((R0.dat0 (V1 m ρ) c).arrAt 3 cfg0.N (ix2 o n)) Cert.Spec.one := by
  refine (HostVal.v3_apply (W2 m ρ c) o n).trans ?_
  have e : W2 m ρ c (Proc.devRef .tc main_v1_0) = (R0.dat0 (V1 m ρ) c).arrAt 3 cfg0.N := W2_arr m ρ c 3
  rw [e]

/-! ## The program's exit -/

theorem w4_v10 : W4 m ρ c (Proc.devRef .tc main_v10) = (R1.dat1 (V3 m ρ) c).arrAt 6 cfg1.N :=
  W4_arr m ρ c 6

theorem w4_v5 :
    W4 m ρ c (Proc.devRef .tc main_v5) ix0 = Cert.Spec.half * (0 + ∑ o : Fin 512, klRow m ρ c (ix2 (0 : Fin 1) o)) := by
  rw [W4_of_ne m ρ c main_v5 (by decide)]
  refine (HostVal.v5_apply (W2 m ρ c)).trans ?_
  have e : W2 m ρ c (Proc.devRef .tc main_v1_1) = (R0.dat0 (V1 m ρ) c).arrAt 4 cfg0.N := W2_arr m ρ c 4
  rw [e]
  exact congrArg (Cert.Spec.half * ·) (zero_add _).symm

end Cert.KernelIdeal.Fold

end
-- ==== Proof.KI.Val1.lean ====
/-
  The array the second kernel leaves behind its output window, as one function of the arrays its six input windows
  read, index by index.

  Row b of the [4096,512] result lies in the block of grid point t = b / 1024, at row b mod 1024 of that block.  The
  block is the body's one store, whose value is a function of the six input blocks; the first input's block at point t
  is rows 1024·t … 1024·t + 1023 of its array, and each of the other five inputs' blocks is its whole array at every
  point.  So every point writes back its own block of ONE function of the six arrays, the four blocks tile the result,
  and the result array ends at that function.
-/
import proofs.«122315_j80719615361567_2_alg».proof.Proof.KI.Reg1
import proofs.«122315_j80719615361567_2_alg».proof.Proof.Spec
import Idealize.ShloMosaic.Lib.Pipeline.Value
import Idealize.ShloMosaic.Lib.ValueIdx

noncomputable section

namespace Cert.KernelIdeal.Val1

open Cert.KernelIdeal Cert.KernelIdeal.Gen Idealize.ShloMosaic Idealize.ShloMosaic.TcCoe Idealize.SL.Sem
open Idealize.ShloMosaic.Pipeline (Dat)
open Idealize.ShloMosaic.ValueIdx

-- the contents of the core's buffers when the kernel is entered
variable (V : (c : Dev nD) → (b : Ref sig .tc) → Buf (Elt Ideal) ((c : Thread nD τ).loc b))

/-- The zero offsets of a rank-2 rectangle, as the constant function. -/
theorem zero2 : (![0, 0] : Fin 2 → Nat) = fun _ => 0 := funext fun a => by fin_cases a <;> rfl

/-! ## The result as one function of the six arrays -/

/-- Rows `1024·t … 1024·t + 1023` of a [4096,512] array, as a [1024,512] block. -/
def rowBlock (X : S4096x512.Idx → Elt Ideal .f32) (t : Fin 4) : Vec Ideal S1024x512 .f32 :=
  fun y => X (ix2 ⟨1024 * t.val + (y 0).val, by have := idx2_lt0 y; have := t.isLt; omega⟩ ⟨(y 1).val, idx2_lt1 y⟩)

/-- What the body stores at the point whose block of the first array is row block `t`: the skeleton's last payload
    over that row block and the five whole arrays. -/
def blockOut (X : S4096x512.Idx → Elt Ideal .f32) (C : S64x512.Idx → Elt Ideal .f32) (CN LS : S1x64.Idx → Elt Ideal .f32)
    (CS : S512x64.Idx → Elt Ideal .f32) (BW : S512x512.Idx → Elt Ideal .f32) (t : Fin 4) : FVec Ideal S1024x512 .f32 :=
  k1_pay1 (k1_pay2 (rowBlock X t)) (k1_pay3 (rowBlock X t) C CN LS CS) (k1_pay4 BW)
    (constant (F := Ideal) S1024x512 .f32 0x00000000#32)

/-- The whole result: at row `b`, column `o`, the stored block of point `b / 1024` at row `b mod 1024`, column `o`. -/
def G (X : S4096x512.Idx → Elt Ideal .f32) (C : S64x512.Idx → Elt Ideal .f32) (CN LS : S1x64.Idx → Elt Ideal .f32)
    (CS : S512x64.Idx → Elt Ideal .f32) (BW : S512x512.Idx → Elt Ideal .f32) : S4096x512.Idx → Elt Ideal .f32 :=
  fun i => blockOut X C CN LS CS BW ⟨(i 0).val / 1024, by have := idx2_lt0 i; omega⟩
    (ix2 ⟨(i 0).val % 1024, Nat.mod_lt _ (by decide)⟩ ⟨(i 1).val, idx2_lt1 i⟩)

/-- `G` at an index whose row is `1024·t + ` a block row and whose column is the block's column is the stored block
    of point `t` there (division with remainder). -/
theorem G_at (X : S4096x512.Idx → Elt Ideal .f32) (C : S64x512.Idx → Elt Ideal .f32) (CN LS : S1x64.Idx → Elt Ideal .f32)
    (CS : S512x64.Idx → Elt Ideal .f32) (BW : S512x512.Idx → Elt Ideal .f32) (t : Fin 4) (j : S1024x512.Idx) (i : S4096x512.Idx)
    (h0 : (i 0).val = 1024 * t.val + (j 0).val) (h1 : (i 1).val = (j 1).val) :
    G X C CN LS CS BW i = blockOut X C CN LS CS BW t j := by
  have hj0 : (j 0).val < 1024 := idx2_lt0 j
  have ht : (⟨(i 0).val / 1024, by have := idx2_lt0 i; omega⟩ : Fin 4) = t := Fin.ext (by show (i 0).val / 1024 = t.val; omega)
  have hj : (ix2 (⟨(i 0).val % 1024, Nat.mod_lt _ (by decide)⟩ : Fin 1024) (⟨(i 1).val, idx2_lt1 i⟩ : Fin 512) : S1024x512.Idx) = j := by
    funext a
    apply Fin.ext
    match a with
    | ⟨0, _⟩ => show (i 0).val % 1024 = (j 0).val; omega
    | ⟨1, _⟩ => show (i 1).val = (j 1).val; exact h1
  unfold G
  rw [ht, hj]

/-! ## The printed index maps over the grid -/

/-- Decided over the four points: the first input and the output move down one block per point and never sideways;
    the other five inputs stay at block (0, 0). -/
theorem idx_facts : ∀ t : Fin cfg1.N, win1_0.index t (0 : Fin 2) = t.val ∧ win1_0.index t (1 : Fin 2) = 0
    ∧ win1_6.index t (0 : Fin 2) = t.val ∧ win1_6.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Every row block of the result is some point's. -/
theorem idx_onto : ∀ q : Fin 4, ∃ t : Fin cfg1.N, t.val = q.val :=
  (by decide +kernel : ∀ q : Fin 4, ∃ t : Fin grid1.N, t.val = q.val)

/-- A grid point as a number below four. -/
def pt (t : Fin cfg1.N) : Fin 4 := ⟨t.val, Nat.lt_of_lt_of_eq t.isLt N_1⟩

/-! ## The input blocks as parts of their arrays -/

/-- The first input's block at point `t` is row block `t` of its array. -/
theorem iblk_rows (c : Dev nD) (t : Fin cfg1.N) :
    (R1.iblk1 (F := Ideal) V c 0 t : Vec Ideal S1024x512 .f32) = rowBlock (V c main_arg0) (pt t) := by
  have hI := idx_facts t
  funext y
  show V c main_arg0 (((cfg1.win 0).blk t).view.emb y) = V c main_arg0 (ix2 _ _)
  congr 1
  funext a
  apply Fin.ext
  match a with
  | ⟨0, _⟩ => show win1_0.index t (0 : Fin 2) * 1024 + 1 * (y 0).val = 1024 * t.val + (y 0).val; omega
  | ⟨1, _⟩ => show win1_0.index t (1 : Fin 2) * 512 + 1 * (y 1).val = (y 1).val; omega

/-- Window 1's block at every point is the whole of its array: the block index is zero on both axes. -/
theorem iblk_whole1 (c : Dev nD) (t : Fin cfg1.N) :
    (R1.iblk1 (F := Ideal) V c 1 t : Vec Ideal S64x512 .f32) = (V c main_arg1 : S64x512.Idx → Elt Ideal .f32) := by
  have hI := idx_facts t
  funext y
  show V c main_arg1 (((cfg1.win 1).blk t).view.emb y) = V c main_arg1 y
  congr 1
  funext a
  apply Fin.ext
  match a with
  | ⟨0, _⟩ => show win1_1.index t (0 : Fin 2) * 64 + 1 * (y 0).val = (y 0).val; omega
  | ⟨1, _⟩ => show win1_1.index t (1 : Fin 2) * 512 + 1 * (y 1).val = (y 1).val; omega

/-- Window 2's block at every point is the whole of its array: the block index is zero on both axes. -/
theorem iblk_whole2 (c : Dev nD) (t : Fin cfg1.N) :
    (R1.iblk1 (F := Ideal) V c 2 t : Vec Ideal S1x64 .f32) = (V c main_v9 : S1x64.Idx → Elt Ideal .f32) := by
  have hI := idx_facts t
  funext y
  show V c main_v9 (((cfg1.win 2).blk t).view.emb y) = V c main_v9 y
  congr 1
  funext a
  apply Fin.ext
  match a with
  | ⟨0, _⟩ => show win1_2.index t (0 : Fin 2) * 1 + 1 * (y 0).val = (y 0).val; omega
  | ⟨1, _⟩ => show win1_2.index t (1 : Fin 2) * 64 + 1 * (y 1).val = (y 1).val; omega

/-- Window 3's block at every point is the whole of its array: the block index is zero on both axes. -/
theorem iblk_whole3 (c : Dev nD) (t : Fin cfg1.N) :
    (R1.iblk1 (F := Ideal) V c 3 t : Vec Ideal S1x64 .f32) = (V c main_v6 : S1x64.Idx → Elt Ideal .f32) := by
  have hI := idx_facts t
  funext y
  show V c main_v6 (((cfg1.win 3).blk t).view.emb y) = V c main_v6 y
  congr 1
  funext a
  apply Fin.ext
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- Window 4's block at every point is the whole of its array: the block index is zero on both axes. -/
theorem iblk_whole4 (c : Dev nD) (t : Fin cfg1.N) :
    (R1.iblk1 (F := Ideal) V c 4 t : Vec Ideal S512x64 .f32) = (V c main_v3 : S512x64.Idx → Elt Ideal .f32) := by
  have hI := idx_facts t
  funext y
  show V c main_v3 (((cfg1.win 4).blk t).view.emb y) = V c main_v3 y
  congr 1
  funext a
  apply Fin.ext
  match a with
  | ⟨0, _⟩ => show win1_4.index t (0 : Fin 2) * 512 + 1 * (y 0).val = (y 0).val; omega
  | ⟨1, _⟩ => show win1_4.index t (1 : Fin 2) * 64 + 1 * (y 1).val = (y 1).val; omega

/-- Window 5's block at every point is the whole of its array: the block index is zero on both axes. -/
theorem iblk_whole5 (c : Dev nD) (t : Fin cfg1.N) :
    (R1.iblk1 (F := Ideal) V c 5 t : Vec Ideal S512x512 .f32) = (V c main_arg5 : S512x512.Idx → Elt Ideal .f32) := by
  have hI := idx_facts t
  funext y
  show V c main_arg5 (((cfg1.win 5).blk t).view.emb y) = V c main_arg5 y
  congr 1
  funext a
  apply Fin.ext
  match a with
  | ⟨0, _⟩ => show win1_5.index t (0 : Fin 2) * 512 + 1 * (y 0).val = (y 0).val; omega
  | ⟨1, _⟩ => show win1_5.index t (1 : Fin 2) * 512 + 1 * (y 1).val = (y 1).val; omega

/-! ## What each point writes back, and the array at the end -/

/-- Point `t` writes back block `t` of `G` of the six arrays as the kernel finds them. -/
theorem flushed_eq (c : Dev nD) (t : Fin cfg1.N) :
    (R1.dat1 (F := Ideal) V c).flushed 6 t
      = ((cfg1.win 6).blk t).view.read (Elt Ideal)
          (G (V c main_arg0) (V c main_arg1) (V c main_v9) (V c main_v6) (V c main_v3) (V c main_arg5)) := by
  show (cfg1.win 6).cut (grid1.coords t) ((R1.dat1 (F := Ideal) V c).after 6 t) = _
  rw [R1.after1_6]
  unfold R1.out1_6
  rw [View.canon_unit_zero zero2]
  simp only [View.ld_unit_zero (S := S1024x512) zero2, View.ld_unit_zero (S := S64x512) zero2,
    View.ld_unit_zero (S := S1x64) zero2, View.ld_unit_zero (S := S512x64) zero2, View.ld_unit_zero (S := S512x512) zero2]
  rw [iblk_rows, iblk_whole1, iblk_whole2, iblk_whole3, iblk_whole4, iblk_whole5]
  have hI := idx_facts t
  funext j
  show blockOut (V c main_arg0) (V c main_arg1) (V c main_v9) (V c main_v6) (V c main_v3) (V c main_arg5) (pt t) j
      = G (V c main_arg0) (V c main_arg1) (V c main_v9) (V c main_v6) (V c main_v3) (V c main_arg5) (((cfg1.win 6).blk t).view.emb j)
  refine (G_at _ _ _ _ _ _ (pt t) j _ ?_ ?_).symm
  · show win1_6.index t (0 : Fin 2) * 1024 + 1 * (j 0).val = 1024 * t.val + (j 0).val; omega
  · show win1_6.index t (1 : Fin 2) * 512 + 1 * (j 1).val = (j 1).val; omega

/-- An index of the result is in point `t`'s block iff each coordinate is in the block's range on its axis. -/
theorem mem_blk (t : Fin cfg1.N) (i : S4096x512.Idx) :
    i ∈ ((cfg1.win 6).blk t).view.set ↔ ∀ a : Fin 2, win1_6.index t a * S1024x512.size a ≤ (i a).val ∧ (i a).val < win1_6.index t a * S1024x512.size a + S1024x512.size a := by
  show i ∈ ((View.whole main_v10).slice (win1_6.rect t)).set ↔ _
  rw [View.set_slice_whole, Rect.mem_set_unit]
  exact Iff.rfl

/-- Every index of the result is in the block of the point its row selects. -/
theorem cover (i : S4096x512.Idx) : ∃ t : Fin cfg1.N, (cfg1.win 6).flush t = true ∧ i ∈ ((cfg1.win 6).blk t).view.set := by
  have hi0 : (i 0).val < 4096 := idx2_lt0 i
  have hi1 : (i 1).val < 512 := idx2_lt1 i
  obtain ⟨t, ht⟩ := idx_onto ⟨(i 0).val / 1024, by omega⟩
  have ht' : t.val = (i 0).val / 1024 := ht
  have hI := idx_facts t
  refine ⟨t, flush1_6 t, ?_⟩
  rw [mem_blk]
  intro a
  match a with
  | ⟨0, _⟩ => show win1_6.index t (0 : Fin 2) * 1024 ≤ (i 0).val ∧ (i 0).val < win1_6.index t (0 : Fin 2) * 1024 + 1024; omega
  | ⟨1, _⟩ => show win1_6.index t (1 : Fin 2) * 512 ≤ (i 1).val ∧ (i 1).val < win1_6.index t (1 : Fin 2) * 512 + 512; omega

/-- The result array after the last point is `G` of the six arrays. -/
theorem final (c : Dev nD) :
    (R1.dat1 (F := Ideal) V c).arrAt 6 cfg1.N
      = G (V c main_arg0) (V c main_arg1) (V c main_v9) (V c main_v6) (V c main_v3) (V c main_arg5) :=
  (R1.dat1 (F := Ideal) V c).arrAt_eq_of_cover 6 _ (fun t _ => flushed_eq V c t) (cover)

/-- Index by index: row `b`, column `o` of the result is the skeleton's last payload, over row block `b / 1024` of the
    first array and the five whole arrays, at row `b mod 1024`, column `o`. -/
theorem out_array (c : Dev nD) (b : Fin 4096) (o : Fin 512) :
    (R1.dat1 (F := Ideal) V c).arrAt 6 cfg1.N (ix2 b o)
      = k1_pay1 (k1_pay2 (rowBlock (V c main_arg0) ⟨b.val / 1024, by omega⟩))
          (k1_pay3 (rowBlock (V c main_arg0) ⟨b.val / 1024, by omega⟩) (V c main_arg1) (V c main_v9) (V c main_v6) (V c main_v3))
          (k1_pay4 (V c main_arg5)) (constant (F := Ideal) S1024x512 .f32 0x00000000#32)
          (ix2 ⟨b.val % 1024, Nat.mod_lt _ (by decide)⟩ o) := by
  rw [final]
  rfl

end Cert.KernelIdeal.Val1

end
-- ==== Proof.LibSumBlocks.lean ====
/-
  Re-grouping a finite sum into consecutive blocks, in any commutative additive monoid (so in particular over the extended
  reals, where it needs no finiteness): a sum over J·B consecutive naturals is the sum over J blocks of B. This is the law
  behind a contraction that is accumulated block by block along its contracted axis (a K-blocked matrix product kept in an
  accumulator across grid points or loop trips) against ONE whole contraction.
-/
import Mathlib.Algebra.BigOperators.Fin

namespace Cert.LibSumBlocks

/-- A sum over `J * B` consecutive naturals is the sum over `J` blocks of `B`: term `x = j * B + s` is term `s` of block `j`. -/
theorem sum_range_blocks {M : Type*} [AddCommMonoid M] (g : ℕ → M) (B : ℕ) : ∀ J : ℕ,
    ∑ x ∈ Finset.range (J * B), g x = ∑ j ∈ Finset.range J, ∑ s ∈ Finset.range B, g (j * B + s)
  | 0 => by simp
  | J + 1 => by
    rw [Nat.succ_mul, Finset.sum_range_add, Finset.sum_range_succ, sum_range_blocks g B J]

/-- The same with the whole sum over the index type `Fin (J * B)` (the form a contraction read at an index has). -/
theorem sum_fin_blocks {M : Type*} [AddCommMonoid M] (g : ℕ → M) (B J : ℕ) :
    ∑ k : Fin (J * B), g k.val = ∑ j ∈ Finset.range J, ∑ s ∈ Finset.range B, g (j * B + s) :=
  (Finset.sum_range g).symm.trans (sum_range_blocks g B J)

end Cert.LibSumBlocks
-- ==== Proof.LibRegroup.lean ====
/-
  Two laws of finite sums in a commutative additive monoid (so over the extended reals, with no finiteness asked).

  * A quantity that is RESET at the first point of every run of J consecutive points and that ADDS that point's
    contribution to what the point before left at every other point is, j points into a run, the sum of the run's
    first j + 1 contributions.
  * A sum over A·B·C·D consecutive naturals, regrouped: the outer sums over the first and the LAST digit of the
    mixed-radix expansion n = ((a·B + b)·C + c)·D + d, the inner sums over the two middle digits. This is the order in
    which a per-lane accumulator over a two-level grid collects a flat array: lane d of core a sums over the
    sequential steps b and the rows c of each block.
-/
import Mathlib.Algebra.BigOperators.Fin
import proofs.«122315_j80719615361567_2_alg».proof.Proof.LibSumBlocks

namespace Cert.LibRegroup

/-- The running sum of a run of points: `f` is reset to the point's contribution `P` where `n % J = 0` and adds it
    elsewhere; at point `J·q + j` it holds the contributions of points `J·q … J·q + j`. -/
theorem run_sum {ι β : Type*} [AddCommMonoid β] {N : ℕ} (J : ℕ) (f P : (n : ℕ) → n < N → ι → β)
    (h0 : ∀ (n : ℕ) (h : n < N) (i : ι), n % J = 0 → f n h i = P n h i)
    (hs : ∀ (n : ℕ) (h : n + 1 < N) (i : ι), ¬(n + 1) % J = 0 →
      f (n + 1) h i = f n (Nat.lt_of_succ_lt h) i + P (n + 1) h i)
    (q : ℕ) (i : ι) : ∀ (j : ℕ) (_ : j < J) (h : J * q + j < N),
      f (J * q + j) h i = ∑ s : Fin (j + 1), P (J * q + s.val) (by have := s.isLt; omega) i
  | 0, _, h => by
    rw [Fin.sum_univ_castSucc, Fin.sum_univ_zero, zero_add]
    exact h0 _ h i (by rw [Nat.add_zero, Nat.mul_mod_right])
  | j + 1, hj, h => by
    have hne : ¬(J * q + j + 1) % J = 0 := by
      rw [Nat.add_assoc, Nat.mul_add_mod, Nat.mod_eq_of_lt hj]; exact Nat.succ_ne_zero j
    rw [Fin.sum_univ_castSucc]
    have ih := run_sum J f P h0 hs q i j (Nat.lt_of_succ_lt hj) (Nat.lt_of_succ_lt h)
    have step := hs (J * q + j) h i hne
    rw [ih] at step
    exact step

/-- A sum over `A·B·C·D` consecutive naturals by the digits of `n = ((a·B + b)·C + c)·D + d`, the first and the last
    digit outermost. -/
theorem sum_range_four {β : Type*} [AddCommMonoid β] (g : ℕ → β) (A B C D : ℕ) :
    ∑ n ∈ Finset.range (A * B * C * D), g n
      = ∑ a ∈ Finset.range A, ∑ d ∈ Finset.range D, ∑ b ∈ Finset.range B, ∑ c ∈ Finset.range C,
          g (((a * B + b) * C + c) * D + d) := by
  rw [Cert.LibSumBlocks.sum_range_blocks g D (A * B * C),
    Cert.LibSumBlocks.sum_range_blocks (fun x => ∑ d ∈ Finset.range D, g (x * D + d)) C (A * B),
    Cert.LibSumBlocks.sum_range_blocks (fun x => ∑ c ∈ Finset.range C, ∑ d ∈ Finset.range D, g ((x * C + c) * D + d)) B A]
  refine Finset.sum_congr rfl fun a _ => ?_
  calc ∑ b ∈ Finset.range B, ∑ c ∈ Finset.range C, ∑ d ∈ Finset.range D, g (((a * B + b) * C + c) * D + d)
      = ∑ b ∈ Finset.range B, ∑ d ∈ Finset.range D, ∑ c ∈ Finset.range C, g (((a * B + b) * C + c) * D + d) :=
        Finset.sum_congr rfl fun b _ => Finset.sum_comm
    _ = ∑ d ∈ Finset.range D, ∑ b ∈ Finset.range B, ∑ c ∈ Finset.range C, g (((a * B + b) * C + c) * D + d) :=
        Finset.sum_comm

/-- The same over index types: the whole sum over `Fin N` with `N = A·B·C·D`. -/
theorem sum_fin_four {β : Type*} [AddCommMonoid β] (g : ℕ → β) (A B C D N : ℕ) (hN : N = A * B * C * D) :
    ∑ n : Fin N, g n.val
      = ∑ a : Fin A, ∑ d : Fin D, ∑ b : Fin B, ∑ c : Fin C, g (((a.val * B + b.val) * C + c.val) * D + d.val) := by
  subst hN
  rw [← Finset.sum_range g, sum_range_four g A B C D,
    Finset.sum_range (fun a => ∑ d ∈ Finset.range D, ∑ b ∈ Finset.range B, ∑ c ∈ Finset.range C, g (((a * B + b) * C + c) * D + d))]
  refine Finset.sum_congr rfl fun a _ => ?_
  rw [Finset.sum_range (fun d => ∑ b ∈ Finset.range B, ∑ c ∈ Finset.range C, g (((a.val * B + b) * C + c) * D + d))]
  refine Finset.sum_congr rfl fun d _ => ?_
  rw [Finset.sum_range (fun b => ∑ c ∈ Finset.range C, g (((a.val * B + b) * C + c) * D + d.val))]
  refine Finset.sum_congr rfl fun b _ => ?_
  rw [Finset.sum_range (fun c => g (((a.val * B + b.val) * C + c) * D + d.val))]

end Cert.LibRegroup
-- ==== Proof.Algebra.lean ====
/-
  The laws on the extended reals and on finite sums that join a blocked, accumulated arrangement of the computation to
  the index-by-index specification.

  * the literals 2 and 1 as the reals their patterns denote; division by 1; 0 − d = −d;
  * on FINITE rows u, v: max (Σ u² + Σ v² − 2 Σ u·v) 0 = Σ (u − v)² — the expanded square, which is a sum of squares and
    so is not below zero. On the extended reals the expansion needs finiteness (∞ − ∞ is not 0);
  * a sum over 512 consecutive indices as 8 blocks of 64, and as 4 blocks of 128 (no finiteness: any commutative
    additive monoid);
  * a running total that starts from zero and adds one contribution per point holds, after the eighth point, the sum
    of the eight contributions;
  * a sum over three axes regrouped by blocks of the first two.
-/
import Mathlib.Algebra.BigOperators.Fin
import Mathlib.Algebra.BigOperators.Ring.Finset
import Mathlib.Algebra.Order.BigOperators.Group.Finset
import Mathlib.Tactic.Ring
import Mathlib.Tactic.NormNum
import Idealize.ShloMosaic.PureOps.Ideal
import proofs.«122315_j80719615361567_2_alg».proof.Proof.Spec
import proofs.«122315_j80719615361567_2_alg».proof.Proof.LibSumBlocks
import proofs.«122315_j80719615361567_2_alg».proof.Proof.LibRegroup

noncomputable section

namespace Cert.Algebra

open Idealize.ShloMosaic

/-! ### The literals -/

/-- The pattern 0x40000000 (sign 0, exponent 128, fraction 0) denotes the real 2. -/
theorem two_eq : Cert.Spec.two = ((2 : ℝ) : EReal) := by
  unfold Cert.Spec.two
  simp [Ideal.ofBits, Ideal.ieee, -EReal.coe_mul]; norm_num

/-- The pattern 0x3F800000 (sign 0, exponent 127, fraction 0) denotes the real 1. -/
theorem one_eq : Cert.Spec.one = ((1 : ℝ) : EReal) := by
  unfold Cert.Spec.one
  simp [Ideal.ofBits, Ideal.ieee, -EReal.coe_mul]; norm_num

/-- Division by the literal 1 changes nothing: it is the product with the reciprocal 1/1 = 1. -/
theorem div_one (y : EReal) : Ideal.div y Cert.Spec.one = y := by
  rw [one_eq, Ideal.div_coe one_ne_zero, _root_.div_one, EReal.coe_one, mul_one]

/-- Subtracting from zero is negation. -/
theorem zero_sub_eq (d : EReal) : 0 - d = -d := by
  rw [sub_eq_add_neg, zero_add]

/-! ### The expanded square, on finite rows -/

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- In the reals: Σ a² + Σ b² − 2 Σ a·b = Σ (a − b)², term by term (a − b)² = a² + b² − 2ab. -/
theorem real_square_sum {ι : Type*} [Fintype ι] (a b : ι → ℝ) :
    (∑ i, a i * a i) + (∑ i, b i * b i) - 2 * ∑ i, a i * b i = ∑ i, (a i - b i) * (a i - b i) := by
  rw [Finset.mul_sum, ← Finset.sum_add_distrib, ← Finset.sum_sub_distrib]
  exact Finset.sum_congr rfl fun i _ => by ring

/-- The law on finite rows over any finite index type: the expanded square is the sum of the squared differences, and
    the maximum with zero changes nothing because a sum of squares is not negative. -/
theorem dist_law_gen {ι : Type*} [Fintype ι] (u v : ι → EReal)
    (hu : ∀ i, ∃ r : ℝ, u i = (r : EReal)) (hv : ∀ i, ∃ r : ℝ, v i = (r : EReal)) :
    max ((∑ i, u i * u i) + (∑ i, v i * v i) - Cert.Spec.two * ∑ i, u i * v i) 0
      = ∑ i, (u i - v i) * (u i - v i) := by
  choose a ha using hu
  choose b hb using hv
  obtain rfl : u = fun i => (a i : EReal) := funext ha
  obtain rfl : v = fun i => (b i : EReal) := funext hb
  have h1 : ∑ i, (a i : EReal) * (a i : EReal) = ((∑ i, a i * a i : ℝ) : EReal) := by
    rw [coe_sum]; exact Finset.sum_congr rfl fun i _ => (EReal.coe_mul _ _).symm
  have h2 : ∑ i, (b i : EReal) * (b i : EReal) = ((∑ i, b i * b i : ℝ) : EReal) := by
    rw [coe_sum]; exact Finset.sum_congr rfl fun i _ => (EReal.coe_mul _ _).symm
  have h3 : ∑ i, (a i : EReal) * (b i : EReal) = ((∑ i, a i * b i : ℝ) : EReal) := by
    rw [coe_sum]; exact Finset.sum_congr rfl fun i _ => (EReal.coe_mul _ _).symm
  have h4 : ∑ i, ((a i : EReal) - (b i : EReal)) * ((a i : EReal) - (b i : EReal))
      = ((∑ i, (a i - b i) * (a i - b i) : ℝ) : EReal) := by
    rw [coe_sum]
    exact Finset.sum_congr rfl fun i _ => by rw [EReal.coe_mul, EReal.coe_sub]
  rw [h1, h2, h3, h4, two_eq, ← EReal.coe_add, ← EReal.coe_mul, ← EReal.coe_sub, real_square_sum]
  exact max_eq_left (EReal.coe_nonneg.2 (Finset.sum_nonneg fun i _ => mul_self_nonneg _))

/-- The law on rows of 512 finite entries. -/
theorem dist_law' (u v : Fin 512 → EReal)
    (hu : ∀ i, ∃ r : ℝ, u i = (r : EReal)) (hv : ∀ i, ∃ r : ℝ, v i = (r : EReal)) :
    max ((∑ i : Fin 512, u i * u i) + (∑ i : Fin 512, v i * v i) - Cert.Spec.two * (∑ i : Fin 512, u i * v i)) 0
      = ∑ i : Fin 512, (u i - v i) * (u i - v i) :=
  dist_law_gen u v hu hv

/-- The same with the two sums of squares each accumulated from a zero initial value. -/
theorem dist_law (u v : Fin 512 → EReal)
    (hu : ∀ i, ∃ r : ℝ, u i = (r : EReal)) (hv : ∀ i, ∃ r : ℝ, v i = (r : EReal)) :
    max (((0 + ∑ i : Fin 512, u i * u i) + (0 + ∑ i : Fin 512, v i * v i))
        - Cert.Spec.two * (∑ i : Fin 512, u i * v i)) 0
      = ∑ i : Fin 512, (u i - v i) * (u i - v i) := by
  rw [zero_add, zero_add]
  exact dist_law_gen u v hu hv

/-! ### The width -/

/-- 2·e·e is 2·(e·e): multiplication on the extended reals is associative. -/
theorem width_assoc (e t : EReal) : Cert.Spec.two * e * e + t = Cert.Spec.two * (e * e) + t := by
  rw [mul_assoc]

/-! ### Sums over blocks -/

/-- A sum over an index type of J·B points is the sum over J blocks of B: point j·B + s is point s of block j. -/
theorem sum_fin_split {M : Type*} [AddCommMonoid M] (J B N : ℕ) (hN : N = J * B) (g : Fin N → M)
    (hb : ∀ (j : Fin J) (s : Fin B), j.val * B + s.val < N) :
    ∑ i : Fin N, g i = ∑ j : Fin J, ∑ s : Fin B, g ⟨j.val * B + s.val, hb j s⟩ := by
  subst hN
  let g' : ℕ → M := fun x => if h : x < J * B then g ⟨x, h⟩ else 0
  have h1 : ∀ (x : ℕ) (h : x < J * B), g' x = g ⟨x, h⟩ := fun x h => dif_pos h
  calc ∑ i : Fin (J * B), g i = ∑ i : Fin (J * B), g' i.val :=
        Finset.sum_congr rfl fun i _ => (h1 i.val i.isLt).symm
    _ = ∑ j ∈ Finset.range J, ∑ s ∈ Finset.range B, g' (j * B + s) :=
        Cert.LibSumBlocks.sum_fin_blocks g' B J
    _ = ∑ j : Fin J, ∑ s : Fin B, g' (j.val * B + s.val) := by
        rw [Finset.sum_range]
        refine Finset.sum_congr rfl fun j _ => ?_
        rw [Finset.sum_range]
    _ = ∑ j : Fin J, ∑ s : Fin B, g ⟨j.val * B + s.val, hb j s⟩ :=
        Finset.sum_congr rfl fun j _ => Finset.sum_congr rfl fun s _ => h1 _ (hb j s)

/-- 512 points as 8 blocks of 64. -/
theorem sum_8x64 {M : Type*} [AddCommMonoid M] (g : Fin 512 → M) :
    ∑ i : Fin 512, g i = ∑ j : Fin 8, ∑ s : Fin 64, g ⟨j.val * 64 + s.val, by omega⟩ :=
  sum_fin_split 8 64 512 rfl g _

/-- 512 points as 4 blocks of 128. -/
theorem sum_4x128 {M : Type*} [AddCommMonoid M] (g : Fin 512 → M) :
    ∑ o : Fin 512, g o = ∑ a : Fin 4, ∑ s : Fin 128, g ⟨a.val * 128 + s.val, by omega⟩ :=
  sum_fin_split 4 128 512 rfl g _

/-! ### The running total over a run of eight points -/

/-- The running total: it starts as the initial value plus the first contribution and adds one contribution per
    point. -/
def acc {M : Type*} [AddCommMonoid M] (z : M) (P : ℕ → M) : ℕ → M
  | 0 => z + P 0
  | j + 1 => acc z P j + P (j + 1)

/-- From a zero initial value the running total after point j is the sum of the first j + 1 contributions. -/
theorem acc_eq {M : Type*} [AddCommMonoid M] (z : M) (hz : z = 0) (P : ℕ → M) :
    ∀ j : ℕ, acc z P j = ∑ s ∈ Finset.range (j + 1), P s
  | 0 => by rw [acc, hz, zero_add, Finset.sum_range_one]
  | j + 1 => by rw [acc, acc_eq z hz P j, Finset.sum_range_succ _ (j + 1)]

/-- After the eighth point it is the sum of the eight contributions. -/
theorem acc_seven {M : Type*} [AddCommMonoid M] (z : M) (hz : z = 0) (P : ℕ → M) :
    acc z P 7 = ∑ s : Fin 8, P s.val := by
  rw [acc_eq z hz P 7, Finset.sum_range]

/-- The same for any quantity that obeys the two equations of the running total, up to the eighth point. -/
theorem run_prefix {M : Type*} [AddCommMonoid M] (f P : ℕ → M) (h0 : f 0 = 0 + P 0)
    (hs : ∀ j < 7, f (j + 1) = f j + P (j + 1)) :
    ∀ j : ℕ, j ≤ 7 → f j = ∑ s ∈ Finset.range (j + 1), P s
  | 0, _ => by rw [h0, zero_add, Finset.sum_range_one]
  | j + 1, hj => by
    rw [hs j (Nat.lt_of_succ_le hj), run_prefix f P h0 hs j (Nat.le_of_succ_le hj),
      Finset.sum_range_succ _ (j + 1)]

/-- At the eighth point such a quantity is the sum of the eight contributions. -/
theorem run_eight {M : Type*} [AddCommMonoid M] (f P : ℕ → M) (h0 : f 0 = 0 + P 0)
    (hs : ∀ j < 7, f (j + 1) = f j + P (j + 1)) : f 7 = ∑ s : Fin 8, P s.val := by
  rw [run_prefix f P h0 hs 7 (Nat.le_refl 7), Finset.sum_range]

/-! ### The three-axis sum, regrouped -/

/-- The sum over (i, o, n) with o outermost in 4 blocks of 128 and, under each o, i in 8 blocks of 64. -/
theorem sum_three {M : Type*} [AddCommMonoid M] (t : Fin 512 → Fin 512 → Fin 64 → M) :
    ∑ i : Fin 512, ∑ o : Fin 512, ∑ n : Fin 64, t i o n
      = ∑ a : Fin 4, ∑ s : Fin 128, ∑ j : Fin 8, ∑ r : Fin 64, ∑ n : Fin 64,
          t ⟨j.val * 64 + r.val, by omega⟩ ⟨a.val * 128 + s.val, by omega⟩ n := by
  rw [Finset.sum_comm, sum_4x128 (fun o => ∑ i : Fin 512, ∑ n : Fin 64, t i o n)]
  refine Finset.sum_congr rfl fun a _ => Finset.sum_congr rfl fun s _ => ?_
  exact sum_8x64 (fun i => ∑ n : Fin 64, t i ⟨a.val * 128 + s.val, by omega⟩ n)

end Cert.Algebra

end
-- ==== Proof.LibKeepdims.lean ====
import Idealize.ShloMosaic.Lib.Pipeline.Value
import Idealize.ShloMosaic.Lib.ValueIdx
import Idealize.ShloMosaic.Lib.ValueLayout
import Idealize.ShloMosaic.PureOps.Ideal.Laws

/-!
# Keepdims columns, a row sum and a plain matrix product, read at an index

General facts about layout operations on small ranks, in the style of the library's
`shapeCast_a_1a_apply` and `broadcastTo_1b_ab_apply`:

* an `[a]` vector cast to the column `[a, 1]` reads, at `(i, u)`, the vector at `i`;
* a column `[a, 1]` broadcast to `[a, b]` reads, at `(p, c)`, the column at `(p, 0)`;
* over the extended reals, a sum over the last axis of an `[a, b]` array into `[a]`, read at `i`, is the
  sum over `k < b` of the array at `(i, k)`.
-/

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims

end
-- ==== Proof.LibMatProd.lean ====
/-
  A contraction over ONE axis as the familiar matrix product, over the extended reals. For dimension numbers that
  contract the left operand's axis 1 against the right operand's axis 0 and keep the left's axis 0 and the right's
  axis 1 — a matrix product's, on a kernel's matrix unit or as a host contraction — the sum over the contraction's
  index set is `Σ_{k < K} x (r, k) · w (k, q)`. The four coordinate facts are hypotheses, read off each record where
  the lemma is used (two of them are the library's `lhsIdx_val_of_single` / `rhsIdx_val_of_single`).
-/
import Idealize.ShloMosaic.PureOps.Ideal
import Idealize.ShloMosaic.Lib.ValueIdx

noncomputable section

namespace Cert.Gcn.Dense

open Idealize.ShloMosaic Idealize.ShloMosaic.ValueIdx

/-- The matrix product of an `M × K` array and a `K × N` array of extended reals, index by index:
    entry `(r, q)` is `Σ_{k < K} x (r, k) · w (k, q)`. -/
def prod {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A contraction over ONE axis of size `K`, the left operand's axis 1 against the right operand's axis 0, the
    left's axis 0 and the right's axis 1 kept: the sum over the contraction's index set is the sum over `k < K`
    that `prod` writes. The four hypotheses say which coordinate each operand index takes from where. -/
theorem sum_contr_eq_prod {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (x : (⟨2, ![M, K]⟩ : Shape).Idx → EReal) (w : (⟨2, ![K, N]⟩ : Shape).Idx → EReal) (i : (⟨2, ![M, N]⟩ : Shape).Idx) :
    ∑ k : D.contr.Idx, x (D.lhsIdx i k) * w (D.rhsIdx i k) = prod x w i := by
  unfold prod
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 k (i 1) := funext fun a => Fin.ext (by
    match a with
    | ⟨0, _⟩ => exact (hr0 _ _).trans hk
    | ⟨1, _⟩ => exact hr1 _ _)
  rw [el, er]
  rfl

end Cert.Gcn.Dense

end
-- ==== Proof.KI.PayIdeal.lean ====
/-
  The arithmetic of the two kernels read at an index, on the extended reals: each stored value as an explicit
  expression in the entries of the blocks it is computed from. Pointwise operations read their operands at the same
  index; a sum along one axis is a sum over that axis's coordinate with the coordinate put back in its place; a
  contraction into a zero accumulator is the plain sum of products over the contracted coordinate; a change of float
  format is the identity here.
-/
import proofs.«122315_j80719615361567_2_alg».proof.Proof.Gen.KernelIdeal.Skeleton
import proofs.«122315_j80719615361567_2_alg».proof.Proof.Spec
import proofs.«122315_j80719615361567_2_alg».proof.Proof.Algebra
import proofs.«122315_j80719615361567_2_alg».proof.Proof.LibKeepdims
import proofs.«122315_j80719615361567_2_alg».proof.Proof.LibMatProd
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal

/-! ### The first kernel: the coefficient sums and the divergence terms of one block -/

/-- The value that starts the running [128, 64] array: the zero word everywhere, which denotes 0. -/
theorem pay1 (p : Fin 128) (q : Fin 64) : Gen.k0_pay1 (F := Ideal) (ix2 p q) = 0 := by
  unfold Gen.k0_pay1
  rw [shapeCast_self]
  exact Ideal.ofBits_zero_f32

/-- The value that starts the running [1, 128] row: likewise 0. -/
theorem pay2 (u : Fin 1) (s : Fin 128) : Gen.k0_pay2 (F := Ideal) (ix2 u s) = 0 := by
  unfold Gen.k0_pay2
  rw [shapeCast_self]
  exact Ideal.ofBits_zero_f32

/-- One step of the running [128, 64] array: at (p, q) it adds, over the block's 64 input features r, the sampled
    coefficient mean + noise · exp (½ · log-variance) at (r, p, q). The sum over the first axis reads the block at the
    index with r put in front of (p, q). -/
theorem pay3 (v3 v4 v5 : Vec Ideal S64x128x64 .f32) (v12 : Vec Ideal S128x64 .f32) (p : Fin 128) (q : Fin 64) :
    Gen.k0_pay3 v3 v4 v5 v12 (ix2 p q)
      = v12 (ix2 p q)
        + ∑ r : Fin 64, (v3 (ix3 r p q) + v5 (ix3 r p q) * Ideal.exp (Cert.Spec.half * v4 (ix3 r p q))) := by
  unfold Gen.k0_pay3
  rw [shapeCast_self, shapeCast_self]
  refine congrArg (v12 (ix2 p q) + ·) ?_
  refine (Ideal.multiReduction_add_single _ _ Gen.reduces_S64x128x64_S128x64 _ _ (ix2 p q)).trans ?_
  refine Finset.sum_congr rfl fun r _ => ?_
  have e : Gen.reduces_S64x128x64_S128x64.lift (ix2 p q) r = ix3 r p q := funext fun a => Fin.ext (by
    match a with
    | ⟨0, _⟩ => rfl
    | ⟨1, _⟩ => rfl
    | ⟨2, _⟩ => rfl)
  rw [e]
  rfl

/-- One step of the running [1, 128] row: at (u, s) it adds the divergence terms exp (lv) + m·m − 1 − lv of the block
    at (r, s, n), summed first over the 64 centres n (the last axis), then over the 64 input features r (the first
    axis); the [128] vector of those sums is read as a one-row array. -/
theorem pay4 (v3 v4 : Vec Ideal S64x128x64 .f32) (v27 : Vec Ideal S1x128 .f32) (u : Fin 1) (s : Fin 128) :
    Gen.k0_pay4 v3 v4 v27 (ix2 u s)
      = v27 (ix2 u s)
        + ∑ r : Fin 64, ∑ n : Fin 64,
            (Ideal.exp (v4 (ix3 r s n)) + v3 (ix3 r s n) * v3 (ix3 r s n) - Cert.Spec.one - v4 (ix3 r s n)) := by
  unfold Gen.k0_pay4
  rw [shapeCast_self]
  refine congrArg (v27 (ix2 u s) + ·) ?_
  refine (shapeCast_a_1a_apply _ Gen.shapeCasts_S128_S1x128 u s).trans ?_
  refine (Ideal.multiReduction_add_single _ _ Gen.reduces_S64x128_S128 _ _ (ix1 s)).trans ?_
  refine Finset.sum_congr rfl fun r _ => ?_
  have e : Gen.reduces_S64x128_S128.lift (ix1 s) r = ix2 r s := funext fun a => Fin.ext (by
    match a with
    | ⟨0, _⟩ => rfl
    | ⟨1, _⟩ => rfl)
  rw [e]
  refine (Ideal.multiReduction_add_single _ _ Gen.reduces_S64x128x64_S64x128 _ _ (ix2 r s)).trans ?_
  refine Finset.sum_congr rfl fun n _ => ?_
  have e2 : Gen.reduces_S64x128x64_S64x128.lift (ix2 r s) n = ix3 r s n := funext fun a => Fin.ext (by
    match a with
    | ⟨0, _⟩ => rfl
    | ⟨1, _⟩ => rfl
    | ⟨2, _⟩ => rfl)
  rw [e2]
  rfl

/-! ### The second kernel: the radial basis mixed by the summed coefficients, plus the base product -/

/-- A contraction of the LAST axis of both operands (an A·Bᵀ product): the sum over the contraction's index set is the
    sum over the contracted coordinate k of x (r, k) · w (c, k). The four hypotheses say which coordinate each operand
    index takes from where. -/
theorem sum_contr_last_last {M K N : Nat} (D : DotDims ⟨2, ![M, K]⟩ ⟨2, ![N, K]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (x : (⟨2, ![M, K]⟩ : Shape).Idx → EReal) (w : (⟨2, ![N, K]⟩ : Shape).Idx → EReal) (r : Fin M) (c : Fin N) :
    ∑ k : D.contr.Idx, x (D.lhsIdx (ix2 r c) k) * w (D.rhsIdx (ix2 r c) k) = ∑ k : Fin K, x (ix2 r k) * w (ix2 c k) := by
  rw [← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 c k := funext fun a => Fin.ext (by
    match a with
    | ⟨0, _⟩ => exact hr0 _ _
    | ⟨1, _⟩ => exact (hr1 _ _).trans hk)
  rw [el, er]

/-- Rows of x against the centres, both along their 512 features, into a zero accumulator: Σ_i x (b, i) · w (n, i). -/
theorem mm_xc (x : FVec Ideal S1024x512 .bf16) (w : FVec Ideal S64x512 .bf16) (b : Fin 1024) (n : Fin 64) :
    matmul dot_S1024x512_S64x512_S1024x64_1_1_0_0_n_n none x w (constant (F := Ideal) S1024x64 .f32 0x00000000#32) (ix2 b n)
      = ∑ i : Fin 512, x (ix2 b i) * w (ix2 n i) := by
  refine (Ideal.matmul_constant_zero_apply _ none x w (ix2 b n)).trans ?_
  refine sum_contr_last_last dot_S1024x512_S64x512_S1024x64_1_1_0_0_n_n rfl rfl ?_ ?_ ?_ ?_ x w b n
  · intro i q
    unfold DotDims.lhsIdx
    rw [dif_neg (show ¬(0 : Fin S1024x512.rank) ∈ dot_S1024x512_S64x512_S1024x64_1_1_0_0_n_n.lhsBatch by decide),
      dif_pos (show (0 : Fin S1024x512.rank) ∈ dot_S1024x512_S64x512_S1024x64_1_1_0_0_n_n.lhsNonContracting by decide)]
    rfl
  · exact fun i q => dot_S1024x512_S64x512_S1024x64_1_1_0_0_n_n.lhsIdx_val_of_single rfl i q
  · intro i q
    unfold DotDims.rhsIdx
    rw [dif_neg (show ¬(0 : Fin S64x512.rank) ∈ dot_S1024x512_S64x512_S1024x64_1_1_0_0_n_n.rhsBatch by decide),
      dif_pos (show (0 : Fin S64x512.rank) ∈ dot_S1024x512_S64x512_S1024x64_1_1_0_0_n_n.rhsNonContracting by decide)]
    rfl
  · exact fun i q => dot_S1024x512_S64x512_S1024x64_1_1_0_0_n_n.rhsIdx_val_of_single rfl i q

/-- The basis against the mixing coefficients, both along the 64 centres, into a zero accumulator:
    Σ_n x (b, n) · w (o, n). -/
theorem mm_basis (x : FVec Ideal S1024x64 .bf16) (w : FVec Ideal S512x64 .bf16) (b : Fin 1024) (o : Fin 512) :
    matmul dot_S1024x64_S512x64_S1024x512_1_1_0_0_n_n none x w (constant (F := Ideal) S1024x512 .f32 0x00000000#32) (ix2 b o)
      = ∑ n : Fin 64, x (ix2 b n) * w (ix2 o n) := by
  refine (Ideal.matmul_constant_zero_apply _ none x w (ix2 b o)).trans ?_
  refine sum_contr_last_last dot_S1024x64_S512x64_S1024x512_1_1_0_0_n_n rfl rfl ?_ ?_ ?_ ?_ x w b o
  · intro i q
    unfold DotDims.lhsIdx
    rw [dif_neg (show ¬(0 : Fin S1024x64.rank) ∈ dot_S1024x64_S512x64_S1024x512_1_1_0_0_n_n.lhsBatch by decide),
      dif_pos (show (0 : Fin S1024x64.rank) ∈ dot_S1024x64_S512x64_S1024x512_1_1_0_0_n_n.lhsNonContracting by decide)]
    rfl
  · exact fun i q => dot_S1024x64_S512x64_S1024x512_1_1_0_0_n_n.lhsIdx_val_of_single rfl i q
  · intro i q
    unfold DotDims.rhsIdx
    rw [dif_neg (show ¬(0 : Fin S512x64.rank) ∈ dot_S1024x64_S512x64_S1024x512_1_1_0_0_n_n.rhsBatch by decide),
      dif_pos (show (0 : Fin S512x64.rank) ∈ dot_S1024x64_S512x64_S1024x512_1_1_0_0_n_n.rhsNonContracting by decide)]
    rfl
  · exact fun i q => dot_S1024x64_S512x64_S1024x512_1_1_0_0_n_n.rhsIdx_val_of_single rfl i q

/-- Rows of x against the base weights, an ordinary matrix product into a zero accumulator: Σ_k x (b, k) · w (k, o). -/
theorem mm_base (x : FVec Ideal S1024x512 .bf16) (w : FVec Ideal S512x512 .bf16) (b : Fin 1024) (o : Fin 512) :
    matmul dot_S1024x512_S512x512_S1024x512_1_0_0_1_n_n none x w (constant (F := Ideal) S1024x512 .f32 0x00000000#32) (ix2 b o)
      = ∑ k : Fin 512, x (ix2 b k) * w (ix2 k o) := by
  refine (Ideal.matmul_constant_zero_apply _ none x w (ix2 b o)).trans ?_
  refine (Cert.Gcn.Dense.sum_contr_eq_prod dot_S1024x512_S512x512_S1024x512_1_0_0_1_n_n rfl rfl ?_ ?_ ?_ ?_ x w (ix2 b o)).trans rfl
  · intro i q
    unfold DotDims.lhsIdx
    rw [dif_neg (show ¬(0 : Fin S1024x512.rank) ∈ dot_S1024x512_S512x512_S1024x512_1_0_0_1_n_n.lhsBatch by decide),
      dif_pos (show (0 : Fin S1024x512.rank) ∈ dot_S1024x512_S512x512_S1024x512_1_0_0_1_n_n.lhsNonContracting by decide)]
    rfl
  · exact fun i q => dot_S1024x512_S512x512_S1024x512_1_0_0_1_n_n.lhsIdx_val_of_single rfl i q
  · exact fun i q => dot_S1024x512_S512x512_S1024x512_1_0_0_1_n_n.rhsIdx_val_of_single rfl i q
  · intro i q
    unfold DotDims.rhsIdx
    rw [dif_neg (show ¬(1 : Fin S512x512.rank) ∈ dot_S1024x512_S512x512_S1024x512_1_0_0_1_n_n.rhsBatch by decide),
      dif_pos (show (1 : Fin S512x512.rank) ∈ dot_S1024x512_S512x512_S1024x512_1_0_0_1_n_n.rhsNonContracting by decide)]
    rfl

/-- The sum of a [1024, 512] array along its rows, read at b: Σ_i w (b, i). -/
theorem row_sum (w : FVec Ideal S1024x512 .f32) (b : Fin 1024) :
    multiReduction .add [1] S1024 w 0x00000000#32 Gen.reduces_S1024x512_S1024 (.inl rfl) rfl (ix1 b)
      = ∑ i : Fin 512, w (ix2 b i) := by
  refine (Ideal.multiReduction_add_single w _ Gen.reduces_S1024x512_S1024 _ _ (ix1 b)).trans ?_
  refine Finset.sum_congr rfl fun i _ => ?_
  exact congrArg w (funext fun a => Fin.ext (by
    match a with
    | ⟨0, _⟩ => rfl
    | ⟨1, _⟩ => rfl))

/-- A [1024] vector set as a column and repeated along 64 columns reads, at (b, n), the vector at b. -/
theorem col_bcast (w : FVec Ideal S1024 .f32) (b : Fin 1024) (n : Fin 64) :
    broadcastTo S1024x64 (shapeCast S1024x1 w Gen.shapeCasts_S1024_S1024x1) Gen.broadcasts_S1024x1_S1024x64 (ix2 b n)
      = w (ix1 b) :=
  (Cert.Keepdims.broadcastTo_a1_ab_apply _ Gen.broadcasts_S1024x1_S1024x64 b n).trans
    (Cert.Keepdims.shapeCast_a_a1_apply w Gen.shapeCasts_S1024_S1024x1 b 0)

/-- A [1, 64] row repeated along 1024 rows reads, at (b, n), the row at n. -/
theorem row_bcast (w : FVec Ideal S1x64 .f32) (b : Fin 1024) (n : Fin 64) :
    broadcastTo S1024x64 w Gen.broadcasts_S1x64_S1024x64 (ix2 b n) = w (ix2 (0 : Fin 1) n) :=
  broadcastTo_1b_ab_apply w Gen.broadcasts_S1x64_S1024x64 b n

/-- The second kernel's stored value at (b, o): the radial basis of row b of the block of x at each of the 64 centres
    — exp of minus the clipped expanded squared distance Σ x² + |c_n|² − 2 Σ x·c_n over the width 2·e·e + 1e-8 —
    times the mixing coefficient at (o, n), summed over the centres, plus row b of x against column o of the base
    weights. Every contraction runs into a zero accumulator, so no initial value is left in front of a sum. -/
theorem main_val (v0 : Vec Ideal S1024x512 .f32) (v1 : Vec Ideal S64x512 .f32) (v2 v4 : Vec Ideal S1x64 .f32)
    (v6 : Vec Ideal S512x64 .f32) (v8 : Vec Ideal S512x512 .f32) (b : Fin 1024) (o : Fin 512) :
    Gen.k1_pay1 (Gen.k1_pay2 v0) (Gen.k1_pay3 v0 v1 v2 v4 v6) (Gen.k1_pay4 v8)
        (constant (F := Ideal) S1024x512 .f32 0x00000000#32) (ix2 b o)
      = (∑ n : Fin 64,
          Ideal.exp (Ideal.div
            (0 - max (((∑ i : Fin 512, v0 (ix2 b i) * v0 (ix2 b i)) + v2 (ix2 (0 : Fin 1) n))
                - Cert.Spec.two * (∑ i : Fin 512, v0 (ix2 b i) * v1 (ix2 n i))) 0)
            (Cert.Spec.two * Ideal.exp (v4 (ix2 (0 : Fin 1) n)) * Ideal.exp (v4 (ix2 (0 : Fin 1) n)) + Cert.Spec.tiny))
          * v6 (ix2 o n))
        + ∑ k : Fin 512, v0 (ix2 b k) * v8 (ix2 k o) := by
  unfold Gen.k1_pay1 Gen.k1_pay4
  refine (congrArg (Gen.k1_pay3 v0 v1 v2 v4 v6 (ix2 b o) + ·) (mm_base _ _ b o)).trans ?_
  refine congrArg₂ (· + ·) ?_ rfl
  unfold Gen.k1_pay3
  refine (mm_basis _ _ b o).trans ?_
  refine Finset.sum_congr rfl fun n _ => ?_
  refine congrArg₂ (· * ·) ?_ ?_
  · refine congrArg Ideal.exp (congrArg₂ Ideal.div ?_ ?_)
    · refine congrArg₂ (· - ·) Ideal.ofBits_zero_f32
        (congrArg₂ max (congrArg₂ (· - ·) (congrArg₂ (· + ·) ?_ ?_) (congrArg (Cert.Spec.two * ·) ?_))
          Ideal.ofBits_zero_f32)
      · exact (col_bcast _ b n).trans (row_sum _ b)
      · refine (row_bcast _ b n).trans ?_
        rw [shapeCast_self]
      · exact mm_xc _ _ b n
    · refine (row_bcast _ b n).trans ?_
      rw [shapeCast_self]
      rfl
  · rw [shapeCast_self]
    rfl

end Cert.KernelIdeal.Pay

end
-- ==== Proof.KI.Val0.lean ====
/-
  What the coefficient pass computes, read off its run.

  Each of the three cases of a point leaves, in the feature accumulator, "what it held + the sum over the block's 64
  input features of mean + noise · exp(½ · log-variance)", and in the divergence accumulator "what it held + the sum
  over the block's features and centres of the divergence term"; at a run's first point "what it held" is the zero just
  stored; at a run's last point the two outputs' staging buffers receive copies of the accumulators. So after point
  8·a + j the accumulators hold the sums over the run's first j + 1 blocks, and the copies made at j = 7 hold the sums
  over all 8 blocks of the run, that is over all 512 input features.
-/
import proofs.«122315_j80719615361567_2_alg».proof.Proof.KI.Reg0
import proofs.«122315_j80719615361567_2_alg».proof.Proof.KI.PayIdeal
import proofs.«122315_j80719615361567_2_alg».proof.Proof.Algebra
import Idealize.ShloMosaic.Lib.Pipeline.Value
import Idealize.ShloMosaic.Lib.Tactic

set_option maxRecDepth 16384

noncomputable section

namespace Cert.KernelIdeal.Val0

open Cert.KernelIdeal Cert.KernelIdeal.Gen Cert.KernelIdeal.R0
open Idealize.ShloMosaic Idealize.ShloMosaic.TcCoe Idealize.SL.Sem Idealize.ShloMosaic.Tactic Idealize.ShloMosaic.ValueIdx
open Idealize.ShloMosaic.Pipeline (Dat)

section AnyFloat

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-! ## The value each case leaves -/

theorem first_acc (c : Dev nD) (t : Fin cfg0.N) (hc0 : isFirst (grid0.coords t)) (hc1 : ¬isLast (grid0.coords t)) :
    rdA (RF V c t hc0 hc1).1 = k0_pay3 (iblk V c 0 t) (iblk V c 1 t) (iblk V c 2 t) (k0_pay1 (F := F)) := by
  unfold rdA
  rw [View.read_writes_eq_canon _ _ _ (coverA_first V c t hc0 hc1)]
  unfold RF runFirst
  dsimp only
  sl_unfold_words
  first
    | rw [View.canon_cons_unit_zero (S := S128x64) hz2]
    | rw [View.canon_unit_zero hz2]
  simp only [View.readAt_eq_ld, (hs0 t).read_unread, (hs1 t).read_unread, (hs2 t).read_unread,
    (Memref.isWhole_whole cc0_scratch0).read_unread, (Memref.isWhole_whole cc0_scratch1).read_unread,
    View.ld_unit_zero (S := S64x128x64) hz3, View.ld_unit_zero (S := S128x64) hz2, View.ld_unit_zero (S := S1x128) hz2,
    View.readCov_unit_zero (S := S128x64) _ hz2, View.readCov_unit_zero (S := S1x128) _ hz2]

theorem first_kl (c : Dev nD) (t : Fin cfg0.N) (hc0 : isFirst (grid0.coords t)) (hc1 : ¬isLast (grid0.coords t)) :
    rdK (RF V c t hc0 hc1).2.1 = k0_pay4 (iblk V c 0 t) (iblk V c 1 t) (k0_pay2 (F := F)) := by
  unfold rdK
  rw [View.read_writes_eq_canon _ _ _ (coverK_first V c t hc0 hc1)]
  unfold RF runFirst
  dsimp only
  sl_unfold_words
  first
    | rw [View.canon_cons_unit_zero (S := S1x128) hz2]
    | rw [View.canon_unit_zero hz2]
  simp only [View.readAt_eq_ld, (hs0 t).read_unread, (hs1 t).read_unread, (hs2 t).read_unread,
    (Memref.isWhole_whole cc0_scratch0).read_unread, (Memref.isWhole_whole cc0_scratch1).read_unread,
    View.ld_unit_zero (S := S64x128x64) hz3, View.ld_unit_zero (S := S128x64) hz2, View.ld_unit_zero (S := S1x128) hz2,
    View.readCov_unit_zero (S := S128x64) _ hz2, View.readCov_unit_zero (S := S1x128) _ hz2]

theorem mid_acc (c : Dev nD) (t : Fin cfg0.N) (hc0 : ¬isFirst (grid0.coords t)) (hc1 : ¬isLast (grid0.coords t)) (sA : Vec F S128x64 .f32) (sK : Vec F S1x128 .f32) :
    rdA (RM V c t hc0 hc1 sA sK).1 = k0_pay3 (iblk V c 0 t) (iblk V c 1 t) (iblk V c 2 t) sA := by
  unfold rdA
  rw [View.read_writes_eq_canon _ _ _ (coverA_mid V c t hc0 hc1 sA sK)]
  unfold RM runMid
  dsimp only
  sl_unfold_words
  first
    | rw [View.canon_cons_unit_zero (S := S128x64) hz2]
    | rw [View.canon_unit_zero hz2]
  simp only [View.readAt_eq_ld, (hs0 t).read_unread, (hs1 t).read_unread, (hs2 t).read_unread,
    (Memref.isWhole_whole cc0_scratch0).read_unread, (Memref.isWhole_whole cc0_scratch1).read_unread,
    View.ld_unit_zero (S := S64x128x64) hz3, View.ld_unit_zero (S := S128x64) hz2, View.ld_unit_zero (S := S1x128) hz2,
    View.readCov_unit_zero (S := S128x64) _ hz2, View.readCov_unit_zero (S := S1x128) _ hz2]

theorem mid_kl (c : Dev nD) (t : Fin cfg0.N) (hc0 : ¬isFirst (grid0.coords t)) (hc1 : ¬isLast (grid0.coords t)) (sA : Vec F S128x64 .f32) (sK : Vec F S1x128 .f32) :
    rdK (RM V c t hc0 hc1 sA sK).2.1 = k0_pay4 (iblk V c 0 t) (iblk V c 1 t) sK := by
  unfold rdK
  rw [View.read_writes_eq_canon _ _ _ (coverK_mid V c t hc0 hc1 sA sK)]
  unfold RM runMid
  dsimp only
  sl_unfold_words
  first
    | rw [View.canon_cons_unit_zero (S := S1x128) hz2]
    | rw [View.canon_unit_zero hz2]
  simp only [View.readAt_eq_ld, (hs0 t).read_unread, (hs1 t).read_unread, (hs2 t).read_unread,
    (Memref.isWhole_whole cc0_scratch0).read_unread, (Memref.isWhole_whole cc0_scratch1).read_unread,
    View.ld_unit_zero (S := S64x128x64) hz3, View.ld_unit_zero (S := S128x64) hz2, View.ld_unit_zero (S := S1x128) hz2,
    View.readCov_unit_zero (S := S128x64) _ hz2, View.readCov_unit_zero (S := S1x128) _ hz2]

theorem last_out3 (c : Dev nD) (t : Fin cfg0.N) (hc0 : ¬isFirst (grid0.coords t)) (hc1 : isLast (grid0.coords t)) (sA : Vec F S128x64 .f32) (sK : Vec F S1x128 .f32) :
    rd3 (RL V c t hc0 hc1 sA sK).1 = k0_pay3 (iblk V c 0 t) (iblk V c 1 t) (iblk V c 2 t) sA := by
  unfold rd3
  rw [View.read_writes_eq_canon _ _ _ (cover3_last V c t hc0 hc1 sA sK)]
  unfold RL runLast
  dsimp only
  sl_unfold_words
  first
    | rw [View.canon_cons_unit_zero (S := S128x64) hz2]
    | rw [View.canon_unit_zero hz2]
  simp only [View.readAt_eq_ld, (hs0 t).read_unread, (hs1 t).read_unread, (hs2 t).read_unread,
    (Memref.isWhole_whole cc0_scratch0).read_unread, (Memref.isWhole_whole cc0_scratch1).read_unread,
    View.ld_unit_zero (S := S64x128x64) hz3, View.ld_unit_zero (S := S128x64) hz2, View.ld_unit_zero (S := S1x128) hz2,
    View.readCov_unit_zero (S := S128x64) _ hz2, View.readCov_unit_zero (S := S1x128) _ hz2]

theorem last_out4 (c : Dev nD) (t : Fin cfg0.N) (hc0 : ¬isFirst (grid0.coords t)) (hc1 : isLast (grid0.coords t)) (sA : Vec F S128x64 .f32) (sK : Vec F S1x128 .f32) :
    rd4 (RL V c t hc0 hc1 sA sK).2.1 = k0_pay4 (iblk V c 0 t) (iblk V c 1 t) sK := by
  unfold rd4
  rw [View.read_writes_eq_canon _ _ _ (cover4_last V c t hc0 hc1 sA sK)]
  unfold RL runLast
  dsimp only
  sl_unfold_words
  first
    | rw [View.canon_cons_unit_zero (S := S1x128) hz2]
    | rw [View.canon_unit_zero hz2]
  simp only [View.readAt_eq_ld, (hs0 t).read_unread, (hs1 t).read_unread, (hs2 t).read_unread,
    (Memref.isWhole_whole cc0_scratch0).read_unread, (Memref.isWhole_whole cc0_scratch1).read_unread,
    View.ld_unit_zero (S := S64x128x64) hz3, View.ld_unit_zero (S := S128x64) hz2, View.ld_unit_zero (S := S1x128) hz2,
    View.readCov_unit_zero (S := S128x64) _ hz2, View.readCov_unit_zero (S := S1x128) _ hz2]

theorem last_acc (c : Dev nD) (t : Fin cfg0.N) (hc0 : ¬isFirst (grid0.coords t)) (hc1 : isLast (grid0.coords t)) (sA : Vec F S128x64 .f32) (sK : Vec F S1x128 .f32) :
    rdA (RL V c t hc0 hc1 sA sK).2.2.1 = k0_pay3 (iblk V c 0 t) (iblk V c 1 t) (iblk V c 2 t) sA := by
  unfold rdA
  rw [View.read_writes_eq_canon _ _ _ (coverA_last V c t hc0 hc1 sA sK)]
  unfold RL runLast
  dsimp only
  sl_unfold_words
  first
    | rw [View.canon_cons_unit_zero (S := S128x64) hz2]
    | rw [View.canon_unit_zero hz2]
  simp only [View.readAt_eq_ld, (hs0 t).read_unread, (hs1 t).read_unread, (hs2 t).read_unread,
    (Memref.isWhole_whole cc0_scratch0).read_unread, (Memref.isWhole_whole cc0_scratch1).read_unread,
    View.ld_unit_zero (S := S64x128x64) hz3, View.ld_unit_zero (S := S128x64) hz2, View.ld_unit_zero (S := S1x128) hz2,
    View.readCov_unit_zero (S := S128x64) _ hz2, View.readCov_unit_zero (S := S1x128) _ hz2]

theorem last_kl (c : Dev nD) (t : Fin cfg0.N) (hc0 : ¬isFirst (grid0.coords t)) (hc1 : isLast (grid0.coords t)) (sA : Vec F S128x64 .f32) (sK : Vec F S1x128 .f32) :
    rdK (RL V c t hc0 hc1 sA sK).2.2.2.1 = k0_pay4 (iblk V c 0 t) (iblk V c 1 t) sK := by
  unfold rdK
  rw [View.read_writes_eq_canon _ _ _ (coverK_last V c t hc0 hc1 sA sK)]
  unfold RL runLast
  dsimp only
  sl_unfold_words
  first
    | rw [View.canon_cons_unit_zero (S := S1x128) hz2]
    | rw [View.canon_unit_zero hz2]
  simp only [View.readAt_eq_ld, (hs0 t).read_unread, (hs1 t).read_unread, (hs2 t).read_unread,
    (Memref.isWhole_whole cc0_scratch0).read_unread, (Memref.isWhole_whole cc0_scratch1).read_unread,
    View.ld_unit_zero (S := S64x128x64) hz3, View.ld_unit_zero (S := S128x64) hz2, View.ld_unit_zero (S := S1x128) hz2,
    View.readCov_unit_zero (S := S128x64) _ hz2, View.readCov_unit_zero (S := S1x128) _ hz2]

/-! ## The accumulators after each point, in closed form -/

/-- The feature accumulator after point `n`: the point's block added to the zero at a run's first point, to what the
    point before left elsewhere. -/
def accAt (c : Dev nD) : (n : ℕ) → n < cfg0.N → Vec F S128x64 .f32
  | 0, h => k0_pay3 (iblk V c 0 ⟨0, h⟩) (iblk V c 1 ⟨0, h⟩) (iblk V c 2 ⟨0, h⟩) (k0_pay1 (F := F))
  | n + 1, h =>
    if (n + 1) % 8 = 0 then k0_pay3 (iblk V c 0 ⟨n + 1, h⟩) (iblk V c 1 ⟨n + 1, h⟩) (iblk V c 2 ⟨n + 1, h⟩) (k0_pay1 (F := F))
    else k0_pay3 (iblk V c 0 ⟨n + 1, h⟩) (iblk V c 1 ⟨n + 1, h⟩) (iblk V c 2 ⟨n + 1, h⟩) (accAt c n (Nat.lt_of_succ_lt h))
/-- The divergence accumulator after point `n`, likewise. -/
def klAt (c : Dev nD) : (n : ℕ) → n < cfg0.N → Vec F S1x128 .f32
  | 0, h => k0_pay4 (iblk V c 0 ⟨0, h⟩) (iblk V c 1 ⟨0, h⟩) (k0_pay2 (F := F))
  | n + 1, h =>
    if (n + 1) % 8 = 0 then k0_pay4 (iblk V c 0 ⟨n + 1, h⟩) (iblk V c 1 ⟨n + 1, h⟩) (k0_pay2 (F := F))
    else k0_pay4 (iblk V c 0 ⟨n + 1, h⟩) (iblk V c 1 ⟨n + 1, h⟩) (klAt c n (Nat.lt_of_succ_lt h))

/-- The tuple's components, case by case. -/
theorem fourFirst_acc (c : Dev nD) (t : Fin cfg0.N) (hc0 : isFirst (grid0.coords t)) (hc1 : ¬isLast (grid0.coords t)) :
    (fourFirst V c t hc0 hc1).2.2.1 = k0_pay3 (iblk V c 0 t) (iblk V c 1 t) (iblk V c 2 t) (k0_pay1 (F := F)) := first_acc V c t hc0 hc1
theorem fourFirst_kl (c : Dev nD) (t : Fin cfg0.N) (hc0 : isFirst (grid0.coords t)) (hc1 : ¬isLast (grid0.coords t)) :
    (fourFirst V c t hc0 hc1).2.2.2 = k0_pay4 (iblk V c 0 t) (iblk V c 1 t) (k0_pay2 (F := F)) := first_kl V c t hc0 hc1
theorem fourMid_acc (c : Dev nD) (t : Fin cfg0.N) (hc0 : ¬isFirst (grid0.coords t)) (hc1 : ¬isLast (grid0.coords t)) (sA : Vec F S128x64 .f32) (sK : Vec F S1x128 .f32) :
    (fourMid V c t hc0 hc1 sA sK).2.2.1 = k0_pay3 (iblk V c 0 t) (iblk V c 1 t) (iblk V c 2 t) sA := mid_acc V c t hc0 hc1 sA sK
theorem fourMid_kl (c : Dev nD) (t : Fin cfg0.N) (hc0 : ¬isFirst (grid0.coords t)) (hc1 : ¬isLast (grid0.coords t)) (sA : Vec F S128x64 .f32) (sK : Vec F S1x128 .f32) :
    (fourMid V c t hc0 hc1 sA sK).2.2.2 = k0_pay4 (iblk V c 0 t) (iblk V c 1 t) sK := mid_kl V c t hc0 hc1 sA sK
theorem fourLast_acc (c : Dev nD) (t : Fin cfg0.N) (hc0 : ¬isFirst (grid0.coords t)) (hc1 : isLast (grid0.coords t)) (sA : Vec F S128x64 .f32) (sK : Vec F S1x128 .f32) :
    (fourLast V c t hc0 hc1 sA sK).2.2.1 = k0_pay3 (iblk V c 0 t) (iblk V c 1 t) (iblk V c 2 t) sA := last_acc V c t hc0 hc1 sA sK
theorem fourLast_kl (c : Dev nD) (t : Fin cfg0.N) (hc0 : ¬isFirst (grid0.coords t)) (hc1 : isLast (grid0.coords t)) (sA : Vec F S128x64 .f32) (sK : Vec F S1x128 .f32) :
    (fourLast V c t hc0 hc1 sA sK).2.2.2 = k0_pay4 (iblk V c 0 t) (iblk V c 1 t) sK := last_kl V c t hc0 hc1 sA sK
theorem fourLast_out3 (c : Dev nD) (t : Fin cfg0.N) (hc0 : ¬isFirst (grid0.coords t)) (hc1 : isLast (grid0.coords t)) (sA : Vec F S128x64 .f32) (sK : Vec F S1x128 .f32) :
    (fourLast V c t hc0 hc1 sA sK).1 = k0_pay3 (iblk V c 0 t) (iblk V c 1 t) (iblk V c 2 t) sA := last_out3 V c t hc0 hc1 sA sK
theorem fourLast_out4 (c : Dev nD) (t : Fin cfg0.N) (hc0 : ¬isFirst (grid0.coords t)) (hc1 : isLast (grid0.coords t)) (sA : Vec F S128x64 .f32) (sK : Vec F S1x128 .f32) :
    (fourLast V c t hc0 hc1 sA sK).2.1 = k0_pay4 (iblk V c 0 t) (iblk V c 1 t) sK := last_out4 V c t hc0 hc1 sA sK

theorem accAt_zero (c : Dev nD) (h : 0 < cfg0.N) : accAt V c 0 h = k0_pay3 (iblk V c 0 ⟨0, h⟩) (iblk V c 1 ⟨0, h⟩) (iblk V c 2 ⟨0, h⟩) (k0_pay1 (F := F)) := rfl
theorem klAt_zero (c : Dev nD) (h : 0 < cfg0.N) : klAt V c 0 h = k0_pay4 (iblk V c 0 ⟨0, h⟩) (iblk V c 1 ⟨0, h⟩) (k0_pay2 (F := F)) := rfl
theorem accAt_first (c : Dev nD) (n : ℕ) (h : n + 1 < cfg0.N) (h0 : (n + 1) % 8 = 0) :
    accAt V c (n + 1) h = k0_pay3 (iblk V c 0 ⟨n + 1, h⟩) (iblk V c 1 ⟨n + 1, h⟩) (iblk V c 2 ⟨n + 1, h⟩) (k0_pay1 (F := F)) := by simp only [accAt, if_pos h0]
theorem klAt_first (c : Dev nD) (n : ℕ) (h : n + 1 < cfg0.N) (h0 : (n + 1) % 8 = 0) :
    klAt V c (n + 1) h = k0_pay4 (iblk V c 0 ⟨n + 1, h⟩) (iblk V c 1 ⟨n + 1, h⟩) (k0_pay2 (F := F)) := by simp only [klAt, if_pos h0]
theorem accAt_next (c : Dev nD) (n : ℕ) (h : n + 1 < cfg0.N) (h0 : ¬(n + 1) % 8 = 0) :
    accAt V c (n + 1) h = k0_pay3 (iblk V c 0 ⟨n + 1, h⟩) (iblk V c 1 ⟨n + 1, h⟩) (iblk V c 2 ⟨n + 1, h⟩) (accAt V c n (Nat.lt_of_succ_lt h)) := by simp only [accAt, if_neg h0]
theorem klAt_next (c : Dev nD) (n : ℕ) (h : n + 1 < cfg0.N) (h0 : ¬(n + 1) % 8 = 0) :
    klAt V c (n + 1) h = k0_pay4 (iblk V c 0 ⟨n + 1, h⟩) (iblk V c 1 ⟨n + 1, h⟩) (klAt V c n (Nat.lt_of_succ_lt h)) := by simp only [klAt, if_neg h0]

/-- What the recursion over the cases' found pieces holds in the two accumulators IS the closed recursion — by
    induction on the point. -/
theorem outsAt_accs (c : Dev nD) : ∀ (n : ℕ) (h : n < cfg0.N),
    (outsAt V c n h).2.2.1 = accAt V c n h ∧ (outsAt V c n h).2.2.2 = klAt V c n h
  | 0, h => by
    have hc0 : isFirst (grid0.coords (⟨0, h⟩ : Fin cfg0.N)) := (isFirst_iff ⟨0, h⟩).mpr (Nat.zero_mod _)
    have hc1 : ¬isLast (grid0.coords (⟨0, h⟩ : Fin cfg0.N)) := fun hh => (fun hh => by (try dsimp only at hh); omega) ((isLast_iff ⟨0, h⟩).mp hh)
    have e : outsAt V c 0 h = fourFirst V c ⟨0, h⟩ hc0 hc1 := rfl
    exact ⟨((congrArg (fun z : Four (F := F) => z.2.2.1) e).trans (fourFirst_acc V c ⟨0, h⟩ hc0 hc1)).trans (accAt_zero V c h).symm,
      ((congrArg (fun z : Four (F := F) => z.2.2.2) e).trans (fourFirst_kl V c ⟨0, h⟩ hc0 hc1)).trans (klAt_zero V c h).symm⟩
  | n + 1, h => by
    have hn : n < cfg0.N := Nat.lt_of_succ_lt h
    obtain ⟨ihA, ihK⟩ := outsAt_accs c n hn
    have hN : n + 1 < 32 := lt_of_lt_of_eq h (show cfg0.N = 32 from N_0)
    by_cases h0 : (n + 1) % 8 = 0
    · have h1 : ¬(n + 1) % 8 = 7 := by omega
      have hc0 : isFirst (grid0.coords (⟨n + 1, h⟩ : Fin cfg0.N)) := (isFirst_iff ⟨n + 1, h⟩).mpr h0
      have hc1 : ¬isLast (grid0.coords (⟨n + 1, h⟩ : Fin cfg0.N)) := fun hh => h1 ((isLast_iff ⟨n + 1, h⟩).mp hh)
      have e : outsAt V c (n + 1) h = fourFirst V c ⟨n + 1, h⟩ hc0 hc1 := outsAt_first V c ⟨n + 1, h⟩ h0 h1
      exact ⟨((congrArg (fun z : Four (F := F) => z.2.2.1) e).trans (fourFirst_acc V c ⟨n + 1, h⟩ hc0 hc1)).trans (accAt_first V c n h h0).symm,
        ((congrArg (fun z : Four (F := F) => z.2.2.2) e).trans (fourFirst_kl V c ⟨n + 1, h⟩ hc0 hc1)).trans (klAt_first V c n h h0).symm⟩
    · have hc0 : ¬isFirst (grid0.coords (⟨n + 1, h⟩ : Fin cfg0.N)) := fun hh => h0 ((isFirst_iff ⟨n + 1, h⟩).mp hh)
      by_cases h1 : (n + 1) % 8 = 7
      · have hc1 : isLast (grid0.coords (⟨n + 1, h⟩ : Fin cfg0.N)) := (isLast_iff ⟨n + 1, h⟩).mpr h1
        have e : outsAt V c (n + 1) h = fourLast V c ⟨n + 1, h⟩ hc0 hc1 (outsAt V c n hn).2.2.1 (outsAt V c n hn).2.2.2 :=
          outsAt_last V c ⟨n + 1, h⟩ h0 h1
        refine ⟨((congrArg (fun z : Four (F := F) => z.2.2.1) e).trans (fourLast_acc V c ⟨n + 1, h⟩ hc0 hc1 (outsAt V c n hn).2.2.1 (outsAt V c n hn).2.2.2)).trans ?_,
          ((congrArg (fun z : Four (F := F) => z.2.2.2) e).trans (fourLast_kl V c ⟨n + 1, h⟩ hc0 hc1 (outsAt V c n hn).2.2.1 (outsAt V c n hn).2.2.2)).trans ?_⟩
        · rw [accAt_next V c n h h0, ihA]
        · rw [klAt_next V c n h h0, ihK]
      · have hc1 : ¬isLast (grid0.coords (⟨n + 1, h⟩ : Fin cfg0.N)) := fun hh => h1 ((isLast_iff ⟨n + 1, h⟩).mp hh)
        have e : outsAt V c (n + 1) h = fourMid V c ⟨n + 1, h⟩ hc0 hc1 (outsAt V c n hn).2.2.1 (outsAt V c n hn).2.2.2 :=
          outsAt_mid V c ⟨n + 1, h⟩ h0 h1
        refine ⟨((congrArg (fun z : Four (F := F) => z.2.2.1) e).trans (fourMid_acc V c ⟨n + 1, h⟩ hc0 hc1 (outsAt V c n hn).2.2.1 (outsAt V c n hn).2.2.2)).trans ?_,
          ((congrArg (fun z : Four (F := F) => z.2.2.2) e).trans (fourMid_kl V c ⟨n + 1, h⟩ hc0 hc1 (outsAt V c n hn).2.2.1 (outsAt V c n hn).2.2.2)).trans ?_⟩
        · rw [accAt_next V c n h h0, ihA]
        · rw [klAt_next V c n h h0, ihK]

/-- At a run's last point the outputs' staging buffers hold the accumulators' new contents. -/
theorem outsAt_outs (c : Dev nD) (n : ℕ) (h : n + 1 < cfg0.N) (h7 : (n + 1) % 8 = 7) :
    (outsAt V c (n + 1) h).1 = accAt V c (n + 1) h ∧ (outsAt V c (n + 1) h).2.1 = klAt V c (n + 1) h := by
  have hn : n < cfg0.N := Nat.lt_of_succ_lt h
  obtain ⟨ihA, ihK⟩ := outsAt_accs V c n hn
  have h0 : ¬(n + 1) % 8 = 0 := by omega
  have hc0 : ¬isFirst (grid0.coords (⟨n + 1, h⟩ : Fin cfg0.N)) := fun hh => h0 ((isFirst_iff ⟨n + 1, h⟩).mp hh)
  have hc1 : isLast (grid0.coords (⟨n + 1, h⟩ : Fin cfg0.N)) := (isLast_iff ⟨n + 1, h⟩).mpr h7
  have e : outsAt V c (n + 1) h = fourLast V c ⟨n + 1, h⟩ hc0 hc1 (outsAt V c n hn).2.2.1 (outsAt V c n hn).2.2.2 :=
    outsAt_last V c ⟨n + 1, h⟩ h0 h7
  refine ⟨((congrArg (fun z : Four (F := F) => z.1) e).trans (fourLast_out3 V c ⟨n + 1, h⟩ hc0 hc1 (outsAt V c n hn).2.2.1 (outsAt V c n hn).2.2.2)).trans ?_,
    ((congrArg (fun z : Four (F := F) => z.2.1) e).trans (fourLast_out4 V c ⟨n + 1, h⟩ hc0 hc1 (outsAt V c n hn).2.2.1 (outsAt V c n hn).2.2.2)).trans ?_⟩
  · rw [accAt_next V c n h h0, ihA]
  · rw [klAt_next V c n h h0, ihK]

end AnyFloat

end Cert.KernelIdeal.Val0

end
-- ==== Proof.KI.Val0Arr.lean ====
/-
  The first kernel's two result arrays, read off the last point of each run of eight grid points, and its three input
  blocks at explicit coordinates.

  The grid is 4 × 8: point t = 8·a + j.  Each input's block at point t is rows 64·j …, columns 128·a … of its
  [512,512,64] array.  The two outputs are written back only at the last point of a run, j = 7: the [512,64] result in
  row blocks of 128 (block a), the [1,512] result in column blocks of 128 (block a).  So each result array is one
  function of what the output's staging buffer holds after the points 8·a + 7, those four blocks tile the array, and
  the array ends at that function.  What the staging buffers hold after a point is taken as given here.
-/
import proofs.«122315_j80719615361567_2_alg».proof.Proof.KI.Reg0
import Idealize.ShloMosaic.Lib.Pipeline.Value
import Idealize.ShloMosaic.Lib.ValueIdx

noncomputable section

namespace Cert.KernelIdeal.Val0Arr

open Cert.KernelIdeal Cert.KernelIdeal.Gen Idealize.ShloMosaic Idealize.ShloMosaic.TcCoe Idealize.SL.Sem
open Idealize.ShloMosaic.Pipeline (Dat)
open Idealize.ShloMosaic.ValueIdx

-- the contents of the core's buffers when the kernel is entered
variable (V : (c : Dev nD) → (b : Ref sig .tc) → Buf (Elt Ideal) ((c : Thread nD τ).loc b))

/-! ## The printed index maps over the grid -/

/-- Decided over the 32 points: each input's block index is (t mod 8, t / 8, 0); the first output's is (t / 8, 0), the
    second's (0, t / 8). -/
theorem idx_facts : ∀ t : Fin cfg0.N, win0_0.index t (0 : Fin 3) = t.val % 8 ∧ win0_0.index t (1 : Fin 3) = t.val / 8 ∧ win0_0.index t (2 : Fin 3) = 0
    ∧ win0_1.index t (0 : Fin 3) = t.val % 8 ∧ win0_1.index t (1 : Fin 3) = t.val / 8 ∧ win0_1.index t (2 : Fin 3) = 0
    ∧ win0_2.index t (0 : Fin 3) = t.val % 8 ∧ win0_2.index t (1 : Fin 3) = t.val / 8 ∧ win0_2.index t (2 : Fin 3) = 0
    ∧ win0_3.index t (0 : Fin 2) = t.val / 8 ∧ win0_3.index t (1 : Fin 2) = 0
    ∧ win0_4.index t (0 : Fin 2) = 0 ∧ win0_4.index t (1 : Fin 2) = t.val / 8 :=
  (by decide +kernel : ∀ t : Fin grid0.N, _)

/-- The last point of every run is a grid point. -/
theorem idx_onto : ∀ a : Fin 4, ∃ t : Fin cfg0.N, t.val = 8 * a.val + 7 :=
  (by decide +kernel : ∀ a : Fin 4, ∃ t : Fin grid0.N, t.val = 8 * a.val + 7)

/-! ## The input blocks as parts of their arrays -/

/-- Input window 0's block at point `t`, at explicit coordinates: rows `64·(t mod 8) …`, columns `128·(t / 8) …`, the
    last axis whole. -/
theorem iblk0_apply (c : Dev nD) (t : Fin cfg0.N) (r : Fin 64) (p : Fin 128) (q : Fin 64) :
    (R0.iblk (F := Ideal) V c 0 t : Vec Ideal S64x128x64 .f32) (ix3 r p q)
      = (V c main_arg3 : S512x512x64.Idx → Elt Ideal .f32)
          (ix3 ⟨64 * (t.val % 8) + r.val, by omega⟩ ⟨128 * (t.val / 8) + p.val, by have := Nat.lt_of_lt_of_eq t.isLt N_0; omega⟩ q) := by
  have hI := idx_facts t
  have hr : r.val < 64 := r.isLt
  have hp : p.val < 128 := p.isLt
  show V c main_arg3 (((cfg0.win 0).blk t).view.emb (ix3 r p q)) = V c main_arg3 (ix3 _ _ _)
  congr 1
  funext a
  apply Fin.ext
  match a with
  | ⟨0, _⟩ => show win0_0.index t (0 : Fin 3) * 64 + 1 * r.val = 64 * (t.val % 8) + r.val; omega
  | ⟨1, _⟩ => show win0_0.index t (1 : Fin 3) * 128 + 1 * p.val = 128 * (t.val / 8) + p.val; omega
  | ⟨2, _⟩ => show win0_0.index t (2 : Fin 3) * 64 + 1 * q.val = q.val; omega

/-- Input window 1's block at point `t`, at explicit coordinates: rows `64·(t mod 8) …`, columns `128·(t / 8) …`, the
    last axis whole. -/
theorem iblk1_apply (c : Dev nD) (t : Fin cfg0.N) (r : Fin 64) (p : Fin 128) (q : Fin 64) :
    (R0.iblk (F := Ideal) V c 1 t : Vec Ideal S64x128x64 .f32) (ix3 r p q)
      = (V c main_arg4 : S512x512x64.Idx → Elt Ideal .f32)
          (ix3 ⟨64 * (t.val % 8) + r.val, by omega⟩ ⟨128 * (t.val / 8) + p.val, by have := Nat.lt_of_lt_of_eq t.isLt N_0; omega⟩ q) := by
  have hI := idx_facts t
  have hr : r.val < 64 := r.isLt
  have hp : p.val < 128 := p.isLt
  show V c main_arg4 (((cfg0.win 1).blk t).view.emb (ix3 r p q)) = V c main_arg4 (ix3 _ _ _)
  congr 1
  funext a
  apply Fin.ext
  match a with
  | ⟨0, _⟩ => show win0_1.index t (0 : Fin 3) * 64 + 1 * r.val = 64 * (t.val % 8) + r.val; omega
  | ⟨1, _⟩ => show win0_1.index t (1 : Fin 3) * 128 + 1 * p.val = 128 * (t.val / 8) + p.val; omega
  | ⟨2, _⟩ => show win0_1.index t (2 : Fin 3) * 64 + 1 * q.val = q.val; omega

/-- Input window 2's block at point `t`, at explicit coordinates: rows `64·(t mod 8) …`, columns `128·(t / 8) …`, the
    last axis whole. -/
theorem iblk2_apply (c : Dev nD) (t : Fin cfg0.N) (r : Fin 64) (p : Fin 128) (q : Fin 64) :
    (R0.iblk (F := Ideal) V c 2 t : Vec Ideal S64x128x64 .f32) (ix3 r p q)
      = (V c main_v0 : S512x512x64.Idx → Elt Ideal .f32)
          (ix3 ⟨64 * (t.val % 8) + r.val, by omega⟩ ⟨128 * (t.val / 8) + p.val, by have := Nat.lt_of_lt_of_eq t.isLt N_0; omega⟩ q) := by
  have hI := idx_facts t
  have hr : r.val < 64 := r.isLt
  have hp : p.val < 128 := p.isLt
  show V c main_v0 (((cfg0.win 2).blk t).view.emb (ix3 r p q)) = V c main_v0 (ix3 _ _ _)
  congr 1
  funext a
  apply Fin.ext
  match a with
  | ⟨0, _⟩ => show win0_2.index t (0 : Fin 3) * 64 + 1 * r.val = 64 * (t.val % 8) + r.val; omega
  | ⟨1, _⟩ => show win0_2.index t (1 : Fin 3) * 128 + 1 * p.val = 128 * (t.val / 8) + p.val; omega
  | ⟨2, _⟩ => show win0_2.index t (2 : Fin 3) * 64 + 1 * q.val = q.val; omega

/-! ## The results as functions of what the last point of each run leaves -/

/-- The four buffers after the last point, `8·a + 7`, of run `a`. -/
def runEnd (c : Dev nD) (a : Fin 4) : R0.Four (F := Ideal) :=
  R0.outsAt V c (8 * a.val + 7) (Nat.lt_of_lt_of_eq (by omega) N_0.symm)

/-- What is left after a point depends on the point's number only. -/
theorem outsAt_congr (c : Dev nD) {n n' : ℕ} (h : n = n') (hn : n < cfg0.N) (hn' : n' < cfg0.N) :
    R0.outsAt V c n hn = R0.outsAt V c n' hn' := by
  subst h; rfl

/-- At the last point of a run, what is left is the run's end. -/
theorem runEnd_of_last (c : Dev nD) (t : Fin cfg0.N) (h7 : t.val % 8 = 7) :
    R0.outsAt V c t.val t.isLt = runEnd V c ⟨t.val / 8, by have := Nat.lt_of_lt_of_eq t.isLt N_0; omega⟩ :=
  outsAt_congr V c (by show t.val = 8 * (t.val / 8) + 7; omega) _ _

/-- The [512,64] result: row `o` is row `o mod 128` of the first output's buffer at the end of run `o / 128`. -/
def G3 (c : Dev nD) : S512x64.Idx → Elt Ideal .f32 :=
  fun i => (runEnd V c ⟨(i 0).val / 128, by have := idx2_lt0 i; omega⟩).1
    (ix2 ⟨(i 0).val % 128, Nat.mod_lt _ (by decide)⟩ ⟨(i 1).val, idx2_lt1 i⟩)

/-- The [1,512] result: column `o` is column `o mod 128` of the second output's buffer at the end of run `o / 128`. -/
def G4 (c : Dev nD) : S1x512.Idx → Elt Ideal .f32 :=
  fun i => (runEnd V c ⟨(i 1).val / 128, by have := idx2_lt1 i; omega⟩).2.1
    (ix2 ⟨(i 0).val, idx2_lt0 i⟩ ⟨(i 1).val % 128, Nat.mod_lt _ (by decide)⟩)

/-- `G3` at row `128·a + ` a block row is the first output's buffer at the end of run `a` there. -/
theorem G3_at (c : Dev nD) (a : Fin 4) (j : S128x64.Idx) (i : S512x64.Idx)
    (h0 : (i 0).val = 128 * a.val + (j 0).val) (h1 : (i 1).val = (j 1).val) : G3 V c i = (runEnd V c a).1 j := by
  have hj0 : (j 0).val < 128 := idx2_lt0 j
  have ha : (⟨(i 0).val / 128, by have := idx2_lt0 i; omega⟩ : Fin 4) = a := Fin.ext (by show (i 0).val / 128 = a.val; omega)
  have hj : (ix2 (⟨(i 0).val % 128, Nat.mod_lt _ (by decide)⟩ : Fin 128) (⟨(i 1).val, idx2_lt1 i⟩ : Fin 64) : S128x64.Idx) = j := by
    funext d
    apply Fin.ext
    match d with
    | ⟨0, _⟩ => show (i 0).val % 128 = (j 0).val; omega
    | ⟨1, _⟩ => show (i 1).val = (j 1).val; exact h1
  unfold G3
  rw [ha, hj]

/-- `G4` at column `128·a + ` a block column is the second output's buffer at the end of run `a` there. -/
theorem G4_at (c : Dev nD) (a : Fin 4) (j : S1x128.Idx) (i : S1x512.Idx)
    (h0 : (i 0).val = (j 0).val) (h1 : (i 1).val = 128 * a.val + (j 1).val) : G4 V c i = (runEnd V c a).2.1 j := by
  have hj1 : (j 1).val < 128 := idx2_lt1 j
  have ha : (⟨(i 1).val / 128, by have := idx2_lt1 i; omega⟩ : Fin 4) = a := Fin.ext (by show (i 1).val / 128 = a.val; omega)
  have hj : (ix2 (⟨(i 0).val, idx2_lt0 i⟩ : Fin 1) (⟨(i 1).val % 128, Nat.mod_lt _ (by decide)⟩ : Fin 128) : S1x128.Idx) = j := by
    funext d
    apply Fin.ext
    match d with
    | ⟨0, _⟩ => show (i 0).val = (j 0).val; exact h0
    | ⟨1, _⟩ => show (i 1).val % 128 = (j 1).val; omega
  unfold G4
  rw [ha, hj]

/-! ## What the write-backs write, and the arrays at the end -/

/-- A point that writes the first output back — the last of its run — writes its block of `G3`. -/
theorem flushed3_eq (c : Dev nD) (t : Fin cfg0.N) (hf : (cfg0.win 3).flush t = true) :
    (R0.dat0 (F := Ideal) V c).flushed 3 t = ((cfg0.win 3).blk t).view.read (Elt Ideal) (G3 V c) := by
  have h7 : t.val % 8 = 7 := (flush0_3 t).mp hf
  have hI := idx_facts t
  show (cfg0.win 3).cut (grid0.coords t) ((R0.dat0 (F := Ideal) V c).after 3 t) = _
  rw [R0.after_3, runEnd_of_last V c t h7]
  funext j
  show (runEnd V c _).1 j = G3 V c (((cfg0.win 3).blk t).view.emb j)
  refine (G3_at V c _ j _ ?_ ?_).symm
  · show win0_3.index t (0 : Fin 2) * 128 + 1 * (j 0).val = 128 * (t.val / 8) + (j 0).val; omega
  · show win0_3.index t (1 : Fin 2) * 64 + 1 * (j 1).val = (j 1).val; omega

/-- A point that writes the second output back writes its block of `G4`. -/
theorem flushed4_eq (c : Dev nD) (t : Fin cfg0.N) (hf : (cfg0.win 4).flush t = true) :
    (R0.dat0 (F := Ideal) V c).flushed 4 t = ((cfg0.win 4).blk t).view.read (Elt Ideal) (G4 V c) := by
  have h7 : t.val % 8 = 7 := (flush0_4 t).mp hf
  have hI := idx_facts t
  show (cfg0.win 4).cut (grid0.coords t) ((R0.dat0 (F := Ideal) V c).after 4 t) = _
  rw [R0.after_4, runEnd_of_last V c t h7]
  funext j
  show (runEnd V c _).2.1 j = G4 V c (((cfg0.win 4).blk t).view.emb j)
  refine (G4_at V c _ j _ ?_ ?_).symm
  · show win0_4.index t (0 : Fin 2) * 1 + 1 * (j 0).val = (j 0).val; omega
  · show win0_4.index t (1 : Fin 2) * 128 + 1 * (j 1).val = 128 * (t.val / 8) + (j 1).val; omega

/-- An index of the first result is in point `t`'s block iff each coordinate is in the block's range on its axis. -/
theorem mem_blk3 (t : Fin cfg0.N) (i : S512x64.Idx) :
    i ∈ ((cfg0.win 3).blk t).view.set ↔ ∀ a : Fin 2, win0_3.index t a * S128x64.size a ≤ (i a).val ∧ (i a).val < win0_3.index t a * S128x64.size a + S128x64.size a := by
  show i ∈ ((View.whole main_v1_0).slice (win0_3.rect t)).set ↔ _
  rw [View.set_slice_whole, Rect.mem_set_unit]
  exact Iff.rfl

/-- The same for the second result. -/
theorem mem_blk4 (t : Fin cfg0.N) (i : S1x512.Idx) :
    i ∈ ((cfg0.win 4).blk t).view.set ↔ ∀ a : Fin 2, win0_4.index t a * S1x128.size a ≤ (i a).val ∧ (i a).val < win0_4.index t a * S1x128.size a + S1x128.size a := by
  show i ∈ ((View.whole main_v1_1).slice (win0_4.rect t)).set ↔ _
  rw [View.set_slice_whole, Rect.mem_set_unit]
  exact Iff.rfl

/-- Row `o` of the first result is in the block written back at the end of run `o / 128`. -/
theorem cover3 (i : S512x64.Idx) : ∃ t : Fin cfg0.N, (cfg0.win 3).flush t = true ∧ i ∈ ((cfg0.win 3).blk t).view.set := by
  have hi0 : (i 0).val < 512 := idx2_lt0 i
  have hi1 : (i 1).val < 64 := idx2_lt1 i
  obtain ⟨t, ht⟩ := idx_onto ⟨(i 0).val / 128, by omega⟩
  have ht' : t.val = 8 * ((i 0).val / 128) + 7 := ht
  have hI := idx_facts t
  refine ⟨t, (flush0_3 t).mpr (by omega), ?_⟩
  rw [mem_blk3]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 64 ≤ (i 1).val ∧ (i 1).val < win0_3.index t (1 : Fin 2) * 64 + 64; omega

/-- Column `o` of the second result is in the block written back at the end of run `o / 128`. -/
theorem cover4 (i : S1x512.Idx) : ∃ t : Fin cfg0.N, (cfg0.win 4).flush t = true ∧ i ∈ ((cfg0.win 4).blk t).view.set := by
  have hi0 : (i 0).val < 1 := idx2_lt0 i
  have hi1 : (i 1).val < 512 := idx2_lt1 i
  obtain ⟨t, ht⟩ := idx_onto ⟨(i 1).val / 128, by omega⟩
  have ht' : t.val = 8 * ((i 1).val / 128) + 7 := ht
  have hI := idx_facts t
  refine ⟨t, (flush0_4 t).mpr (by omega), ?_⟩
  rw [mem_blk4]
  intro a
  match a with
  | ⟨0, _⟩ => show win0_4.index t (0 : Fin 2) * 1 ≤ (i 0).val ∧ (i 0).val < win0_4.index t (0 : Fin 2) * 1 + 1; omega
  | ⟨1, _⟩ => show win0_4.index t (1 : Fin 2) * 128 ≤ (i 1).val ∧ (i 1).val < win0_4.index t (1 : Fin 2) * 128 + 128; omega

/-- The first result array after the last point is `G3`. -/
theorem final3 (c : Dev nD) : (R0.dat0 (F := Ideal) V c).arrAt 3 cfg0.N = G3 V c :=
  (R0.dat0 (F := Ideal) V c).arrAt_eq_of_cover 3 (G3 V c) (flushed3_eq V c) cover3

/-- The second result array after the last point is `G4`. -/
theorem final4 (c : Dev nD) : (R0.dat0 (F := Ideal) V c).arrAt 4 cfg0.N = G4 V c :=
  (R0.dat0 (F := Ideal) V c).arrAt_eq_of_cover 4 (G4 V c) (flushed4_eq V c) cover4

/-- Index by index: row `o`, column `n` of the first result is the first output's buffer after point `8·(o / 128) + 7`
    at row `o mod 128`, column `n`. -/
theorem out3_array (c : Dev nD) (o : Fin 512) (n : Fin 64) :
    (R0.dat0 (F := Ideal) V c).arrAt 3 cfg0.N (ix2 o n)
      = (R0.outsAt V c (8 * (o.val / 128) + 7) (Nat.lt_of_lt_of_eq (by omega) N_0.symm)).1
          (ix2 ⟨o.val % 128, Nat.mod_lt _ (by decide)⟩ n) := by
  rw [final3]
  rfl

/-- Index by index: column `o` of the second result is the second output's buffer after point `8·(o / 128) + 7` at
    column `o mod 128`. -/
theorem out4_array (c : Dev nD) (o : Fin 512) :
    (R0.dat0 (F := Ideal) V c).arrAt 4 cfg0.N (ix2 (0 : Fin 1) o)
      = (R0.outsAt V c (8 * (o.val / 128) + 7) (Nat.lt_of_lt_of_eq (by omega) N_0.symm)).2.1
          (ix2 (0 : Fin 1) ⟨o.val % 128, Nat.mod_lt _ (by decide)⟩) := by
  rw [final4]
  rfl

end Cert.KernelIdeal.Val0Arr

end
-- ==== Proof.KI.Val0Sum.lean ====
/-
  The sums a run of eight grid points of the first kernel accumulates, and with them the kernel's two result arrays as
  explicit sums over the argument arrays.

  At point 8·a + j the feature accumulator takes, at (p, q), what it held plus the sum over the block's 64 features r
  of mean + noise · exp (½ · log-variance) at feature 64·j + r, output 128·a + p, centre q; at j = 0 what it held is
  the zero just stored.  So after j = 7 it holds the sum over j and r, that is over all 512 features.  The divergence
  accumulator likewise, with the divergence term summed also over the 64 centres.  The result arrays are the copies
  made at j = 7, block a of each, so entry o of either is the sum at a = o / 128, p = o mod 128.
-/
import proofs.«122315_j80719615361567_2_alg».proof.Proof.KI.Val0
import proofs.«122315_j80719615361567_2_alg».proof.Proof.KI.Val0Arr
import proofs.«122315_j80719615361567_2_alg».proof.Proof.KI.PayIdeal
import proofs.«122315_j80719615361567_2_alg».proof.Proof.Algebra
import proofs.«122315_j80719615361567_2_alg».proof.Proof.Spec

noncomputable section

namespace Cert.KernelIdeal.Val0Sum

open Cert.KernelIdeal Cert.KernelIdeal.Gen Idealize.ShloMosaic Idealize.ShloMosaic.TcCoe Idealize.SL.Sem
open Idealize.ShloMosaic.ValueIdx

-- the contents of the core's buffers when the kernel is entered
variable (V : (c : Dev nD) → (b : Ref sig .tc) → Buf (Elt Ideal) ((c : Thread nD τ).loc b))

/-! ## The three argument arrays, read as functions into the extended reals -/

/-- The coefficient means, the coefficient log-variances, and the noise, as the kernel finds them. -/
abbrev A3 (c : Dev nD) : S512x512x64.Idx → EReal := V c main_arg3
abbrev A4 (c : Dev nD) : S512x512x64.Idx → EReal := V c main_arg4
abbrev A0 (c : Dev nD) : S512x512x64.Idx → EReal := V c main_v0

/-! ## Coordinates and terms -/

/-- Feature `64·j + r`: feature `r` of the `j`-th block of 64. -/
def row (j : ℕ) (hj : j < 8) (r : Fin 64) : Fin 512 := ⟨64 * j + r.val, by omega⟩
/-- Output `128·a + p`: output `p` of the `a`-th block of 128. -/
def col (a : Fin 4) (p : Fin 128) : Fin 512 := ⟨128 * a.val + p.val, by omega⟩

/-- Output `o` is output `o mod 128` of block `o / 128`. -/
theorem col_divmod (o : Fin 512) : col ⟨o.val / 128, by omega⟩ ⟨o.val % 128, Nat.mod_lt _ (by decide)⟩ = o :=
  Fin.ext (by show 128 * (o.val / 128) + o.val % 128 = o.val; omega)

/-- A rank-3 index is determined by its coordinates. -/
theorem ix3_congr {n0 n1 n2 : ℕ} {a a' : Fin n0} {b b' : Fin n1} (ha : a = a') (hb : b = b') (q : Fin n2) :
    ix3 a b q = ix3 a' b' q := by subst ha hb; rfl

/-- The sampled coefficient at feature `i`, output `o`, centre `n`: mean + noise · exp (½ · log-variance). -/
def coefTerm (c : Dev nD) (i o : Fin 512) (n : Fin 64) : EReal :=
  A3 V c (ix3 i o n)
    + A0 V c (ix3 i o n)
      * Ideal.exp (Cert.Spec.half * A4 V c (ix3 i o n))

/-- The divergence term at feature `i`, output `o`, centre `n`: exp (log-variance) + mean² − 1 − log-variance. -/
def divTerm (c : Dev nD) (i o : Fin 512) (n : Fin 64) : EReal :=
  Ideal.exp (A4 V c (ix3 i o n))
    + A3 V c (ix3 i o n) * A3 V c (ix3 i o n)
    - Cert.Spec.one - A4 V c (ix3 i o n)

/-- A point of run `a` is a grid point. -/
theorem bound (a : Fin 4) (j : ℕ) (hj : j < 8) : 8 * a.val + j < cfg0.N := Nat.lt_of_lt_of_eq (by omega) N_0.symm

/-! ## The blocks of point 8·a + j at explicit coordinates -/

theorem blk0 (c : Dev nD) (a : Fin 4) (j : ℕ) (hj : j < 8) (h : 8 * a.val + j < cfg0.N) (r : Fin 64) (p : Fin 128) (q : Fin 64) :
    (R0.iblk (F := Ideal) V c 0 ⟨8 * a.val + j, h⟩ : Vec Ideal S64x128x64 .f32) (ix3 r p q)
      = A3 V c (ix3 (row j hj r) (col a p) q) :=
  (Val0Arr.iblk0_apply V c ⟨8 * a.val + j, h⟩ r p q).trans
    (congrArg (A3 V c)
      (ix3_congr (Fin.ext (by show 64 * ((8 * a.val + j) % 8) + r.val = 64 * j + r.val; omega))
        (Fin.ext (by show 128 * ((8 * a.val + j) / 8) + p.val = 128 * a.val + p.val; omega)) q))

theorem blk1 (c : Dev nD) (a : Fin 4) (j : ℕ) (hj : j < 8) (h : 8 * a.val + j < cfg0.N) (r : Fin 64) (p : Fin 128) (q : Fin 64) :
    (R0.iblk (F := Ideal) V c 1 ⟨8 * a.val + j, h⟩ : Vec Ideal S64x128x64 .f32) (ix3 r p q)
      = A4 V c (ix3 (row j hj r) (col a p) q) :=
  (Val0Arr.iblk1_apply V c ⟨8 * a.val + j, h⟩ r p q).trans
    (congrArg (A4 V c)
      (ix3_congr (Fin.ext (by show 64 * ((8 * a.val + j) % 8) + r.val = 64 * j + r.val; omega))
        (Fin.ext (by show 128 * ((8 * a.val + j) / 8) + p.val = 128 * a.val + p.val; omega)) q))

theorem blk2 (c : Dev nD) (a : Fin 4) (j : ℕ) (hj : j < 8) (h : 8 * a.val + j < cfg0.N) (r : Fin 64) (p : Fin 128) (q : Fin 64) :
    (R0.iblk (F := Ideal) V c 2 ⟨8 * a.val + j, h⟩ : Vec Ideal S64x128x64 .f32) (ix3 r p q)
      = A0 V c (ix3 (row j hj r) (col a p) q) :=
  (Val0Arr.iblk2_apply V c ⟨8 * a.val + j, h⟩ r p q).trans
    (congrArg (A0 V c)
      (ix3_congr (Fin.ext (by show 64 * ((8 * a.val + j) % 8) + r.val = 64 * j + r.val; omega))
        (Fin.ext (by show 128 * ((8 * a.val + j) / 8) + p.val = 128 * a.val + p.val; omega)) q))

/-! ## One point's contribution -/

/-- The feature accumulator's step at point `n = 8·a + j`, at (p, q): what it held plus the point's 64 coefficients. -/
theorem point_acc (c : Dev nD) (n : ℕ) (h : n < cfg0.N) (a : Fin 4) (j : ℕ) (hj : j < 8) (hn : n = 8 * a.val + j)
    (X : Vec Ideal S128x64 .f32) (p : Fin 128) (q : Fin 64) :
    k0_pay3 (R0.iblk (F := Ideal) V c 0 ⟨n, h⟩) (R0.iblk (F := Ideal) V c 1 ⟨n, h⟩) (R0.iblk (F := Ideal) V c 2 ⟨n, h⟩) X (ix2 p q)
      = X (ix2 p q) + ∑ r : Fin 64, coefTerm V c (row j hj r) (col a p) q := by
  subst hn
  refine (Pay.pay3 (R0.iblk (F := Ideal) V c 0 ⟨8 * a.val + j, h⟩) (R0.iblk (F := Ideal) V c 1 ⟨8 * a.val + j, h⟩)
    (R0.iblk (F := Ideal) V c 2 ⟨8 * a.val + j, h⟩) X p q).trans ?_
  refine congrArg (X (ix2 p q) + ·) ?_
  refine Finset.sum_congr rfl fun r _ => ?_
  rw [blk0 V c a j hj h r p q, blk1 V c a j hj h r p q, blk2 V c a j hj h r p q]
  rfl

/-- The divergence accumulator's step at point `n = 8·a + j`, at (u, s): what it held plus the point's 64 × 64 terms. -/
theorem point_kl (c : Dev nD) (n : ℕ) (h : n < cfg0.N) (a : Fin 4) (j : ℕ) (hj : j < 8) (hn : n = 8 * a.val + j)
    (X : Vec Ideal S1x128 .f32) (u : Fin 1) (s : Fin 128) :
    k0_pay4 (R0.iblk (F := Ideal) V c 0 ⟨n, h⟩) (R0.iblk (F := Ideal) V c 1 ⟨n, h⟩) X (ix2 u s)
      = X (ix2 u s) + ∑ r : Fin 64, ∑ m : Fin 64, divTerm V c (row j hj r) (col a s) m := by
  subst hn
  refine (Pay.pay4 (R0.iblk (F := Ideal) V c 0 ⟨8 * a.val + j, h⟩) (R0.iblk (F := Ideal) V c 1 ⟨8 * a.val + j, h⟩) X u s).trans ?_
  refine congrArg (X (ix2 u s) + ·) ?_
  refine Finset.sum_congr rfl fun r _ => Finset.sum_congr rfl fun m _ => ?_
  rw [blk0 V c a j hj h r s m, blk1 V c a j hj h r s m]
  rfl

/-! ## Moving between spellings of a point's number -/

theorem accAt_congr (c : Dev nD) {n n' : ℕ} (h : n = n') (hn : n < cfg0.N) (hn' : n' < cfg0.N) :
    Val0.accAt (F := Ideal) V c n hn = Val0.accAt (F := Ideal) V c n' hn' := by subst h; rfl
theorem klAt_congr (c : Dev nD) {n n' : ℕ} (h : n = n') (hn : n < cfg0.N) (hn' : n' < cfg0.N) :
    Val0.klAt (F := Ideal) V c n hn = Val0.klAt (F := Ideal) V c n' hn' := by subst h; rfl

/-! ## The run's first point and its later points -/

/-- At the first point of run `a` the feature accumulator holds the zero plus the point's coefficients. -/
theorem acc_start (c : Dev nD) (a : Fin 4) (p : Fin 128) (q : Fin 64) :
    Val0.accAt (F := Ideal) V c (8 * a.val + 0) (bound a 0 (by omega)) (ix2 p q)
      = 0 + ∑ r : Fin 64, coefTerm V c (row 0 (by omega) r) (col a p) q := by
  by_cases ha : a.val = 0
  · have h0' : 0 < cfg0.N := Nat.lt_of_lt_of_eq (by omega) N_0.symm
    refine (congrFun (accAt_congr V c (by omega : 8 * a.val + 0 = 0) (bound a 0 (by omega)) h0') (ix2 p q)).trans ?_
    refine (congrFun (Val0.accAt_zero (F := Ideal) V c h0') (ix2 p q)).trans ?_
    refine (point_acc V c 0 h0' a 0 (by omega) (by omega) (k0_pay1 (F := Ideal)) p q).trans ?_
    rw [Pay.pay1 p q]
  · have h' : (8 * a.val - 1) + 1 < cfg0.N := Nat.lt_of_lt_of_eq (by omega) N_0.symm
    refine (congrFun (accAt_congr V c (by omega : 8 * a.val + 0 = (8 * a.val - 1) + 1) (bound a 0 (by omega)) h') (ix2 p q)).trans ?_
    refine (congrFun (Val0.accAt_first (F := Ideal) V c (8 * a.val - 1) h' (by omega)) (ix2 p q)).trans ?_
    refine (point_acc V c ((8 * a.val - 1) + 1) h' a 0 (by omega) (by omega) (k0_pay1 (F := Ideal)) p q).trans ?_
    rw [Pay.pay1 p q]

/-- At a later point of the run it holds what the point before left plus the point's coefficients. -/
theorem acc_step (c : Dev nD) (a : Fin 4) (j : ℕ) (hj : j + 1 < 8) (p : Fin 128) (q : Fin 64) :
    Val0.accAt (F := Ideal) V c (8 * a.val + (j + 1)) (bound a (j + 1) hj) (ix2 p q)
      = Val0.accAt (F := Ideal) V c (8 * a.val + j) (bound a j (by omega)) (ix2 p q)
        + ∑ r : Fin 64, coefTerm V c (row (j + 1) hj r) (col a p) q := by
  have h' : (8 * a.val + j) + 1 < cfg0.N := Nat.lt_of_lt_of_eq (by omega) N_0.symm
  refine (congrFun (accAt_congr V c (by omega : 8 * a.val + (j + 1) = (8 * a.val + j) + 1) (bound a (j + 1) hj) h') (ix2 p q)).trans ?_
  refine (congrFun (Val0.accAt_next (F := Ideal) V c (8 * a.val + j) h' (by omega)) (ix2 p q)).trans ?_
  exact point_acc V c ((8 * a.val + j) + 1) h' a (j + 1) hj (by omega)
    (Val0.accAt (F := Ideal) V c (8 * a.val + j) (Nat.lt_of_succ_lt h')) p q

/-- The divergence accumulator at the first point of run `a`. -/
theorem kl_start (c : Dev nD) (a : Fin 4) (u : Fin 1) (s : Fin 128) :
    Val0.klAt (F := Ideal) V c (8 * a.val + 0) (bound a 0 (by omega)) (ix2 u s)
      = 0 + ∑ r : Fin 64, ∑ m : Fin 64, divTerm V c (row 0 (by omega) r) (col a s) m := by
  by_cases ha : a.val = 0
  · have h0' : 0 < cfg0.N := Nat.lt_of_lt_of_eq (by omega) N_0.symm
    refine (congrFun (klAt_congr V c (by omega : 8 * a.val + 0 = 0) (bound a 0 (by omega)) h0') (ix2 u s)).trans ?_
    refine (congrFun (Val0.klAt_zero (F := Ideal) V c h0') (ix2 u s)).trans ?_
    refine (point_kl V c 0 h0' a 0 (by omega) (by omega) (k0_pay2 (F := Ideal)) u s).trans ?_
    rw [Pay.pay2 u s]
  · have h' : (8 * a.val - 1) + 1 < cfg0.N := Nat.lt_of_lt_of_eq (by omega) N_0.symm
    refine (congrFun (klAt_congr V c (by omega : 8 * a.val + 0 = (8 * a.val - 1) + 1) (bound a 0 (by omega)) h') (ix2 u s)).trans ?_
    refine (congrFun (Val0.klAt_first (F := Ideal) V c (8 * a.val - 1) h' (by omega)) (ix2 u s)).trans ?_
    refine (point_kl V c ((8 * a.val - 1) + 1) h' a 0 (by omega) (by omega) (k0_pay2 (F := Ideal)) u s).trans ?_
    rw [Pay.pay2 u s]

/-- The divergence accumulator at a later point of the run. -/
theorem kl_step (c : Dev nD) (a : Fin 4) (j : ℕ) (hj : j + 1 < 8) (u : Fin 1) (s : Fin 128) :
    Val0.klAt (F := Ideal) V c (8 * a.val + (j + 1)) (bound a (j + 1) hj) (ix2 u s)
      = Val0.klAt (F := Ideal) V c (8 * a.val + j) (bound a j (by omega)) (ix2 u s)
        + ∑ r : Fin 64, ∑ m : Fin 64, divTerm V c (row (j + 1) hj r) (col a s) m := by
  have h' : (8 * a.val + j) + 1 < cfg0.N := Nat.lt_of_lt_of_eq (by omega) N_0.symm
  refine (congrFun (klAt_congr V c (by omega : 8 * a.val + (j + 1) = (8 * a.val + j) + 1) (bound a (j + 1) hj) h') (ix2 u s)).trans ?_
  refine (congrFun (Val0.klAt_next (F := Ideal) V c (8 * a.val + j) h' (by omega)) (ix2 u s)).trans ?_
  exact point_kl V c ((8 * a.val + j) + 1) h' a (j + 1) hj (by omega)
    (Val0.klAt (F := Ideal) V c (8 * a.val + j) (Nat.lt_of_succ_lt h')) u s

/-! ## The run's sums -/

/-- The feature accumulator along run `a` as a sequence, and the points' contributions. -/
def accF (c : Dev nD) (a : Fin 4) (p : Fin 128) (q : Fin 64) (j : ℕ) : EReal :=
  if hj : j < 8 then Val0.accAt (F := Ideal) V c (8 * a.val + j) (bound a j hj) (ix2 p q) else 0
def accP (c : Dev nD) (a : Fin 4) (p : Fin 128) (q : Fin 64) (j : ℕ) : EReal :=
  if hj : j < 8 then ∑ r : Fin 64, coefTerm V c (row j hj r) (col a p) q else 0
def klF (c : Dev nD) (a : Fin 4) (u : Fin 1) (s : Fin 128) (j : ℕ) : EReal :=
  if hj : j < 8 then Val0.klAt (F := Ideal) V c (8 * a.val + j) (bound a j hj) (ix2 u s) else 0
def klP (c : Dev nD) (a : Fin 4) (s : Fin 128) (j : ℕ) : EReal :=
  if hj : j < 8 then ∑ r : Fin 64, ∑ m : Fin 64, divTerm V c (row j hj r) (col a s) m else 0

theorem accF_lt (c : Dev nD) (a : Fin 4) (p : Fin 128) (q : Fin 64) (j : ℕ) (hj : j < 8) :
    accF V c a p q j = Val0.accAt (F := Ideal) V c (8 * a.val + j) (bound a j hj) (ix2 p q) := dif_pos hj
theorem accP_lt (c : Dev nD) (a : Fin 4) (p : Fin 128) (q : Fin 64) (j : ℕ) (hj : j < 8) :
    accP V c a p q j = ∑ r : Fin 64, coefTerm V c (row j hj r) (col a p) q := dif_pos hj
theorem klF_lt (c : Dev nD) (a : Fin 4) (u : Fin 1) (s : Fin 128) (j : ℕ) (hj : j < 8) :
    klF V c a u s j = Val0.klAt (F := Ideal) V c (8 * a.val + j) (bound a j hj) (ix2 u s) := dif_pos hj
theorem klP_lt (c : Dev nD) (a : Fin 4) (s : Fin 128) (j : ℕ) (hj : j < 8) :
    klP V c a s j = ∑ r : Fin 64, ∑ m : Fin 64, divTerm V c (row j hj r) (col a s) m := dif_pos hj

/-- After the last point of run `a` the feature accumulator holds, at (p, q), the coefficients of output `128·a + p`,
    centre `q` summed over all 512 features. -/
theorem acc_sum (c : Dev nD) (a : Fin 4) (p : Fin 128) (q : Fin 64) :
    Val0.accAt (F := Ideal) V c (8 * a.val + 7) (bound a 7 (by omega)) (ix2 p q)
      = ∑ j : Fin 8, ∑ r : Fin 64, coefTerm V c (row j.val j.isLt r) (col a p) q := by
  have h0 : accF V c a p q 0 = 0 + accP V c a p q 0 := by
    rw [accF_lt V c a p q 0 (by omega), accP_lt V c a p q 0 (by omega)]
    exact acc_start V c a p q
  have hs : ∀ j < 7, accF V c a p q (j + 1) = accF V c a p q j + accP V c a p q (j + 1) := fun j hj => by
    rw [accF_lt V c a p q (j + 1) (by omega), accF_lt V c a p q j (by omega), accP_lt V c a p q (j + 1) (by omega)]
    exact acc_step V c a j (by omega) p q
  have e := Cert.Algebra.run_eight (accF V c a p q) (accP V c a p q) h0 hs
  rw [accF_lt V c a p q 7 (by omega)] at e
  refine e.trans (Finset.sum_congr rfl fun j _ => ?_)
  exact accP_lt V c a p q j.val j.isLt

/-- After the last point of run `a` the divergence accumulator holds, at column `s`, the divergence terms of output
    `128·a + s` summed over all 512 features and the 64 centres. -/
theorem kl_sum (c : Dev nD) (a : Fin 4) (u : Fin 1) (s : Fin 128) :
    Val0.klAt (F := Ideal) V c (8 * a.val + 7) (bound a 7 (by omega)) (ix2 u s)
      = ∑ j : Fin 8, ∑ r : Fin 64, ∑ m : Fin 64, divTerm V c (row j.val j.isLt r) (col a s) m := by
  have h0 : klF V c a u s 0 = 0 + klP V c a s 0 := by
    rw [klF_lt V c a u s 0 (by omega), klP_lt V c a s 0 (by omega)]
    exact kl_start V c a u s
  have hs : ∀ j < 7, klF V c a u s (j + 1) = klF V c a u s j + klP V c a s (j + 1) := fun j hj => by
    rw [klF_lt V c a u s (j + 1) (by omega), klF_lt V c a u s j (by omega), klP_lt V c a s (j + 1) (by omega)]
    exact kl_step V c a j (by omega) u s
  have e := Cert.Algebra.run_eight (klF V c a u s) (klP V c a s) h0 hs
  rw [klF_lt V c a u s 7 (by omega)] at e
  refine e.trans (Finset.sum_congr rfl fun j _ => ?_)
  exact klP_lt V c a s j.val j.isLt

/-- The same with every coordinate spelt out. -/
theorem acc_run (c : Dev nD) (a : Fin 4) (p : Fin 128) (q : Fin 64) :
    Val0.accAt (F := Ideal) V c (8 * a.val + 7) (Nat.lt_of_lt_of_eq (by omega) N_0.symm) (ix2 p q)
      = ∑ j : Fin 8, ∑ r : Fin 64,
          (A3 V c (ix3 ⟨64 * j.val + r.val, by omega⟩ ⟨128 * a.val + p.val, by omega⟩ q)
            + A0 V c (ix3 ⟨64 * j.val + r.val, by omega⟩ ⟨128 * a.val + p.val, by omega⟩ q)
              * Ideal.exp (Cert.Spec.half
                  * A4 V c (ix3 ⟨64 * j.val + r.val, by omega⟩ ⟨128 * a.val + p.val, by omega⟩ q))) :=
  acc_sum V c a p q

theorem kl_run (c : Dev nD) (a : Fin 4) (s : Fin 128) :
    Val0.klAt (F := Ideal) V c (8 * a.val + 7) (Nat.lt_of_lt_of_eq (by omega) N_0.symm) (ix2 (0 : Fin 1) s)
      = ∑ j : Fin 8, ∑ r : Fin 64, ∑ m : Fin 64,
          (Ideal.exp (A4 V c (ix3 ⟨64 * j.val + r.val, by omega⟩ ⟨128 * a.val + s.val, by omega⟩ m))
            + A3 V c (ix3 ⟨64 * j.val + r.val, by omega⟩ ⟨128 * a.val + s.val, by omega⟩ m)
              * A3 V c (ix3 ⟨64 * j.val + r.val, by omega⟩ ⟨128 * a.val + s.val, by omega⟩ m)
            - Cert.Spec.one
            - A4 V c (ix3 ⟨64 * j.val + r.val, by omega⟩ ⟨128 * a.val + s.val, by omega⟩ m)) :=
  kl_sum V c a 0 s

/-! ## The two result arrays -/

/-- Entry (o, n) of the [512,64] result: the coefficients of output `o`, centre `n`, summed over the 512 features. -/
theorem mix_sum (c : Dev nD) (o : Fin 512) (n : Fin 64) :
    (R0.dat0 (F := Ideal) V c).arrAt 3 cfg0.N (ix2 o n) = ∑ j : Fin 8, ∑ r : Fin 64, coefTerm V c (row j.val j.isLt r) o n := by
  have hb6 : (8 * (o.val / 128) + 6) + 1 < cfg0.N := Nat.lt_of_lt_of_eq (by omega) N_0.symm
  have hb7 : 8 * (o.val / 128) + 7 < cfg0.N := Nat.lt_of_lt_of_eq (by omega) N_0.symm
  refine (Val0Arr.out3_array V c o n).trans ?_
  refine (congrFun (congrArg (fun z : R0.Four (F := Ideal) => z.1)
    (Val0Arr.outsAt_congr V c (by omega : 8 * (o.val / 128) + 7 = (8 * (o.val / 128) + 6) + 1) hb7 hb6)) _).trans ?_
  refine (congrFun (Val0.outsAt_outs (F := Ideal) V c (8 * (o.val / 128) + 6) hb6 (by omega)).1 _).trans ?_
  refine (congrFun (accAt_congr V c (by omega : (8 * (o.val / 128) + 6) + 1 = 8 * (o.val / 128) + 7) hb6 hb7) _).trans ?_
  refine (acc_sum V c ⟨o.val / 128, by omega⟩ ⟨o.val % 128, Nat.mod_lt _ (by decide)⟩ n).trans ?_
  rw [col_divmod o]

/-- Entry o of the [1,512] result: the divergence terms of output `o` summed over the 512 features and 64 centres. -/
theorem kl_sum_array (c : Dev nD) (o : Fin 512) :
    (R0.dat0 (F := Ideal) V c).arrAt 4 cfg0.N (ix2 (0 : Fin 1) o)
      = ∑ j : Fin 8, ∑ r : Fin 64, ∑ m : Fin 64, divTerm V c (row j.val j.isLt r) o m := by
  have hb6 : (8 * (o.val / 128) + 6) + 1 < cfg0.N := Nat.lt_of_lt_of_eq (by omega) N_0.symm
  have hb7 : 8 * (o.val / 128) + 7 < cfg0.N := Nat.lt_of_lt_of_eq (by omega) N_0.symm
  refine (Val0Arr.out4_array V c o).trans ?_
  refine (congrFun (congrArg (fun z : R0.Four (F := Ideal) => z.2.1)
    (Val0Arr.outsAt_congr V c (by omega : 8 * (o.val / 128) + 7 = (8 * (o.val / 128) + 6) + 1) hb7 hb6)) _).trans ?_
  refine (congrFun (Val0.outsAt_outs (F := Ideal) V c (8 * (o.val / 128) + 6) hb6 (by omega)).2 _).trans ?_
  refine (congrFun (klAt_congr V c (by omega : (8 * (o.val / 128) + 6) + 1 = 8 * (o.val / 128) + 7) hb6 hb7) _).trans ?_
  refine (kl_sum V c ⟨o.val / 128, by omega⟩ 0 ⟨o.val % 128, Nat.mod_lt _ (by decide)⟩).trans ?_
  rw [col_divmod o]

/-- The same with every coordinate spelt out. -/
theorem mix_array (c : Dev nD) (o : Fin 512) (n : Fin 64) :
    (R0.dat0 (F := Ideal) V c).arrAt 3 cfg0.N (ix2 o n)
      = ∑ j : Fin 8, ∑ r : Fin 64,
          (A3 V c (ix3 ⟨64 * j.val + r.val, by omega⟩ o n)
            + A0 V c (ix3 ⟨64 * j.val + r.val, by omega⟩ o n)
              * Ideal.exp (Cert.Spec.half * A4 V c (ix3 ⟨64 * j.val + r.val, by omega⟩ o n))) :=
  mix_sum V c o n

theorem kl_array (c : Dev nD) (o : Fin 512) :
    (R0.dat0 (F := Ideal) V c).arrAt 4 cfg0.N (ix2 (0 : Fin 1) o)
      = ∑ j : Fin 8, ∑ r : Fin 64, ∑ m : Fin 64,
          (Ideal.exp (A4 V c (ix3 ⟨64 * j.val + r.val, by omega⟩ o m))
            + A3 V c (ix3 ⟨64 * j.val + r.val, by omega⟩ o m)
              * A3 V c (ix3 ⟨64 * j.val + r.val, by omega⟩ o m)
            - Cert.Spec.one
            - A4 V c (ix3 ⟨64 * j.val + r.val, by omega⟩ o m)) :=
  kl_sum_array V c o

end Cert.KernelIdeal.Val0Sum

end
-- ==== Proof.KI.Bridge.lean ====
/-
  From the kernels' stored values, written index by index, to the specification.

  * One row block of the main kernel: with the block of x, the centres' squared norms, the log-widths and the summed
    coefficients read as the specification's quantities, the stored value at (r, o) is the specification's first
    result at row 1024·t + r. The step with content is the expanded square: on FINITE rows
    max (Σ x² + Σ c² − 2 Σ x·c) 0 = Σ (x − c)².
  * The coefficients summed over the 512 input features in 8 blocks of 64 are the specification's summed coefficients.
  * The divergence terms collected per output feature over the same 8 blocks of 64, summed over the output features
    and halved, are the specification's second result.
  * A running total over a run of eight points holds the sum of the eight contributions.
-/
import proofs.«122315_j80719615361567_2_alg».proof.Proof.KI.PayIdeal
import proofs.«122315_j80719615361567_2_alg».proof.Proof.Algebra
import proofs.«122315_j80719615361567_2_alg».proof.Proof.Spec

noncomputable section

namespace Cert.KernelIdeal.Bridge

open Idealize.ShloMosaic Idealize.ShloMosaic.ValueIdx Cert.KernelIdeal

variable (x : Vec Ideal S4096x512 .f32) (c : Vec Ideal S64x512 .f32) (ls : Vec Ideal S64 .f32)
  (cm clv : Vec Ideal S512x512x64 .f32) (bw : Vec Ideal S512x512 .f32) (ep : Vec Ideal S1x512x512x64 .f32)

/-- The main kernel's stored value on row block t, at (r, o), is the specification's first result at
    (1024·t + r, o): the block of x is rows 1024·t … of x, the row v2 holds the centres' squared norms, v4 the
    log-widths, v6 the summed coefficients (divided by the literal 1). On finite x and centres the clipped expanded
    square is the squared distance; 0 − d is −d; 2·e·e is 2·(e·e); division by 1 is the identity. -/
theorem out_bridge (hx : ∀ i, ∃ r : ℝ, x i = (r : EReal)) (hc : ∀ i, ∃ r : ℝ, c i = (r : EReal))
    (t : Fin 4) (v0 : Vec Ideal S1024x512 .f32)
    (hv0 : ∀ (r : Fin 1024) (k : Fin 512), v0 (ix2 r k) = x (ix2 ⟨1024 * t.val + r.val, by omega⟩ k))
    (v2 v4 : Vec Ideal S1x64 .f32)
    (hv2 : ∀ n : Fin 64, v2 (ix2 (0 : Fin 1) n) = 0 + ∑ i : Fin 512, c (ix2 n i) * c (ix2 n i))
    (hv4 : ∀ n : Fin 64, v4 (ix2 (0 : Fin 1) n) = ls (ix1 n))
    (v6 : Vec Ideal S512x64 .f32)
    (hv6 : ∀ (o : Fin 512) (n : Fin 64), v6 (ix2 o n) = Ideal.div (Cert.Spec.mix cm clv ep o n) Cert.Spec.one)
    (r : Fin 1024) (o : Fin 512) :
    Gen.k1_pay1 (Gen.k1_pay2 v0) (Gen.k1_pay3 v0 c v2 v4 v6) (Gen.k1_pay4 bw)
        (constant (F := Ideal) S1024x512 .f32 0x00000000#32) (ix2 r o)
      = Cert.Spec.out x c ls cm clv bw ep (ix2 ⟨1024 * t.val + r.val, by omega⟩ o) := by
  have hR : 1024 * t.val + r.val < 4096 := by omega
  refine (Pay.main_val v0 c v2 v4 v6 bw r o).trans ?_
  unfold Cert.Spec.out
  refine congrArg₂ (· + ·) (Finset.sum_congr rfl fun n _ => ?_) (Finset.sum_congr rfl fun k _ => ?_)
  · have e1 : ∑ i : Fin 512, v0 (ix2 r i) * v0 (ix2 r i)
        = ∑ i : Fin 512, x (ix2 ⟨1024 * t.val + r.val, hR⟩ i) * x (ix2 ⟨1024 * t.val + r.val, hR⟩ i) :=
      Finset.sum_congr rfl fun i _ => by rw [hv0 r i]
    have e2 : ∑ i : Fin 512, v0 (ix2 r i) * c (ix2 n i)
        = ∑ i : Fin 512, x (ix2 ⟨1024 * t.val + r.val, hR⟩ i) * c (ix2 n i) :=
      Finset.sum_congr rfl fun i _ => by rw [hv0 r i]
    have hd := Cert.Algebra.dist_law' (fun i => x (ix2 ⟨1024 * t.val + r.val, hR⟩ i)) (fun i => c (ix2 n i))
      (fun i => hx _) (fun i => hc _)
    rw [hv6 o n, Cert.Algebra.div_one, hv2 n, hv4 n, e1, e2, zero_add, hd, Cert.Algebra.zero_sub_eq,
      Cert.Algebra.width_assoc]
    rfl
  · rw [hv0 r k]

/-- The coefficients summed over the input features in 8 blocks of 64 are the summed coefficients. -/
theorem mix_bridge (o : Fin 512) (n : Fin 64) :
    ∑ j : Fin 8, ∑ r : Fin 64, Cert.Spec.coef cm clv ep ⟨64 * j.val + r.val, by omega⟩ o n
      = Cert.Spec.mix cm clv ep o n := by
  unfold Cert.Spec.mix
  rw [Cert.Algebra.sum_8x64 (fun i => Cert.Spec.coef cm clv ep i o n)]
  refine Finset.sum_congr rfl fun j _ => Finset.sum_congr rfl fun r _ => ?_
  exact congrArg (fun i => Cert.Spec.coef cm clv ep i o n)
    (Fin.ext (show 64 * j.val + r.val = j.val * 64 + r.val by omega))

/-- The divergence terms collected per output feature o over the input features in 8 blocks of 64 and over the
    centres, summed over o from a zero initial value and halved, are the specification's second result: the order of
    the two outer sums is exchanged. -/
theorem kl_bridge (KL : Fin 512 → EReal)
    (hKL : ∀ o : Fin 512, KL o = ∑ j : Fin 8, ∑ r : Fin 64, ∑ n : Fin 64,
      Cert.Spec.klTerm cm clv ⟨64 * j.val + r.val, by omega⟩ o n) :
    Cert.Spec.half * (0 + ∑ o : Fin 512, KL o) = Cert.Spec.kl cm clv ix0 := by
  unfold Cert.Spec.kl
  rw [zero_add]
  refine congrArg (Cert.Spec.half * ·) ?_
  calc ∑ o : Fin 512, KL o
      = ∑ o : Fin 512, ∑ i : Fin 512, ∑ n : Fin 64, Cert.Spec.klTerm cm clv i o n :=
        Finset.sum_congr rfl fun o _ => by
          rw [hKL o, Cert.Algebra.sum_8x64 (fun i => ∑ n : Fin 64, Cert.Spec.klTerm cm clv i o n)]
          exact Finset.sum_congr rfl fun j _ => Finset.sum_congr rfl fun r _ =>
            congrArg (fun i => ∑ n : Fin 64, Cert.Spec.klTerm cm clv i o n)
              (Fin.ext (show 64 * j.val + r.val = j.val * 64 + r.val by omega))
    _ = ∑ i : Fin 512, ∑ o : Fin 512, ∑ n : Fin 64, Cert.Spec.klTerm cm clv i o n := Finset.sum_comm

/-- A quantity that starts as zero plus the first contribution and adds one contribution at each of the next seven
    points holds, at the eighth point, the sum of the eight contributions. -/
theorem accum_eight {M : Type*} [AddCommMonoid M] (f P : ℕ → M) (h0 : f 0 = 0 + P 0)
    (hs : ∀ j, j < 7 → f (j + 1) = f j + P (j + 1)) : f 7 = ∑ j : Fin 8, P j.val :=
  Cert.Algebra.run_eight f P h0 hs

end Cert.KernelIdeal.Bridge

end
-- ==== Proof.Finite.lean ====
/-
  The precondition says of each of the seven argument arrays that every entry's absolute value is below +∞.
  Read back: the conjunction splits at the scalar index; each "all" is a reduction by "and" from 1 into one
  index, so every compared entry gave 1; the word 0x7F800000 denotes +∞; and an extended real x with
  max x (−x) < +∞ is neither +∞ nor −∞, hence a real.
-/
import proofs.«122315_j80719615361567_2_alg».proof.Defs
import Idealize.ShloMosaic.Lib.ReduceAll
import Idealize.ShloMosaic.Lib.ValueIdx
import Idealize.ShloMosaic.PureOps.Ideal.Laws

noncomputable section

namespace Cert.Finite

open Idealize.ShloMosaic Idealize.SL.Sem

variable [hP : Cert.Pre_finite_inputs.Facts]

/-- The scalar shape has one index. -/
instance : Subsingleton (Cert.Pre_finite_inputs.S_).Idx := ⟨fun a b => funext fun d => d.elim0⟩

/-- The word 0x7F800000 denotes +∞. -/
private theorem inf_word : Ideal.ofBits .f32 0x7F800000#32 = (⊤ : EReal) := by
  simp [Ideal.ofBits, Ideal.ieee]

/-- An extended real whose absolute value compares below the +∞ word is a real. -/
private theorem real_of_abs_lt (y : EReal)
    (h : Ideal.cmp .olt (max y (-y)) (Ideal.ofBits .f32 0x7F800000#32) = 1#1) : ∃ r : ℝ, y = (r : EReal) := by
  rw [inf_word] at h
  induction y using EReal.rec with
  | bot => exact absurd h (by simp [Ideal.cmp])
  | coe r => exact ⟨r, rfl⟩
  | top => exact absurd h (by simp [Ideal.cmp])

open Cert.Pre_finite_inputs in
/-- The precondition's value at the scalar index being 1 gives every entry of each argument array as a real. -/
theorem all_real (a0 : FVec Ideal S4096x512 .f32) (a1 : FVec Ideal S64x512 .f32) (a2 : FVec Ideal S64 .f32)
    (a3 a4 : FVec Ideal S512x512x64 .f32) (a5 : FVec Ideal S512x512 .f32) (a6 : FVec Ideal S1x512x512x64 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  have e := congrFun h ValueIdx.ix0
  dsimp only [Cert.Pre_finite_inputs.fn, Cert.Pre_finite_inputs.fn_part1] at e
  simp only [andi, IntOp.andi_eq_one] at e
  obtain ⟨⟨⟨⟨⟨⟨h0, h1⟩, h2⟩, h3⟩, h4⟩, h5⟩, h6⟩ := e
  exact ⟨fun i => real_of_abs_lt (a0 i) (Host.reduce_andi_all _ _ _ _ _ h0 i),
    fun i => real_of_abs_lt (a1 i) (Host.reduce_andi_all _ _ _ _ _ h1 i),
    fun i => real_of_abs_lt (a2 i) (Host.reduce_andi_all _ _ _ _ _ h2 i),
    fun i => real_of_abs_lt (a3 i) (Host.reduce_andi_all _ _ _ _ _ h3 i),
    fun i => real_of_abs_lt (a4 i) (Host.reduce_andi_all _ _ _ _ _ h4 i),
    fun i => real_of_abs_lt (a5 i) (Host.reduce_andi_all _ _ _ _ _ h5 i),
    fun i => real_of_abs_lt (a6 i) (Host.reduce_andi_all _ _ _ _ _ h6 i)⟩

section AtLaunch
open Cert.KernelIdeal

variable (m : (ℓ : Loc nD τ sig) → Buf (Elt Ideal) ℓ) (h : Cert.Pre_KernelIdeal m) (c : Dev nD)
include h

/-- Every entry of the first argument array is a real, on every core. -/
theorem x_real (i : S4096x512.Idx) : ∃ r : ℝ, m ((c.tc : Thread nD τ).loc main_arg0) i = (r : EReal) :=
  (all_real _ _ _ _ _ _ _ (h c)).1 i

/-- Every entry of the second argument array (the centres) is a real, on every core. -/
theorem centers_real (i : S64x512.Idx) : ∃ r : ℝ, m ((c.tc : Thread nD τ).loc main_arg1) i = (r : EReal) :=
  (all_real _ _ _ _ _ _ _ (h c)).2.1 i

/-- All seven argument arrays hold only reals, on every core. -/
theorem args_real :
    (∀ i, ∃ r : ℝ, m ((c.tc : Thread nD τ).loc main_arg0) i = (r : EReal))
    ∧ (∀ i, ∃ r : ℝ, m ((c.tc : Thread nD τ).loc main_arg1) i = (r : EReal))
    ∧ (∀ i, ∃ r : ℝ, m ((c.tc : Thread nD τ).loc main_arg2) i = (r : EReal))
    ∧ (∀ i, ∃ r : ℝ, m ((c.tc : Thread nD τ).loc main_arg3) i = (r : EReal))
    ∧ (∀ i, ∃ r : ℝ, m ((c.tc : Thread nD τ).loc main_arg4) i = (r : EReal))
    ∧ (∀ i, ∃ r : ℝ, m ((c.tc : Thread nD τ).loc main_arg5) i = (r : EReal))
    ∧ (∀ i, ∃ r : ℝ, m ((c.tc : Thread nD τ).loc main_arg6) i = (r : EReal)) :=
  all_real _ _ _ _ _ _ _ (h c)

end AtLaunch

end Cert.Finite

end
-- ==== Proof.KI.Final.lean ====
/-
  The two results of the program, as the run leaves them, are the specification of the launch memory.

  The run's last boundary holds the first result at what the main pass's write-backs leave and the second at what the
  second host stretch computes from the coefficient pass's divergence row. Walking the boundaries back: the coefficient
  pass's [512,64] output is, entry by entry, the sum over the run's 8 blocks of 64 features of the sampled
  coefficients, that is the sum over all 512 features (the specification's mix); divided by the sample count 1 it is
  what the main pass mixes the radial basis with; the centres' squared norms and the log-widths reach the main pass as
  rows; and on real inputs ‖x‖² + ‖c‖² − 2·x·c is the squared distance, which is not negative, so the clamp at zero
  does nothing. The divergence row summed and halved is the triple sum of the specification, regrouped.
-/
import proofs.«122315_j80719615361567_2_alg».proof.Defs
import proofs.«122315_j80719615361567_2_alg».proof.Proof.KI.Run
import proofs.«122315_j80719615361567_2_alg».proof.Proof.KI.Fold
import proofs.«122315_j80719615361567_2_alg».proof.Proof.KI.Val1
import proofs.«122315_j80719615361567_2_alg».proof.Proof.KI.Val0Sum
import proofs.«122315_j80719615361567_2_alg».proof.Proof.KI.Bridge
import proofs.«122315_j80719615361567_2_alg».proof.Proof.Finite
import proofs.«122315_j80719615361567_2_alg».proof.Proof.Spec

set_option maxRecDepth 16384

noncomputable section

namespace Cert.KernelIdeal.Final

open Cert.KernelIdeal Cert.KernelIdeal.Gen Cert.KernelIdeal.Whole
open Idealize.ShloMosaic Idealize.ShloMosaic.TcCoe Idealize.SL.Sem Idealize.ShloMosaic.ValueIdx

variable [hP : Cert.Pre_finite_inputs.Facts]
variable (m : (ℓ : Loc nD τ sig) → Buf (Elt Ideal) ℓ) (ρ : Dev nD → PrngReg)

/-- The coefficient pass's first output is the specification's mix of the launch memory's coefficient arrays. -/
theorem mix_eq (c : Dev nD) (o : Fin 512) (n : Fin 64) :
    ((R0.dat0 (F := Ideal) (V1 m ρ) c).arrAt 3 cfg0.N : S512x64.Idx → EReal) (ix2 o n) = Cert.Spec.mix (m ((c : Thread nD τ).loc main_arg3)) (m ((c : Thread nD τ).loc main_arg4)) (m ((c : Thread nD τ).loc main_arg6)) o n := by
  have e3 : Val0Sum.A3 (V1 m ρ) c = (m ((c : Thread nD τ).loc main_arg3)) := Fold.v1_arg3 m ρ c
  have e4 : Val0Sum.A4 (V1 m ρ) c = (m ((c : Thread nD τ).loc main_arg4)) := Fold.v1_arg4 m ρ c
  have key : (∑ j : Fin 8, ∑ r : Fin 64, Val0Sum.coefTerm (V1 m ρ) c (Val0Sum.row j.val j.isLt r) o n)
      = ∑ j : Fin 8, ∑ r : Fin 64, Cert.Spec.coef (m ((c : Thread nD τ).loc main_arg3)) (m ((c : Thread nD τ).loc main_arg4)) (m ((c : Thread nD τ).loc main_arg6)) ⟨64 * j.val + r.val, by omega⟩ o n :=
    Finset.sum_congr rfl fun j _ => Finset.sum_congr rfl fun r _ => by
      have e0 : Val0Sum.A0 (V1 m ρ) c (ix3 (Val0Sum.row j.val j.isLt r) o n)
          = (m ((c : Thread nD τ).loc main_arg6)) (ix4 (0 : Fin 1) (Val0Sum.row j.val j.isLt r) o n) := Fold.v1_v0 m ρ c (Val0Sum.row j.val j.isLt r) o n
      unfold Val0Sum.coefTerm
      rw [e3, e4, e0]
      rfl
  exact (Val0Sum.mix_sum (V1 m ρ) c o n).trans (key.trans (Bridge.mix_bridge (m ((c : Thread nD τ).loc main_arg3)) (m ((c : Thread nD τ).loc main_arg4)) (m ((c : Thread nD τ).loc main_arg6)) o n))

/-- The second result. -/
theorem kl_eq (c : Dev nD) :
    (W4 m ρ c (Proc.devRef .tc main_v5) : S_.Idx → EReal) ix0 = Cert.Spec.kl (m ((c : Thread nD τ).loc main_arg3)) (m ((c : Thread nD τ).loc main_arg4)) ix0 := by
  have e3 : Val0Sum.A3 (V1 m ρ) c = (m ((c : Thread nD τ).loc main_arg3)) := Fold.v1_arg3 m ρ c
  have e4 : Val0Sum.A4 (V1 m ρ) c = (m ((c : Thread nD τ).loc main_arg4)) := Fold.v1_arg4 m ρ c
  have key2 : ∀ o : Fin 512, (∑ j : Fin 8, ∑ r : Fin 64, ∑ n : Fin 64, Val0Sum.divTerm (V1 m ρ) c (Val0Sum.row j.val j.isLt r) o n)
      = ∑ j : Fin 8, ∑ r : Fin 64, ∑ n : Fin 64, Cert.Spec.klTerm (m ((c : Thread nD τ).loc main_arg3)) (m ((c : Thread nD τ).loc main_arg4)) ⟨64 * j.val + r.val, by omega⟩ o n := fun o =>
    Finset.sum_congr rfl fun j _ => Finset.sum_congr rfl fun r _ => Finset.sum_congr rfl fun n _ => by
      unfold Val0Sum.divTerm
      rw [e3, e4]
      rfl
  have key : ∀ o : Fin 512, Fold.klRow m ρ c (ix2 (0 : Fin 1) o)
      = ∑ j : Fin 8, ∑ r : Fin 64, ∑ n : Fin 64, Cert.Spec.klTerm (m ((c : Thread nD τ).loc main_arg3)) (m ((c : Thread nD τ).loc main_arg4)) ⟨64 * j.val + r.val, by omega⟩ o n := fun o =>
    (Val0Sum.kl_sum_array (V1 m ρ) c o).trans (key2 o)
  exact (Fold.w4_v5 m ρ c).trans
    (Bridge.kl_bridge (m ((c : Thread nD τ).loc main_arg3)) (m ((c : Thread nD τ).loc main_arg4)) (fun o => Fold.klRow m ρ c (ix2 (0 : Fin 1) o)) key)

/-- The first result, index by index; here the precondition is used: `x` and the centres hold reals. -/
theorem out_eq (hpre : Cert.Pre_KernelIdeal m) (c : Dev nD) (b : Fin 4096) (o : Fin 512) :
    (W4 m ρ c (Proc.devRef .tc main_v10) : S4096x512.Idx → EReal) (ix2 b o) = Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 b o) := by
  have hb : b.val / 1024 < 4 := by have := b.isLt; omega
  rw [Fold.w4_v10 m ρ c, Val1.out_array (V3 m ρ) c b o, Fold.v3_arg0 m ρ c, Fold.v3_arg1 m ρ c, Fold.v3_arg5 m ρ c]
  refine (Bridge.out_bridge (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (Cert.Finite.x_real m hpre c) (Cert.Finite.centers_real m hpre c) ⟨b.val / 1024, hb⟩
    (Val1.rowBlock (m ((c : Thread nD τ).loc main_arg0)) ⟨b.val / 1024, hb⟩) (fun r k => rfl)
    (V3 m ρ c main_v9) (V3 m ρ c main_v6) (Fold.v3_v9 m ρ c) (Fold.v3_v6 m ρ c)
    (V3 m ρ c main_v3) (fun o n => (Fold.v3_v3 m ρ c o n).trans (congrArg (fun z => Ideal.div z Cert.Spec.one) (mix_eq m ρ c o n)))
    ⟨b.val % 1024, Nat.mod_lt _ (by decide)⟩ o).trans ?_
  refine congrArg (Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (congrArg (fun z => ix2 z o) (Fin.ext ?_))
  show 1024 * (b.val / 1024) + b.val % 1024 = b.val
  exact Nat.div_add_mod b.val 1024

/-- THE RUN WITH ITS VALUES: under the precondition every weakly fair execution terminates, the two results end at the
    specification of the launch memory, and the seven arguments end as launched. -/
theorem run_values (hpre : Cert.Pre_KernelIdeal m) :
    θ_run defs (onTc (τ := τ) (main (F := Ideal))) ⟨m, fun _ => 0, ρ⟩ (fun r => ∀ c : Dev nD,
      r.2.mem ((c.tc : Thread nD τ).loc main_v10) = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v5) = Cert.Spec.kl (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v10 (by decide))).trans (funext fun i => by
        rw [eq_ix2 i]; exact out_eq m ρ hpre c (i 0) (i 1)),
     (h c _ (mem_uc main_v5 (by decide))).trans (funext fun i => by
        rw [eq_ix0 i]; exact kl_eq m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.KernelIdeal.Final

end
-- ==== Proof.RefValue.lean ====
/-
  The reference program's two results, read index by index, are the specification's two functions.

  The first result: at (b, o) the program's composed term is a contraction over the 64 centres of
  exp (−dist / width) against the summed coefficients, divided by the literal one, plus the row of x
  against the column of the base weights. Each float sum starts from the zero word, which is zero; the
  sample axis has one entry, so its sum is that entry; dividing by the literal one changes nothing.
  The second result: half the sum over every index of the three-axis array, re-indexed as a triple sum.
-/
import proofs.«122315_j80719615361567_2_alg».proof.Proof.Gen.ReferenceIdeal.Read
import proofs.«122315_j80719615361567_2_alg».proof.Proof.Spec

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

/-- The word 0x3F800000 denotes the real one. -/
private theorem one_word : Ideal.ofBits .f32 0x3F800000#32 = ((1 : ℝ) : EReal) := by
  simp [Ideal.ofBits, Ideal.ieee, -EReal.coe_mul]; norm_num

/-- Dividing an extended real by the literal one leaves it as it is. -/
private theorem div_one_word (y : EReal) : Ideal.div y (Ideal.ofBits .f32 0x3F800000#32) = y := by
  rw [one_word, Ideal.div_coe one_ne_zero]; simp

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

variable (x : FVec Ideal S4096x512 .f32) (c : FVec Ideal S64x512 .f32) (ls : FVec Ideal S64 .f32)
  (cm clv : FVec Ideal S512x512x64 .f32) (bw : FVec Ideal S512x512 .f32) (ep : FVec Ideal S1x512x512x64 .f32)

/-! The composed index maps of the layout operations, at coordinates. -/

private theorem ix_x (b : Fin 4096) (o : Fin 512) (n : Fin 64) (k : Fin 512) :
    idx_main_v0 (idx_main_v2 (idx_main_v6 (lidx_main_v27 (ix2 b o) n) k)) = ix2 b k :=
  funext fun a => Fin.ext (by match a with | ⟨0, _⟩ => rfl | ⟨1, _⟩ => rfl)

private theorem ix_c (b : Fin 4096) (o : Fin 512) (n : Fin 64) (k : Fin 512) :
    idx_main_v1 (idx_main_v3 (idx_main_v6 (lidx_main_v27 (ix2 b o) n) k)) = ix2 n k :=
  funext fun a => Fin.ext (by match a with | ⟨0, _⟩ => rfl | ⟨1, _⟩ => rfl)

private theorem ix_ls (b : Fin 4096) (o : Fin 512) (n : Fin 64) :
    idx_main_v14 (idx_main_v15 (lidx_main_v27 (ix2 b o) n)) = ix1 n :=
  funext fun a => Fin.ext (by match a with | ⟨0, _⟩ => rfl)

private theorem ix_cm (b : Fin 4096) (o : Fin 512) (n : Fin 64) (s : Fin 1) (k : Fin 512) :
    idx_main_v23 (idx_main_v25 (idx_main_v26 (ridx_main_v27 (ix2 b o) n) s) k) = ix3 k o n :=
  funext fun a => Fin.ext (by match a with | ⟨0, _⟩ => rfl | ⟨1, _⟩ => rfl | ⟨2, _⟩ => rfl)

private theorem ix_clv (b : Fin 4096) (o : Fin 512) (n : Fin 64) (s : Fin 1) (k : Fin 512) :
    idx_main_v21 (idx_main_v25 (idx_main_v26 (ridx_main_v27 (ix2 b o) n) s) k) = ix3 k o n :=
  funext fun a => Fin.ext (by match a with | ⟨0, _⟩ => rfl | ⟨1, _⟩ => rfl | ⟨2, _⟩ => rfl)

private theorem ix_ep (b : Fin 4096) (o : Fin 512) (n : Fin 64) (k : Fin 512) :
    idx_main_v25 (idx_main_v26 (ridx_main_v27 (ix2 b o) n) (0 : Fin 1)) k = ix4 (0 : Fin 1) k o n :=
  funext fun a => Fin.ext (by match a with | ⟨0, _⟩ => rfl | ⟨1, _⟩ => rfl | ⟨2, _⟩ => rfl | ⟨3, _⟩ => rfl)

private theorem ix_xr (b : Fin 4096) (o : Fin 512) (k : Fin 512) : lidx_main_v30 (ix2 b o) k = ix2 b k :=
  funext fun a => Fin.ext (by match a with | ⟨0, _⟩ => rfl | ⟨1, _⟩ => rfl)

private theorem ix_bw (b : Fin 4096) (o : Fin 512) (k : Fin 512) : ridx_main_v30 (ix2 b o) k = ix2 k o :=
  funext fun a => Fin.ext (by match a with | ⟨0, _⟩ => rfl | ⟨1, _⟩ => rfl)

/-- The reference's first result, stage by stage, is the specification's `out`. -/
theorem out_val : val_main_v31 (F := Ideal) x c ls cm clv bw ep = Cert.Spec.out x c ls cm clv bw ep := by
  funext i
  obtain ⟨b, o, rfl⟩ : ∃ (b : Fin 4096) (o : Fin 512), i = ix2 b o := ⟨i 0, i 1, eq_ix2 i⟩
  simp only [val_main_v31_apply, val_main_v30_apply, val_main_v29_apply, val_main_v28_apply, val_main_cst_5_apply,
    val_main_v27_apply, val_main_v26_apply, val_main_cst_4_apply, val_main_v25_apply, val_main_cst_3_apply,
    val_main_v24_apply, val_main_v23_apply, val_main_v22_apply, val_main_v21_apply, val_main_v20_apply,
    val_main_v19_apply, val_main_v18_apply, val_main_cst_2_apply, val_main_v17_apply, val_main_v16_apply,
    val_main_v15_apply, val_main_v14_apply, val_main_v13_apply, val_main_v12_apply, val_main_cst_1_apply,
    val_main_v11_apply, val_main_v10_apply, val_main_cst_0_apply, val_main_v9_apply, val_main_v8_apply,
    val_main_v7_apply, val_main_v6_apply, val_main_cst_apply, val_main_v5_apply, val_main_v4_apply,
    val_main_v3_apply, val_main_v2_apply, val_main_v1_apply, val_main_v0_apply]
  simp only [Fin.sum_univ_one, ix_x, ix_c, ix_ls, ix_cm, ix_clv, ix_ep, ix_xr, ix_bw,
    Ideal.ofBits_def, Ideal.addf_def, Ideal.subf_def, Ideal.mulf_def, Ideal.hostDivf_def, Ideal.hostUnary_exp_def,
    Ideal.hostNegf_def, Ideal.negf_def, Ideal.ofBits_zero_f32, zero_add, div_one_word]
  unfold Spec.out Spec.basis Spec.dist Spec.width Spec.mix Spec.coef Spec.two Spec.half Spec.tiny
  rfl

/-- The reference's second result, stage by stage, is the specification's `kl`. -/
theorem kl_val : val_main_v39 (F := Ideal) cm clv = Cert.Spec.kl cm clv := by
  funext i
  simp only [val_main_v39_apply, val_main_cst_8_apply, val_main_v38_apply, val_main_cst_7_apply, val_main_v37_apply,
    val_main_v36_apply, val_main_v35_apply, val_main_cst_6_apply, val_main_v34_apply, val_main_v33_apply,
    val_main_v32_apply]
  simp only [Ideal.ofBits_def, Ideal.addf_def, Ideal.subf_def, Ideal.mulf_def, Ideal.hostUnary_exp_def,
    Ideal.ofBits_zero_f32, zero_add]
  rw [sum_idx3]
  unfold Spec.kl Spec.klTerm Spec.half Spec.one
  rfl

/-- The first result's term as the run of the reference states it. -/
theorem out_eq :
    (addf (F := Ideal) (Host.divf (F := Ideal) (Host.dotGeneral (F := Ideal) dot_S4096x64_S512x64_S4096x512_1_1_0_0_n_n none (Host.exp (F := Ideal) (Host.divf (F := Ideal) (Host.negf (F := Ideal) (Host.reduceAdd (F := Ideal) (mulf (F := Ideal) (subf (F := Ideal) (broadcastInDim S4096x64x512 ![0, 1, 2] bcast_S4096x1x512_S4096x64x512_0_1_2 (broadcastInDim S4096x1x512 ![0, 2] bcast_S4096x512_S4096x1x512_0_2 x)) (broadcastInDim S4096x64x512 ![0, 1, 2] bcast_S1x64x512_S4096x64x512_0_1_2 (broadcastInDim S1x64x512 ![1, 2] bcast_S64x512_S1x64x512_1_2 c))) (subf (F := Ideal) (broadcastInDim S4096x64x512 ![0, 1, 2] bcast_S4096x1x512_S4096x64x512_0_1_2 (broadcastInDim S4096x1x512 ![0, 2] bcast_S4096x512_S4096x1x512_0_2 x)) (broadcastInDim S4096x64x512 ![0, 1, 2] bcast_S1x64x512_S4096x64x512_0_1_2 (broadcastInDim S1x64x512 ![1, 2] bcast_S64x512_S1x64x512_1_2 c)))) (constant (F := Ideal) S_ .f32 0x00000000#32) reducesTo_S4096x64x512_S4096x64_d2 h_S_)) (broadcastInDim S4096x64 ![0, 1] bcast_S1x64_S4096x64_0_1 (broadcastInDim S1x64 ![1] bcast_S64_S1x64_1 (addf (F := Ideal) (mulf (F := Ideal) (broadcastInDim S64 ![] bcast_S_S64 (constant (F := Ideal) S_ .f32 0x40000000#32)) (mulf (F := Ideal) (Host.exp (F := Ideal) ls) (Host.exp (F := Ideal) ls))) (broadcastInDim S64 ![] bcast_S_S64 (constant (F := Ideal) S_ .f32 0x322BCC77#32))))))) (Host.reduceAdd (F := Ideal) (Host.reduceAdd (F := Ideal) (addf (F := Ideal) (broadcastInDim S1x512x512x64 ![1, 2, 3] bcast_S512x512x64_S1x512x512x64_1_2_3 cm) (mulf (F := Ideal) ep (broadcastInDim S1x512x512x64 ![1, 2, 3] bcast_S512x512x64_S1x512x512x64_1_2_3 (Host.exp (F := Ideal) (mulf (F := Ideal) (broadcastInDim S512x512x64 ![] bcast_S_S512x512x64 (constant (F := Ideal) S_ .f32 0x3F000000#32)) clv))))) (constant (F := Ideal) S_ .f32 0x00000000#32) reducesTo_S1x512x512x64_S1x512x64_d1 h_S_) (constant (F := Ideal) S_ .f32 0x00000000#32) reducesTo_S1x512x64_S512x64_d0 h_S_)) (broadcastInDim S4096x512 ![] bcast_S_S4096x512 (constant (F := Ideal) S_ .f32 0x3F800000#32))) (Host.dotGeneral (F := Ideal) dot_S4096x512_S512x512_S4096x512_1_0_0_1_n_n none x bw) : FVec Ideal S4096x512 .f32)
      = Cert.Spec.out x c ls cm clv bw ep :=
  (val_main_v31_eq (F := Ideal) x c ls cm clv bw ep).trans (out_val x c ls cm clv bw ep)

/-- The second result's term as the run of the reference states it. -/
theorem kl_eq :
    (mulf (F := Ideal) (constant (F := Ideal) S_ .f32 0x3F000000#32) (Host.reduceAdd (F := Ideal) (subf (F := Ideal) (subf (F := Ideal) (addf (F := Ideal) (Host.exp (F := Ideal) clv) (mulf (F := Ideal) cm cm)) (broadcastInDim S512x512x64 ![] bcast_S_S512x512x64 (constant (F := Ideal) S_ .f32 0x3F800000#32))) clv) (constant (F := Ideal) S_ .f32 0x00000000#32) reducesTo_S512x512x64_S_d0_1_2 h_S_) : FVec Ideal S_ .f32)
      = Cert.Spec.kl cm clv :=
  (val_main_v39_eq (F := Ideal) cm clv).trans (kl_val cm clv)

end Cert.RefValue

end
-- ==== Proof.lean ====
/-
  The kernel computes a radial-basis layer with sampled mixing coefficients and the divergence of the coefficients'
  distribution from the unit normal: with x : [4096,512], centres c : [64,512], log-widths ls : [64], coefficient means
  cm and log-variances clv : [512,512,64], base weights bw : [512,512] and one noise sample ep : [1,512,512,64],

      out b o = Σ_n exp(−‖x_b − c_n‖² / (2·exp(ls_n)² + 1e-8)) · Σ_i (cm + ep·exp(½·clv)) i o n  +  Σ_k x b k · bw k o
      kl      = ½ · Σ_{i,o,n} ( exp(clv) + cm² − 1 − clv ) i o n .

  The reference writes the squared distance as the sum of squared differences; the kernel writes it as
  max(‖x_b‖² + ‖c_n‖² − 2·x_b·c_n, 0), the cross term a matrix product, and computes both results in two passes over
  grids: a coefficient pass that accumulates the sum over the 512 input features in eight blocks of 64 (and the
  divergence in the same blocks), and a main pass over four blocks of 1024 rows of x. On the extended reals the two agree
  where x and the centres are real — that is where the precondition is used: the expansion of the square needs
  distributivity, which fails at the infinities, and then the quantity under the max is a sum of squares, so the max is
  idle. Everything else is regrouping of finite sums, the re-association 2·σ·σ = 2·(σ·σ), 0 − d = −d and y / 1 = y, none
  of which needs finiteness.

  The three frames: both kernel programs run through their two grids with every staging buffer, both accumulators and the
  generator register accounted for, and the arguments are written by no host line and by no grid; the reference is a
  straight line of host operations. The idealization rewrote nothing, so its conjunct is trivial.
-/
import proofs.«122315_j80719615361567_2_alg».proof.Defs
import proofs.«122315_j80719615361567_2_alg».proof.Proof.Gen.Kernel
import proofs.«122315_j80719615361567_2_alg».proof.Proof.Gen.KernelIdeal
import proofs.«122315_j80719615361567_2_alg».proof.Proof.Gen.ReferenceIdeal
import proofs.«122315_j80719615361567_2_alg».proof.Proof.Gen.ReferenceIdeal.Run
import proofs.«122315_j80719615361567_2_alg».proof.Proof.Gen.ReferenceIdeal.Read
import proofs.«122315_j80719615361567_2_alg».proof.Proof.Gen.Pre_finite_inputs
import proofs.«122315_j80719615361567_2_alg».proof.Proof.K.Run
import proofs.«122315_j80719615361567_2_alg».proof.Proof.KI.Final
import proofs.«122315_j80719615361567_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to its end and leaves its arguments as launched. -/
theorem frame_k : Cert.frame_Kernel (hKernel := Cert.Kernel.Gen.facts) (hPre_finite_inputs := Cert.Pre_finite_inputs.Gen.facts) :=
  fun m ρ _ => Cert.Kernel.Whole.frame (F := Bits) m ρ

/-- So does its reading over the extended reals. -/
theorem frame_ki : Cert.frame_KernelIdeal (hKernelIdeal := Cert.KernelIdeal.Gen.facts) (hPre_finite_inputs := Cert.Pre_finite_inputs.Gen.facts) :=
  fun m ρ _ => Cert.KernelIdeal.Whole.frame (F := Ideal) m ρ

/-- The reference is a straight line of host operations: its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- Both programs end with the two results at the specification of the arguments, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Spec.kl (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Final.run_values (hP := Cert.Pre_finite_inputs.Gen.facts) m ρ hpre, ?_⟩
  refine (θ_run Cert.ReferenceIdeal.defs _ _).mono (fun _ h c => ⟨?_, ?_, (h c).2.2⟩)
    (Cert.ReferenceIdeal.Value.run (F := Ideal) m' ρ')
  · rw [(h c).1, Cert.RefValue.out_eq, (hagree c).1, (hagree c).2.1, (hagree c).2.2.1, (hagree c).2.2.2.1,
      (hagree c).2.2.2.2.1, (hagree c).2.2.2.2.2.1, (hagree c).2.2.2.2.2.2]
  · rw [(h c).2.1, Cert.RefValue.kl_eq, (hagree c).2.2.2.1, (hagree c).2.2.2.2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
